-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.sign_bit.Statement Cert.KernelIdeal.S16 .f32
  ∧ IdealRules.sign_bit.Statement Cert.KernelIdeal.S16 .f32

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S5000x1000x4 : Shape := ⟨3, ![5000, 1000, 4]⟩
abbrev S5000x1000 : Shape := ⟨2, ![5000, 1000]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S5000x1000x4 : S_.BroadcastsInDim S5000x1000x4 (![] : Fin 0 → Fin S5000x1000x4.rank)
  reducesTo_S5000x1000x4_S_d0_1_2 : S5000x1000x4.ReducesTo [0, 1, 2] S_
  bcast_S_S5000x1000 : S_.BroadcastsInDim S5000x1000 (![] : Fin 0 → Fin S5000x1000.rank)
  reducesTo_S5000x1000_S_d0_1 : S5000x1000.ReducesTo [0, 1] S_

variable [Facts]

def fn_part2 {F : FTy → Type} [FloatOps F] (main_arg6 : IVec S16384 32) (main_v30 : IVec S_ 1) (main_v32 : IVec S16384 1) (main_c_12 : IVec S_ 32) : IVec S_ 1 :=
  let main_v33 : IVec S16384 32 := broadcastInDim S16384 ![] bcast_S_S16384 main_c_12
  let main_v34 : IVec S16384 1 := cmpi .sle main_arg6 main_v33
  let main_v35 : IVec S16384 1 := andi main_v32 main_v34
  let main_c_13 : IVec S_ 1 := constantI S_ 1 1#1
  let main_v36 : IVec S_ 1 := (fun x v => Host.reduce IntOp.andi x v reducesTo_S16384_S_d0 h_S_) main_v35 main_c_13
  let main_v37 : IVec S_ 1 := andi main_v30 main_v36
  main_v37

def fn_part1 {F : FTy → Type} [FloatOps F] (main_arg4 : FVec F S5000x1000 .f32) (main_arg5 : IVec S16384 32) (main_arg6 : IVec S16384 32) (main_v13 : IVec S_ 1) (main_v16 : IVec S5000x1000x4 1) : IVec S_ 1 :=
  let main_c_5 : IVec S_ 1 := constantI S_ 1 1#1
  let main_v17 : IVec S_ 1 := (fun x v => Host.reduce IntOp.andi x v reducesTo_S5000x1000x4_S_d0_1_2 h_S_) main_v16 main_c_5
  let main_v18 : IVec S_ 1 := andi main_v13 main_v17
  let main_v19 : FVec F S5000x1000 .f32 := Host.absf main_arg4
  let main_cst_6 : FVec F S_ .f32 := constant S_ .f32 0x7F800000#32
  let main_v20 : FVec F S5000x1000 .f32 := broadcastInDim S5000x1000 ![] bcast_S_S5000x1000 main_cst_6
  let main_v21 : IVec S5000x1000 1 := cmpf .olt main_v19 main_v20
  let main_c_7 : IVec S_ 1 := constantI S_ 1 1#1
  let main_v22 : IVec S_ 1 := (fun x v => Host.reduce IntOp.andi x v reducesTo_S5000x1000_S_d0_1 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg5 main_v24
  let main_c_9 : IVec S_ 32 := constantI S_ 32 4999#32
  let main_v26 : IVec S16384 32 := broadcastInDim S16384 ![] bcast_S_S16384 main_c_9
  let main_v27 : IVec S16384 1 := cmpi .sle main_arg5 main_v26
  let main_v28 : IVec S16384 1 := andi main_v25 main_v27
  let main_c_10 : IVec S_ 1 := constantI S_ 1 1#1
  let main_v29 : IVec S_ 1 := (fun x v => Host.reduce IntOp.andi x v reducesTo_S16384_S_d0 h_S_) main_v28 main_c_10
  let main_v30 : IVec S_ 1 := andi main_v23 main_v29
  let main_c_11 : IVec S_ 32 := constantI S_ 32 0#32
  let main_v31 : IVec S16384 32 := broadcastInDim S16384 ![] bcast_S_S16384 main_c_11
  let main_v32 : IVec S16384 1 := cmpi .sge main_arg6 main_v31
  let main_c_12 : IVec S_ 32 := constantI S_ 32 999#32
  fn_part2 (F := F) main_arg6 main_v30 main_v32 main_c_12

def fn {F : FTy → Type} [FloatOps F] (main_arg0 : FVec F S16384 .f32) (main_arg1 : FVec F S16384 .f32) (main_arg2 : FVec F S16384 .f32) (main_arg3 : FVec F S5000x1000x4 .f32) (main_arg4 : FVec F S5000x1000 .f32) (main_arg5 : IVec S16384 32) (main_arg6 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S5000x1000x4 .f32 := Host.absf main_arg3
  let main_cst_4 : FVec F S_ .f32 := constant S_ .f32 0x7F800000#32
  let main_v15 : FVec F S5000x1000x4 .f32 := broadcastInDim S5000x1000x4 ![] bcast_S_S5000x1000x4 main_cst_4
  let main_v16 : IVec S5000x1000x4 1 := cmpf .olt main_v14 main_v15
  fn_part1 (F := F) main_arg4 main_arg5 main_arg6 main_v13 main_v16
-- ==== Kernel.lean ====
abbrev S16384 : Shape := ⟨1, ![16384]⟩
abbrev S5000x1000x4 : Shape := ⟨3, ![5000, 1000, 4]⟩
abbrev S5000x1000 : Shape := ⟨2, ![5000, 1000]⟩
abbrev S5000x4x1000 : Shape := ⟨3, ![5000, 4, 1000]⟩
abbrev S20000000 : Shape := ⟨1, ![20000000]⟩
abbrev S5000000 : Shape := ⟨1, ![5000000]⟩
abbrev S512 : Shape := ⟨1, ![512]⟩
abbrev S_ : Shape := ⟨0, ![]⟩
abbrev S16 : Shape := ⟨1, ![16]⟩

abbrev nBuf : Table → Nat
  | .hbm => 11
  | .local .scVector .vmem => 10
  | _ => 0

abbrev bufTy : (tb : Table) → Fin (nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S5000x1000x4, .f32⟩
  | .hbm, ⟨4, _⟩ => ⟨S5000x1000, .f32⟩
  | .hbm, ⟨5, _⟩ => ⟨S16384, .i32⟩
  | .hbm, ⟨6, _⟩ => ⟨S16384, .i32⟩
  | .hbm, ⟨7, _⟩ => ⟨S5000x4x1000, .f32⟩
  | .hbm, ⟨8, _⟩ => ⟨S20000000, .f32⟩
  | .hbm, ⟨9, _⟩ => ⟨S5000000, .f32⟩
  | .hbm, ⟨10, _⟩ => ⟨S16384, .f32⟩
  | .local .scVector .vmem, ⟨0, _⟩ => ⟨S512, .f32⟩
  | .local .scVector .vmem, ⟨1, _⟩ => ⟨S512, .f32⟩
  | .local .scVector .vmem, ⟨2, _⟩ => ⟨S512, .f32⟩
  | .local .scVector .vmem, ⟨3, _⟩ => ⟨S512, .i32⟩
  | .local .scVector .vmem, ⟨4, _⟩ => ⟨S512, .i32⟩
  | .local .scVector .vmem, ⟨5, _⟩ => ⟨S512, .i32⟩
  | .local .scVector .vmem, ⟨6, _⟩ => ⟨S512, .i32⟩
  | .local .scVector .vmem, ⟨7, _⟩ => ⟨S512, .f32⟩
  | .local .scVector .vmem, ⟨8, _⟩ => ⟨S512, .f32⟩
  | .local .scVector .vmem, ⟨9, _⟩ => ⟨S512, .f32⟩
  | _, _ => ⟨S16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v1_scv : Ref sig .scVector := ⟨.hbm, 8, rfl⟩
abbrev main_v2_scv : Ref sig .scVector := ⟨.hbm, 9, rfl⟩
abbrev main_arg5_scv : Ref sig .scVector := ⟨.hbm, 5, rfl⟩
abbrev main_arg6_scv : Ref sig .scVector := ⟨.hbm, 6, rfl⟩
abbrev main_v3_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v10 : Index := Scalar.indexCast v9
  ![v10.toNat]
@[reducible] def k0_t2_loop : Scf.Loop 32 :=
  let c0_i32_7 : BitVec 32 := 0#32
  let c32_i32_8 : BitVec 32 := 32#32
  let v8 : BitVec 32 := Scalar.addi c0_i32_7 c32_i32_8
  let c1_i32_9 : BitVec 32 := 1#32
  ⟨c0_i32_7, v8, c1_i32_9⟩
def k0_off3 (k0_t2 : Fin k0_t2_loop.trips) : Fin 1 → Nat :=
  let c0_i32_7 : BitVec 32 := 0#32
  let c1_i32_9 : BitVec 32 := 1#32
  let arg22 : BitVec 32 := Scf.iv c0_i32_7 c1_i32_9 k0_t2
  let c16_i32 : BitVec 32 := 16#32
  let v9 : BitVec 32 := Scalar.muli arg22 c16_i32
  let v10 : Index := Scalar.indexCast v9
  ![v10.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S5000x1000x4_S5000x4x1000_0_2_1 : S5000x1000x4.Transposes [0, 2, 1] S5000x4x1000
  shapeCasts_S5000x4x1000_S20000000 : S5000x4x1000.ShapeCasts S20000000
  shapeCasts_S5000x1000_S5000000 : S5000x1000.ShapeCasts S5000000
  h_S16 : 0 < S16.numel
  shapeCasts_S16_S16 : S16.ShapeCasts S16
  inb_S5000000_S5000000_0 : ∀ a, (![0] : Fin 1 → Nat) a + S5000000.size a ≤ S5000000.size a
  gathers_S5000000_S512 : S5000000.Gathers 0 S512
  inb_S20000000_S20000000_0 : ∀ a, (![0] : Fin 1 → Nat) a + S20000000.size a ≤ S20000000.size a
  gathers_S20000000_S512 : S20000000.Gathers 0 S512
  hcc0_scratch10 : 0 + S_.numel ≤ 8
  hcc0_scratch11 : 1 + S_.numel ≤ 8
  hcc0_scoped0 : 2 + S_.numel ≤ 8
  hcc0_scoped1 : 3 + S_.numel ≤ 8
  hcc0_scoped2 : 4 + S_.numel ≤ 8
  hcc0_scoped3 : 5 + S_.numel ≤ 8
  hcc0_scoped4 : 6 + S_.numel ≤ 8
  hcc0_scoped5 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_t2_ok : k0_t2_loop.OK
  k0_off3_inb : ∀ k0_t2 : Fin k0_t2_loop.trips, ∀ a, (k0_off3 k0_t2) a + S16.size a ≤ S512.size a

variable [Facts₀]

abbrev cc0_scratch10 : DmaSems sig S_ := SemArray.consecutive 0 S_ hcc0_scratch10
abbrev cc0_scratch11 : DmaSems sig S_ := SemArray.consecutive 1 S_ hcc0_scratch11
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5

class Facts : Prop extends Facts₀ where

variable [Facts]
-- ==== ReferenceIdeal.lean ====
abbrev S16384 : Shape := ⟨1, ![16384]⟩
abbrev S5000x1000x4 : Shape := ⟨3, ![5000, 1000, 4]⟩
abbrev S5000x1000 : Shape := ⟨2, ![5000, 1000]⟩
abbrev S_ : Shape := ⟨0, ![]⟩
abbrev S16384x1 : Shape := ⟨2, ![16384, 1]⟩
abbrev S16384x2 : Shape := ⟨2, ![16384, 2]⟩
abbrev S16384x3 : Shape := ⟨2, ![16384, 3]⟩

abbrev nBuf : Space → Nat
  | .hbm => 100
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S5000x1000x4, .f32⟩
  | .hbm, ⟨4, _⟩ => ⟨S5000x1000, .f32⟩
  | .hbm, ⟨5, _⟩ => ⟨S16384, .i32⟩
  | .hbm, ⟨6, _⟩ => ⟨S16384, .i32⟩
  | .hbm, ⟨7, _⟩ => ⟨S16384, .f32⟩
  | .hbm, ⟨8, _⟩ => ⟨S16384, .f32⟩
  | .hbm, ⟨9, _⟩ => ⟨S16384, .i1⟩
  | .hbm, ⟨10, _⟩ => ⟨S_, .f32⟩
  | .hbm, ⟨11, _⟩ => ⟨S16384, .f32⟩
  | .hbm, ⟨12, _⟩ => ⟨S16384, .i1⟩
  | .hbm, ⟨13, _⟩ => ⟨S16384, .i1⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x1, .i32⟩
  | .hbm, ⟨37, _⟩ => ⟨S16384x2, .i32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S16384, .i1⟩
  | .hbm, ⟨48, _⟩ => ⟨S_, .f32⟩
  | .hbm, ⟨49, _⟩ => ⟨S16384, .f32⟩
  | .hbm, ⟨50, _⟩ => ⟨S16384, .i1⟩
  | .hbm, ⟨51, _⟩ => ⟨S_, .i32⟩
  | .hbm, ⟨52, _⟩ => ⟨S_, .i32⟩
  | .hbm, ⟨53, _⟩ => ⟨S16384, .i32⟩
  | .hbm, ⟨54, _⟩ => ⟨S16384, .i32⟩
  | .hbm, ⟨55, _⟩ => ⟨S16384, .i32⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S_, .i32⟩
  | .hbm, ⟨61, _⟩ => ⟨S16384, .i32⟩
  | .hbm, ⟨62, _⟩ => ⟨S16384, .i1⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S16384, .i32⟩
  | .hbm, ⟨67, _⟩ => ⟨S_, .i32⟩
  | .hbm, ⟨68, _⟩ => ⟨S16384, .i32⟩
  | .hbm, ⟨69, _⟩ => ⟨S16384, .i1⟩
  | .hbm, ⟨70, _⟩ => ⟨S_, .i32⟩
  | .hbm, ⟨71, _⟩ => ⟨S16384, .i32⟩
  | .hbm, ⟨72, _⟩ => ⟨S16384, .i32⟩
  | .hbm, ⟨73, _⟩ => ⟨S16384, .i32⟩
  | .hbm, ⟨74, _⟩ => ⟨S_, .i32⟩
  | .hbm, ⟨75, _⟩ => ⟨S16384, .i32⟩
  | .hbm, ⟨76, _⟩ => ⟨S16384, .i1⟩
  | .hbm, ⟨77, _⟩ => ⟨S_, .i32⟩
  | .hbm, ⟨78, _⟩ => ⟨S16384, .i32⟩
  | .hbm, ⟨79, _⟩ => ⟨S16384, .i32⟩
  | .hbm, ⟨80, _⟩ => ⟨S16384, .i32⟩
  | .hbm, ⟨81, _⟩ => ⟨S16384x1, .i32⟩
  | .hbm, ⟨82, _⟩ => ⟨S16384x1, .i32⟩
  | .hbm, ⟨83, _⟩ => ⟨S16384x1, .i32⟩
  | .hbm, ⟨84, _⟩ => ⟨S16384x3, .i32⟩
  | .hbm, ⟨85, _⟩ => ⟨S16384, .f32⟩
  | .hbm, ⟨86, _⟩ => ⟨S_, .f32⟩
  | .hbm, ⟨87, _⟩ => ⟨S16384, .f32⟩
  | .hbm, ⟨88, _⟩ => ⟨S16384, .i1⟩
  | .hbm, ⟨89, _⟩ => ⟨S16384, .f32⟩
  | .hbm, ⟨90, _⟩ => ⟨S16384, .f32⟩
  | .hbm, ⟨91, _⟩ => ⟨S16384, .f32⟩
  | .hbm, ⟨92, _⟩ => ⟨S16384, .f32⟩
  | .hbm, ⟨93, _⟩ => ⟨S16384, .f32⟩
  | .hbm, ⟨94, _⟩ => ⟨S16384, .i1⟩
  | .hbm, ⟨95, _⟩ => ⟨S_, .f32⟩
  | .hbm, ⟨96, _⟩ => ⟨S16384, .f32⟩
  | .hbm, ⟨97, _⟩ => ⟨S16384, .i1⟩
  | .hbm, ⟨98, _⟩ => ⟨S16384, .i1⟩
  | .hbm, ⟨99, _⟩ => ⟨S16384, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_c_10 : Ref sig .tc := ⟨.hbm, 52, rfl⟩
abbrev main_call1_v0 : Ref sig .tc := ⟨.hbm, 53, rfl⟩
abbrev main_call1_v1 : Ref sig .tc := ⟨.hbm, 54, rfl⟩
abbrev main_v33 : Ref sig .tc := ⟨.hbm, 55, rfl⟩
abbrev main_c_11 : Ref sig .tc := ⟨.hbm, 56, rfl⟩
abbrev main_call2_v0 : Ref sig .tc := ⟨.hbm, 57, rfl⟩
abbrev main_v34 : Ref sig .tc := ⟨.hbm, 58, rfl⟩
abbrev main_v35 : Ref sig .tc := ⟨.hbm, 59, rfl⟩
abbrev main_c_12 : Ref sig .tc := ⟨.hbm, 60, rfl⟩
abbrev main_v36 : Ref sig .tc := ⟨.hbm, 61, rfl⟩
abbrev main_v37 : Ref sig .tc := ⟨.hbm, 62, rfl⟩
abbrev main_c_13 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_14 : Ref sig .tc := ⟨.hbm, 67, rfl⟩
abbrev main_v41 : Ref sig .tc := ⟨.hbm, 68, rfl⟩
abbrev main_v42 : Ref sig .tc := ⟨.hbm, 69, rfl⟩
abbrev main_c_15 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_16 : Ref sig .tc := ⟨.hbm, 74, rfl⟩
abbrev main_v46 : Ref sig .tc := ⟨.hbm, 75, rfl⟩
abbrev main_v47 : Ref sig .tc := ⟨.hbm, 76, rfl⟩
abbrev main_c_17 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_18 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_19 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  concatenates_S16384x1_S16384x1_S16384x1_S16384x3_d1 : Shape.Concatenates [S16384x1, S16384x1, S16384x1] S16384x3 1
  gather_S5000x1000_S16384x2_S16384_n_01_n_n_01_1_11_wf : GatherDims.WF S5000x1000 S16384x2 S16384 [] [0, 1] [] [0, 1] [] 1 ![1, 1]
  gather_S5000x1000x4_S16384x3_S16384_n_012_n_n_012_1_111_wf : GatherDims.WF S5000x1000x4 S16384x3 S16384 [] [0, 1, 2] [] [0, 1, 2] [] 1 ![1, 1, 1]

variable [Facts₀]

def gather_S5000x1000_S16384x2_S16384_n_01_n_n_01_1_11 : GatherDims S5000x1000 S16384x2 S16384 where
  offsetDims := []
  collapsedSliceDims := [0, 1]
  operandBatchingDims := []
  startIndicesBatchingDims := []
  startIndexMap := [0, 1]
  indexVectorDim := 1
  sliceSizes := ![1, 1]
  wf := gather_S5000x1000_S16384x2_S16384_n_01_n_n_01_1_11_wf
def gather_S5000x1000x4_S16384x3_S16384_n_012_n_n_012_1_111 : GatherDims S5000x1000x4 S16384x3 S16384 where
  offsetDims := []
  collapsedSliceDims := [0, 1, 2]
  operandBatchingDims := []
  startIndicesBatchingDims := []
  startIndexMap := [0, 1, 2]
  indexVectorDim := 1
  sliceSizes := ![1, 1, 1]
  wf := gather_S5000x1000x4_S16384x3_S16384_n_012_n_n_012_1_111_wf

class Facts : Prop extends Facts₀ where

variable [Facts]
-- ==== Proof.RefFrame.lean ====
/-
  The reference's frame: the reference is a host program of ninety-one StableHLO operations and no kernel; every
  weakly fair execution of it ends, nothing faults, and its arguments end unchanged — its generated run with the
  result's value dropped.
-/
import proofs.«202963_g88613765251846_cont_sun_m_1299_31_alg».proof.Defs
import proofs.«202963_g88613765251846_cont_sun_m_1299_31_alg».proof.Proof.Gen.ReferenceIdeal
import proofs.«202963_g88613765251846_cont_sun_m_1299_31_alg».proof.Proof.RefRunP
import proofs.«202963_g88613765251846_cont_sun_m_1299_31_alg».proof.Proof.RefReadP
import proofs.«202963_g88613765251846_cont_sun_m_1299_31_alg».proof.Proof.Gen.Pre_input_domain

noncomputable section

namespace Cert.Proof.RefFrame

open Idealize.ShloMosaic Idealize.SL.Sem

theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.TileSetupB.lean ====
/-
  A stop-loss update over 16384 positions on the two SparseCores: thirty-two vector subcores, subcore s of core c taking
  the 512 positions from 512 * (2 s + c) on. Each subcore copies its block of the date and time indices, of the position,
  the action and the previous stop into its own memory; forms, sixteen lanes at a time, the flat index d * 1000 + t into
  the table of ratios laid out as one row of 5,000,000 words and the flat index ((4 d + ch) * 1000 + t) into the price
  table transposed to [date, channel, time] and laid out as one row of 20,000,000 words, the channel ch being 3 where the
  position is zero, 1 where the sign of position + action is positive and 2 otherwise; gathers the 512 ratios and the 512
  prices those indices name; computes the new stop sixteen lanes at a time and copies its block of the result out.

  This module: the program as the launch theorem sees it, the ghost state (the handshakes' rounds beside the transfers'
  counters), the arrays as the TensorCore and as a subcore name them, the block of a subcore as a set of indices, and the
  pure functions of the launch memory that each scratch buffer holds at each stage — stated for any float instance.
-/
import proofs.«202963_g88613765251846_cont_sun_m_1299_31_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.WritesUnit
import Idealize.ShloMosaic.Lib.ValueIdx
import Idealize.ShloMosaic.Lib.Pipeline.Value
import proofs.«202963_g88613765251846_cont_sun_m_1299_31_alg».proof.Proof.Gen.Kernel
import proofs.«202963_g88613765251846_cont_sun_m_1299_31_alg».proof.Proof.Gen.Kernel.Skeleton

noncomputable section

namespace Cert.Proof.TileBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, as the TensorCore names them -/

abbrev posLoc (d : Dev nD) : Loc nD τ sig := (SparseCore.T d).loc main_arg0
abbrev prevLoc (d : Dev nD) : Loc nD τ sig := (SparseCore.T d).loc main_arg1
abbrev actLoc (d : Dev nD) : Loc nD τ sig := (SparseCore.T d).loc main_arg2
abbrev dataLoc (d : Dev nD) : Loc nD τ sig := (SparseCore.T d).loc main_arg3
abbrev artrLoc (d : Dev nD) : Loc nD τ sig := (SparseCore.T d).loc main_arg4
abbrev dateLoc (d : Dev nD) : Loc nD τ sig := (SparseCore.T d).loc main_arg5
abbrev timeLoc (d : Dev nD) : Loc nD τ sig := (SparseCore.T d).loc main_arg6
abbrev tdataLoc (d : Dev nD) : Loc nD τ sig := (SparseCore.T d).loc main_v0
abbrev fdataLoc (d : Dev nD) : Loc nD τ sig := (SparseCore.T d).loc main_v1
abbrev fartrLoc (d : Dev nD) : Loc nD τ sig := (SparseCore.T d).loc main_v2
abbrev outLoc (d : Dev nD) : Loc nD τ sig := (SparseCore.T d).loc main_v3

/-! ## A subcore's block -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The 512 positions of the subcore at `L`, as the kernel slices them: from `512 * (2 * L 1 + L 0)` on. -/
abbrev blkR (L : grid0.Coords) : Rect S16384 := Rect.unit (s := S16384) (k0_off1 L) S512.size (k0_off1_inb L)
/-- The same as a set of indices of a 16384-array. -/
def blkSet (L : grid0.Coords) : Finset S16384.Idx := (blkR L).set

theorem mem_blkSet (L : grid0.Coords) (j : S16384.Idx) :
    j ∈ blkSet L ↔ 1024 * (L 1).val + 512 * (L 0).val ≤ (j 0).val ∧ (j 0).val < 1024 * (L 1).val + 512 * (L 0).val + 512 := by
  unfold blkSet blkR
  rw [Rect.mem_set_unit, k0_off1_eq]
  constructor
  · intro h; have := h 0; simpa using this
  · intro h a; obtain rfl : a = 0 := Subsingleton.elim _ _; simpa using h

/-- The position `x` of the block at `L`, as an index of the 16384-array. -/
def blkIdx (L : grid0.Coords) (x : S512.Idx) : S16384.Idx :=
  ix1 (⟨1024 * (L 1).val + 512 * (L 0).val + (x 0).val, by
    have h1 : (L 1).val < 16 := (L 1).isLt
    have h0 : (L 0).val < 2 := (L 0).isLt
    have hx : (x 0).val < 512 := (x 0).isLt
    omega⟩ : Fin 16384)

theorem blkR_emb (L : grid0.Coords) (x : S512.Idx) : (blkR L).emb x = blkIdx L x := by
  funext a; match a with
  | ⟨0, _⟩ =>
    apply Fin.ext
    show (k0_off1 L) 0 + 1 * (x 0).val = 1024 * (L 1).val + 512 * (L 0).val + (x 0).val
    rw [k0_off1_eq]; simp

/-! ## Sixteen lanes of a 512-buffer -/

/-- Lane `l` of the `k`-th group of sixteen. -/
def lane (k : Fin 32) (l : S16.Idx) : S512.Idx :=
  ix1 (⟨16 * k.val + (l 0).val, by
    have hk : k.val < 32 := k.isLt
    have hl : (l 0).val < 16 := (l 0).isLt
    omega⟩ : Fin 512)
/-- The group of sixteen an index of a 512-buffer lies in, and its lane there. -/
def grp (j : S512.Idx) : Fin 32 := ⟨(j 0).val / 16, by have : (j 0).val < 512 := (j 0).isLt; omega⟩
def lan (j : S512.Idx) : S16.Idx := ix1 (⟨(j 0).val % 16, Nat.mod_lt _ (by decide)⟩ : Fin 16)
theorem lane_grp_lan (j : S512.Idx) : lane (grp j) (lan j) = j := by
  funext a; match a with
  | ⟨0, _⟩ =>
    apply Fin.ext
    show 16 * ((j 0).val / 16) + (j 0).val % 16 = (j 0).val
    omega
theorem grp_lane (k : Fin 32) (l : S16.Idx) : grp (lane k l) = k := by
  apply Fin.ext
  show (16 * k.val + (l 0).val) / 16 = k.val
  have hl : (l 0).val < 16 := (l 0).isLt
  omega
theorem lan_lane (k : Fin 32) (l : S16.Idx) : lan (lane k l) = l := by
  funext a; match a with
  | ⟨0, _⟩ =>
    apply Fin.ext
    show (16 * k.val + (l 0).val) % 16 = (l 0).val
    have hl : (l 0).val < 16 := (l 0).isLt
    omega
/-- The sixteen lanes of group `k` of a 512-buffer's contents. -/
def grp16 {α : Type} (f : S512.Idx → α) (k : Fin 32) : S16.Idx → α := fun l => f (lane k l)

end Cert.Proof.TileBits

end
-- ==== Proof.TileBodyB.lean ====
/-
  One vector subcore's task, once, at a symbolic place (core c, subcore s): from its block of the five per-position
  arguments and of the result, a read share of the two flattened tables and its own ten scratch buffers and eight DMA
  semaphores, the task ends — nothing faulting, every wait answered — with the arguments' blocks and the tables as they
  were and its block of the result holding, at position x of the block, the new stop computed from the block's
  position, action and previous stop at x, the ratio at flat index d * 1000 + t and the price at flat index
  ((4 d + ch) * 1000 + t). The two loops go by invariants: before trip k the buffers a loop fills agree with their
  final contents on the first 16 k elements. The two gathers complete on semaphores of their own and are both waited
  for before either gathered buffer is read. Both flat indices name rows of their tables because every date index is
  below 5000, every time index below 1000 and the channel is 1, 2 or 3. Stated for any float instance.
-/
import proofs.«202963_g88613765251846_cont_sun_m_1299_31_alg».proof.Proof.TileSetupB

noncomputable section

namespace Cert.Proof.TileBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "posW" => (Memref.whole Cert.Kernel.main_arg0_scv : Memref Cert.Kernel.sig Kind.scVector Space.hbm Cert.Kernel.S16384 EltTy.f32)
local notation "prevW" => (Memref.whole Cert.Kernel.main_arg1_scv : Memref Cert.Kernel.sig Kind.scVector Space.hbm Cert.Kernel.S16384 EltTy.f32)
local notation "actW" => (Memref.whole Cert.Kernel.main_arg2_scv : Memref Cert.Kernel.sig Kind.scVector Space.hbm Cert.Kernel.S16384 EltTy.f32)
local notation "fdataW" => (Memref.whole Cert.Kernel.main_v1_scv : Memref Cert.Kernel.sig Kind.scVector Space.hbm Cert.Kernel.S20000000 EltTy.f32)
local notation "fartrW" => (Memref.whole Cert.Kernel.main_v2_scv : Memref Cert.Kernel.sig Kind.scVector Space.hbm Cert.Kernel.S5000000 EltTy.f32)
local notation "dateW" => (Memref.whole Cert.Kernel.main_arg5_scv : Memref Cert.Kernel.sig Kind.scVector Space.hbm Cert.Kernel.S16384 EltTy.i32)
local notation "timeW" => (Memref.whole Cert.Kernel.main_arg6_scv : Memref Cert.Kernel.sig Kind.scVector Space.hbm Cert.Kernel.S16384 EltTy.i32)
local notation "outW" => (Memref.whole Cert.Kernel.main_v3_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S512 EltTy.f32)
local notation "s1W" => (Memref.whole Cert.Kernel.cc0_scratch1 : Memref Cert.Kernel.sig Kind.scVector Space.vmem Cert.Kernel.S512 EltTy.f32)
local notation "s2W" => (Memref.whole Cert.Kernel.cc0_scratch2 : Memref Cert.Kernel.sig Kind.scVector Space.vmem Cert.Kernel.S512 EltTy.f32)
local notation "s3W" => (Memref.whole Cert.Kernel.cc0_scratch3 : Memref Cert.Kernel.sig Kind.scVector Space.vmem Cert.Kernel.S512 EltTy.i32)
local notation "s4W" => (Memref.whole Cert.Kernel.cc0_scratch4 : Memref Cert.Kernel.sig Kind.scVector Space.vmem Cert.Kernel.S512 EltTy.i32)
local notation "s5W" => (Memref.whole Cert.Kernel.cc0_scratch5 : Memref Cert.Kernel.sig Kind.scVector Space.vmem Cert.Kernel.S512 EltTy.i32)
local notation "s6W" => (Memref.whole Cert.Kernel.cc0_scratch6 : Memref Cert.Kernel.sig Kind.scVector Space.vmem Cert.Kernel.S512 EltTy.i32)
local notation "s7W" => (Memref.whole Cert.Kernel.cc0_scratch7 : Memref Cert.Kernel.sig Kind.scVector Space.vmem Cert.Kernel.S512 EltTy.f32)
local notation "s8W" => (Memref.whole Cert.Kernel.cc0_scratch8 : Memref Cert.Kernel.sig Kind.scVector Space.vmem Cert.Kernel.S512 EltTy.f32)
local notation "s9W" => (Memref.whole Cert.Kernel.cc0_scratch9 : Memref Cert.Kernel.sig Kind.scVector Space.vmem Cert.Kernel.S512 EltTy.f32)

variable [BitOps F]

/-! ## A subcore's own storage: ten scratch buffers and eight DMA semaphores -/

def scr : Fin 10 → Ref sig .scVector
  | 0 => cc0_scratch0 | 1 => cc0_scratch1 | 2 => cc0_scratch2 | 3 => cc0_scratch3 | 4 => cc0_scratch4
  | 5 => cc0_scratch5 | 6 => cc0_scratch6 | 7 => cc0_scratch7 | 8 => cc0_scratch8 | 9 => cc0_scratch9

omit [BitOps F] in
theorem scr_injective : Function.Injective scr := by decide

section Tile

variable (d : Dev nD) (L : grid0.Coords)

abbrev thr (d : Dev nD) (L : grid0.Coords) : Thread nD τ := V d (cV L) (jV L)

omit [BitOps F] in
theorem ownBufs_V :
    (ownBufs (thr d L) : sProp 𝕄)
      = iprop((bigSep Finset.univ fun k : Fin 10 => iprop(∃ f, ((d, (Proc.scVector (cV L) (jV L)).devRef (scr k)) : Loc nD τ sig) ↦{fullShare} f))
          ∗ bigSep ((ownRefs (τ := τ) (.scVector (cV L) (jV L))) \ (Finset.univ.image fun k : Fin 10 => (Proc.scVector (cV L) (jV L)).devRef (scr k)))
              fun b => iprop(∃ f, ((d, b) : Loc nD τ sig) ↦{fullShare} f)) := by
  unfold SparseCore.Cfg.ownBufs
  rw [SparseCore.bigSep_sdiff_split' (t := Finset.univ.image fun k : Fin 10 => (Proc.scVector (cV L) (jV L)).devRef (scr k)) ?h,
    SparseCore.bigSep_image_of_injOn (show Function.Injective (fun k : Fin 10 => (Proc.scVector (cV L) (jV L)).devRef (scr k)) from
      (Proc.devRef_injective _).comp scr_injective).injOn]
  case h =>
    intro b hb
    obtain ⟨k, -, rfl⟩ := Finset.mem_image.mp hb
    exact SparseCore.Cfg.mem_ownRefs_of_owner (p := Proc.scVector (cV L) (jV L)) (by fin_cases k <;> rfl)

end Tile

def dsem : Fin 8 → DmaSem sig
  | 0 => cc0_scratch10.sem | 1 => cc0_scratch11.sem | 2 => cc0_scoped0.sem | 3 => cc0_scoped1.sem
  | 4 => cc0_scoped2.sem | 5 => cc0_scoped3.sem | 6 => cc0_scoped4.sem | 7 => cc0_scoped5.sem

omit [BitOps F] in
theorem dsem_injective : Function.Injective dsem := by decide

section Tile2

variable (d : Dev nD) (L : grid0.Coords)

omit [BitOps F] in
theorem ownSems0_V :
    (ownSems0 (thr d L) : sProp 𝕄)
      = iprop((bigSep Finset.univ fun k : Fin 8 => semVal ((thr d L, SemLoc.dma (dsem k)) : GSem nD τ sig) 0)
          ∗ bigSep ((ownCells (thr d L)) \ (Finset.univ.image fun k : Fin 8 => ((thr d L, SemLoc.dma (dsem k)) : GSem nD τ sig)))
              fun g => semVal g 0) := by
  unfold SparseCore.Cfg.ownSems0
  rw [SparseCore.bigSep_sdiff_split' (t := Finset.univ.image fun k : Fin 8 => ((thr d L, SemLoc.dma (dsem k)) : GSem nD τ sig)) ?h,
    SparseCore.bigSep_image_of_injOn (show Function.Injective (fun k : Fin 8 => ((thr d L, SemLoc.dma (dsem k)) : GSem nD τ sig)) from
      fun a b e => dsem_injective (SemLoc.dma.inj (Prod.mk.inj e).2)).injOn]
  case h =>
    intro g hg
    obtain ⟨k, -, rfl⟩ := Finset.mem_image.mp hg
    exact (mem_ownCells (g := ((thr d L, SemLoc.dma (dsem k)) : GSem nD τ sig))).mpr ⟨rfl, by
      show (SemLoc.dma (dsem k) : SemLoc sig).isScoped .scVector = true
      fin_cases k <;> decide⟩

end Tile2

section Tile3

variable (d : Dev nD) (L : grid0.Coords)

omit [BitOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  repeat rw [SparseCore.bigSep_insert' (by decide)]
  rw [bigSep_singleton]
omit [BitOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [SparseCore.bigSep_insert' (by decide)]
  rw [bigSep_singleton]

/-- The rest of a subcore's own buffers and cells: carried along untouched. -/
abbrev restBufs : sProp 𝕄 :=
  bigSep ((ownRefs (τ := τ) (.scVector (cV L) (jV L))) \ (Finset.univ.image fun k : Fin 10 => (Proc.scVector (cV L) (jV L)).devRef (scr k)))
    fun b => iprop(∃ f, ((d, b) : Loc nD τ sig) ↦{fullShare} f)
abbrev restSems : sProp 𝕄 :=
  bigSep ((ownCells (thr d L)) \ (Finset.univ.image fun k : Fin 8 => ((thr d L, SemLoc.dma (dsem k)) : GSem nD τ sig))) fun g => semVal g 0

omit [BitOps F] in
theorem ownBufs_V' :
    (ownBufs (thr d L) : sProp 𝕄)
      = iprop(((∃ f, (s0W).view.loc (thr d L) ↦{fullShare} f) ∗ (∃ f, (s1W).view.loc (thr d L) ↦{fullShare} f) ∗ (∃ f, (s2W).view.loc (thr d L) ↦{fullShare} f)
          ∗ (∃ f, (s3W).view.loc (thr d L) ↦{fullShare} f) ∗ (∃ f, (s4W).view.loc (thr d L) ↦{fullShare} f) ∗ (∃ f, (s5W).view.loc (thr d L) ↦{fullShare} f)
          ∗ (∃ f, (s6W).view.loc (thr d L) ↦{fullShare} f) ∗ (∃ f, (s7W).view.loc (thr d L) ↦{fullShare} f) ∗ (∃ f, (s8W).view.loc (thr d L) ↦{fullShare} f)
          ∗ (∃ f, (s9W).view.loc (thr d L) ↦{fullShare} f)) ∗ restBufs (F := F) d L) := by
  rw [ownBufs_V, bigSep_fin10]; rfl

omit [BitOps F] in
theorem ownSems0_V' :
    (ownSems0 (thr d L) : sProp 𝕄)
      = iprop((semVal ((thr d L, SemLoc.dma cc0_scratch10.sem) : GSem nD τ sig) 0 ∗ semVal ((thr d L, SemLoc.dma cc0_scratch11.sem) : GSem nD τ sig) 0
          ∗ semVal ((thr d L, SemLoc.dma cc0_scoped0.sem) : GSem nD τ sig) 0 ∗ semVal ((thr d L, SemLoc.dma cc0_scoped1.sem) : GSem nD τ sig) 0
          ∗ semVal ((thr d L, SemLoc.dma cc0_scoped2.sem) : GSem nD τ sig) 0 ∗ semVal ((thr d L, SemLoc.dma cc0_scoped3.sem) : GSem nD τ sig) 0
          ∗ semVal ((thr d L, SemLoc.dma cc0_scoped4.sem) : GSem nD τ sig) 0 ∗ semVal ((thr d L, SemLoc.dma cc0_scoped5.sem) : GSem nD τ sig) 0)
          ∗ restSems (F := F) d L) := by
  rw [ownSems0_V, bigSep_fin8]; rfl

/-! ## The blocks as the subcore slices them -/

abbrev posBlk : Memref sig .scVector .hbm S512 .f32 := (posW).slice (blkR L) (fun _ => rfl)
abbrev prevBlk : Memref sig .scVector .hbm S512 .f32 := (prevW).slice (blkR L) (fun _ => rfl)
abbrev actBlk : Memref sig .scVector .hbm S512 .f32 := (actW).slice (blkR L) (fun _ => rfl)
abbrev dateBlk : Memref sig .scVector .hbm S512 .i32 := (dateW).slice (blkR L) (fun _ => rfl)
abbrev timeBlk : Memref sig .scVector .hbm S512 .i32 := (timeW).slice (blkR L) (fun _ => rfl)
abbrev outBlk : Memref sig .scVector .hbm S512 .f32 := (outW).slice (blkR L) (fun _ => rfl)

omit [BitOps F] in
theorem set_posBlk : (posBlk L).view.set = blkSet L := by
  show ((View.whole (main_arg0_scv : Ref sig .scVector)).slice (blkR L)).set = _
  rw [View.set_slice]; exact Finset.map_refl
omit [BitOps F] in
theorem set_prevBlk : (prevBlk L).view.set = blkSet L := by
  show ((View.whole (main_arg1_scv : Ref sig .scVector)).slice (blkR L)).set = _
  rw [View.set_slice]; exact Finset.map_refl
omit [BitOps F] in
theorem set_actBlk : (actBlk L).view.set = blkSet L := by
  show ((View.whole (main_arg2_scv : Ref sig .scVector)).slice (blkR L)).set = _
  rw [View.set_slice]; exact Finset.map_refl
omit [BitOps F] in
theorem set_dateBlk : (dateBlk L).view.set = blkSet L := by
  show ((View.whole (main_arg5_scv : Ref sig .scVector)).slice (blkR L)).set = _
  rw [View.set_slice]; exact Finset.map_refl
omit [BitOps F] in
theorem set_timeBlk : (timeBlk L).view.set = blkSet L := by
  show ((View.whole (main_arg6_scv : Ref sig .scVector)).slice (blkR L)).set = _
  rw [View.set_slice]; exact Finset.map_refl
omit [BitOps F] in
theorem set_outBlk : (outBlk L).view.set = blkSet L := by
  show ((View.whole (main_v3_scv : Ref sig .scVector)).slice (blkR L)).set = _
  rw [View.set_slice]; exact Finset.map_refl

/-- The share of the two tables the subcore at `L` reads under. -/
def tokq (L : grid0.Coords) : PosShare TreeShare := Transfers.shareTokN fullShare (2 * (L 1).val + (L 0).val)

variable (fD : Buf (Elt F) (fdataLoc d)) (fA : Buf (Elt F) (fartrLoc d))

/-- What the go signal hands the subcore at `L`: its block of the five per-position arguments and of the result,
    and a read share of the two tables. -/
def GO (fo : Buf (Elt F) (outLoc d)) : sProp 𝕄 :=
  iprop((posLoc d ↦[blkSet L]{fullShare} m (posLoc d)) ∗ (prevLoc d ↦[blkSet L]{fullShare} m (prevLoc d)) ∗ (actLoc d ↦[blkSet L]{fullShare} m (actLoc d))
    ∗ (dateLoc d ↦[blkSet L]{fullShare} m (dateLoc d)) ∗ (timeLoc d ↦[blkSet L]{fullShare} m (timeLoc d))
    ∗ (fdataLoc d ↦{tokq L} fD) ∗ (fartrLoc d ↦{tokq L} fA) ∗ (outLoc d ↦[blkSet L]{fullShare} fo))

end Tile3

section Vals

variable (d : Dev nD) (L : grid0.Coords)
variable (fD : Buf (Elt F) (fdataLoc d)) (fA : Buf (Elt F) (fartrLoc d))

/-! ## What each scratch buffer holds, as a function of the launch memory -/

/-- The subcore's block of each per-position argument, as its copy lands it. -/
def DATE : S512.Idx → Elt F .i32 := (dateBlk L).view.read (Elt F) (m (dateLoc d))
def TIME : S512.Idx → Elt F .i32 := (timeBlk L).view.read (Elt F) (m (timeLoc d))
def POS : S512.Idx → Elt F .f32 := (posBlk L).view.read (Elt F) (m (posLoc d))
def ACT : S512.Idx → Elt F .f32 := (actBlk L).view.read (Elt F) (m (actLoc d))
def PREV : S512.Idx → Elt F .f32 := (prevBlk L).view.read (Elt F) (m (prevLoc d))

/-- The flat index into the table of ratios, and into the transposed price table, sixteen lanes at a time. -/
def IDX1 : S512.Idx → Elt F .i32 := fun j =>
  k0_pay4 (F := F) (grp16 (DATE m d L) (grp j)) (grp16 (TIME m d L) (grp j)) (lan j)
def IDX2 : S512.Idx → Elt F .i32 := fun j =>
  k0_pay10 (k0_pay5 (F := F) (grp16 (DATE m d L) (grp j)) (grp16 (TIME m d L) (grp j)) (grp16 (POS m d L) (grp j)) (grp16 (ACT m d L) (grp j))) (lan j)

/-- The gathered ratios and prices: the tables at the flat indices. -/
def ATR : S512.Idx → Elt F .f32 := fun x =>
  fA (ix1 (⟨(IDX1 m d L x).toNat % 5000000, Nat.mod_lt _ (by decide)⟩ : Fin 5000000))
def REFP : S512.Idx → Elt F .f32 := fun x =>
  fD (ix1 (⟨(IDX2 m d L x).toNat % 20000000, Nat.mod_lt _ (by decide)⟩ : Fin 20000000))

/-- The new stop, sixteen lanes at a time. -/
def OUTB : S512.Idx → Elt F .f32 := fun x =>
  k0_pay1 (k0_pay7 (F := F) (grp16 (POS m d L) (grp x)) (grp16 (ACT m d L) (grp x)) (grp16 (PREV m d L) (grp x)))
    (k0_pay8 (F := F) (grp16 (POS m d L) (grp x)) (grp16 (ACT m d L) (grp x)) (grp16 (PREV m d L) (grp x))
      (grp16 (ATR m d L fA) (grp x)) (grp16 (REFP m d L fD) (grp x)))
    (k0_pay9 (F := F) (grp16 (POS m d L) (grp x)) (grp16 (ACT m d L) (grp x)) (grp16 (PREV m d L) (grp x))
      (grp16 (ATR m d L fA) (grp x)) (grp16 (REFP m d L fD) (grp x))) (lan x)

end Vals

/-! ## Sixteen lanes read and written through a unit-stride rectangle of a 512-buffer -/

section Lanes

variable {κ : Kind} {sp : Space} {e : EltTy} {Val : EltTy → Type}

/-- A load of sixteen lanes at offset `16 k` reads group `k`. -/
theorem readAt_grp16 (v : View sig κ sp S512 e) (f : v.ty.Contents Val) (k : Fin 32) (off : Fin 1 → ℕ)
    (inb : ∀ a, off a + S16.size a ≤ S512.size a) (hoff : off = ![16 * k.val]) :
    v.readAt Val (Rect.unit (s := S512) off S16.size inb).toLoadRect f = grp16 (v.read Val f) k := by
  funext l
  rw [View.readAt_apply]
  unfold grp16
  congr 1
  funext a; match a with
  | ⟨0, _⟩ =>
    apply Fin.ext
    show off 0 + 1 * (l 0).val = 16 * k.val + (l 0).val
    subst hoff; simp

/-- One more group of sixteen written: the buffer agrees with `G` on the first `16 (k + 1)` elements if it agreed on
    the first `16 k` and the sixteen lanes written are `G`'s. -/
theorem read_prefix_step (v : View sig κ sp S512 e) (f : v.ty.Contents Val) (G : S512.Idx → Val e) (k : Fin 32) (off : Fin 1 → ℕ)
    (inb : ∀ a, off a + S16.size a ≤ S512.size a) (hoff : off = ![16 * k.val])
    (w : (Rect.unit (s := S512) off S16.size inb).shape.Idx → Val e)
    (hf : ∀ j : S512.Idx, (j 0).val < 16 * k.val → v.read Val f j = G j)
    (hw : ∀ l : S16.Idx, w l = G (lane k l)) :
    ∀ j : S512.Idx, (j 0).val < 16 * (k.val + 1) →
      v.read Val (v.writes Val f [(⟨Rect.unit (s := S512) off S16.size inb, w⟩ : View.Piece Val S512 e)]) j = G j := by
  intro j hj
  rw [View.read_writes_cons_unit v f inb w [] j hoff]
  by_cases h : ∀ a : Fin 1, (![16 * k.val] : Fin 1 → ℕ) a ≤ (j a).val ∧ (j a).val < (![16 * k.val] : Fin 1 → ℕ) a + S16.size a
  · rw [dif_pos h]
    have h0 := h 0
    have h1 : 16 * k.val ≤ (j 0).val := by simpa using h0.1
    rw [hw]
    congr 1
    funext a; match a with
    | ⟨0, _⟩ =>
      apply Fin.ext
      show 16 * k.val + ((j 0).val - 16 * k.val) = (j 0).val
      omega
  · rw [dif_neg h, View.writes_nil]
    apply hf
    by_contra hlt
    apply h
    intro a; match a with
    | ⟨0, _⟩ =>
      refine ⟨by simpa using Nat.le_of_not_lt hlt, ?_⟩
      show (j 0).val < 16 * k.val + 16
      omega

end Lanes

/-! ## The flat indices name rows of their tables -/

section Bounds

variable (d : Dev nD) (L : grid0.Coords)

/-- What the proof asks of the launch memory: every date index below 5000 and every time index below 1000. -/
def PreOK : Prop := ∀ j : S16384.Idx, (m (dateLoc d) j).toNat ≤ 4999 ∧ (m (timeLoc d) j).toNat ≤ 999

omit [BitOps F] in
theorem DATE_apply (x : S512.Idx) : DATE m d L x = m (dateLoc d) (blkIdx L x) := by
  unfold DATE
  exact ((View.read_apply _ _).trans (cast_eq _ _)).trans (congrArg _ (blkR_emb L x))
omit [BitOps F] in
theorem TIME_apply (x : S512.Idx) : TIME m d L x = m (timeLoc d) (blkIdx L x) := by
  unfold TIME
  exact ((View.read_apply _ _).trans (cast_eq _ _)).trans (congrArg _ (blkR_emb L x))
omit [BitOps F] in
theorem POS_apply (x : S512.Idx) : POS m d L x = m (posLoc d) (blkIdx L x) := by
  unfold POS
  exact ((View.read_apply _ _).trans (cast_eq _ _)).trans (congrArg _ (blkR_emb L x))
omit [BitOps F] in
theorem ACT_apply (x : S512.Idx) : ACT m d L x = m (actLoc d) (blkIdx L x) := by
  unfold ACT
  exact ((View.read_apply _ _).trans (cast_eq _ _)).trans (congrArg _ (blkR_emb L x))
omit [BitOps F] in
theorem PREV_apply (x : S512.Idx) : PREV m d L x = m (prevLoc d) (blkIdx L x) := by
  unfold PREV
  exact ((View.read_apply _ _).trans (cast_eq _ _)).trans (congrArg _ (blkR_emb L x))

/-- The index into the table of ratios, lane by lane: `d * 1000 + t`. -/
theorem pay4_apply (v11 v14 : IVec S16 32) (l : S16.Idx) : k0_pay4 (F := F) v11 v14 l = v11 l * 1000#32 + v14 l := by
  simp only [k0_pay4, k0_pay2, k0_pay3, shapeCast_self]; rfl

theorem pay4_lt (v11 v14 : IVec S16 32) (l : S16.Idx) (h1 : (v11 l).toNat ≤ 4999) (h2 : (v14 l).toNat ≤ 999) :
    (k0_pay4 (F := F) v11 v14 l).toNat < 5000000 := by
  rw [pay4_apply, BitVec.toNat_add, BitVec.toNat_mul, show (1000#32).toNat = 1000 from rfl,
    Nat.mod_eq_of_lt (a := (v11 l).toNat * 1000) (by omega), Nat.mod_eq_of_lt (by omega)]
  omega

/-- The index into the transposed price table, lane by lane: `(d * 4 + ch) * 1000 + t` with `ch` one of 1, 2, 3. -/
theorem pay75_lt (v11 v14 : IVec S16 32) (v17 v20 : FVec F S16 .f32) (l : S16.Idx) (h1 : (v11 l).toNat ≤ 4999) (h2 : (v14 l).toNat ≤ 999) :
    (k0_pay10 (k0_pay5 (F := F) v11 v14 v17 v20) l).toNat < 20000000 := by
  have key : ∀ (c1 c2 : BitVec 1) (a t : BitVec 32), a.toNat ≤ 4999 → t.toNat ≤ 999 →
      ((a * 4#32 + Scalar.select c1 3#32 (Scalar.select c2 1#32 2#32)) * 1000#32 + t).toNat < 20000000 := by
    intro c1 c2 a t ha ht
    have hc : (Scalar.select c1 3#32 (Scalar.select c2 1#32 2#32)).toNat ≤ 3 := by
      unfold Scalar.select; split_ifs <;> decide
    generalize Scalar.select c1 3#32 (Scalar.select c2 1#32 2#32) = c at hc
    rw [BitVec.toNat_add, BitVec.toNat_mul, BitVec.toNat_add, BitVec.toNat_mul, show (1000#32).toNat = 1000 from rfl,
      show (4#32).toNat = 4 from rfl, Nat.mod_eq_of_lt (a := a.toNat * 4) (by omega), Nat.mod_eq_of_lt (a := a.toNat * 4 + c.toNat) (by omega),
      Nat.mod_eq_of_lt (a := (a.toNat * 4 + c.toNat) * 1000) (by omega), Nat.mod_eq_of_lt (by omega)]
    omega
  simp only [k0_pay10, k0_pay5, k0_pay2, k0_pay3, shapeCast_self]
  exact key _ _ _ _ h1 h2

theorem IDX1_lt (hpre : PreOK m d) (j : S512.Idx) : (IDX1 m d L j).toNat < 5000000 := by
  unfold IDX1
  refine pay4_lt _ _ _ ?_ ?_
  · show (DATE m d L _).toNat ≤ 4999
    rw [DATE_apply]; exact (hpre _).1
  · show (TIME m d L _).toNat ≤ 999
    rw [TIME_apply]; exact (hpre _).2

theorem IDX2_lt (hpre : PreOK m d) (j : S512.Idx) : (IDX2 m d L j).toNat < 20000000 := by
  unfold IDX2
  refine pay75_lt _ _ _ _ _ ?_ ?_
  · show (DATE m d L _).toNat ≤ 4999
    rw [DATE_apply]; exact (hpre _).1
  · show (TIME m d L _).toNat ≤ 999
    rw [TIME_apply]; exact (hpre _).2

end Bounds

/-! ## What a gather delivers: the table at the flat indices -/

section Gathered

variable (d : Dev nD) (L : grid0.Coords)
variable (fD : Buf (Elt F) (fdataLoc d)) (fA : Buf (Elt F) (fartrLoc d))

/-- The two tables as the gathers name their source: the whole row. -/
abbrev fartrSrc : Memref sig .scVector .hbm S5000000 .f32 :=
  (fartrW).slice (Rect.unit (s := S5000000) ![0] S5000000.size inb_S5000000_S5000000_0) (fun _ => rfl)
abbrev fdataSrc : Memref sig .scVector .hbm S20000000 .f32 :=
  (fdataW).slice (Rect.unit (s := S20000000) ![0] S20000000.size inb_S20000000_S20000000_0) (fun _ => rfl)

theorem gathered_fartr (hpre : PreOK m d) (g5 : (s5W).view.ty.Contents (Elt F))
    (hn : S512.numel = S512.size gathers_S5000000_S512.axis')
    (hin : ∀ x, ((s5W).view.read (Elt F) g5 x).toNat < S5000000.size gathers_S5000000_S512.axis)
    (h5 : ∀ j : S512.Idx, (s5W).view.read (Elt F) g5 j = IDX1 m d L j) :
    SparseCore.gatherPayload (F := F) gathers_S5000000_S512 ((fartrSrc).view.read (Elt F) fA)
      (SparseCore.rows ((s5W).view.read (Elt F) g5) hn hin) = ATR m d L fA := by
  funext x
  unfold SparseCore.gatherPayload ATR
  refine ((View.read_apply _ _).trans (cast_eq _ _)).trans (congrArg fA ?_)
  funext b; match b with
  | ⟨0, _⟩ =>
    apply Fin.ext
    show 0 + 1 * ((gathers_S5000000_S512).idx (SparseCore.rows ((s5W).view.read (Elt F) g5) hn hin) x (gathers_S5000000_S512).axis).val
      = (IDX1 m d L x).toNat % 5000000
    rw [Shape.Gathers.idx_axis, Nat.mod_eq_of_lt (IDX1_lt m d L hpre x), ← h5 x]
    show 0 + 1 * ((s5W).view.read (Elt F) g5 (S512.rowMajor.symm _)).toNat = _
    rw [Nat.zero_add, Nat.one_mul]
    congr 2
    rw [Equiv.symm_apply_eq]; apply Fin.ext; rw [Shape.rowMajor_val_one]; rfl

theorem gathered_fdata (hpre : PreOK m d) (g6 : (s6W).view.ty.Contents (Elt F))
    (hn : S512.numel = S512.size gathers_S20000000_S512.axis')
    (hin : ∀ x, ((s6W).view.read (Elt F) g6 x).toNat < S20000000.size gathers_S20000000_S512.axis)
    (h6 : ∀ j : S512.Idx, (s6W).view.read (Elt F) g6 j = IDX2 m d L j) :
    SparseCore.gatherPayload (F := F) gathers_S20000000_S512 ((fdataSrc).view.read (Elt F) fD)
      (SparseCore.rows ((s6W).view.read (Elt F) g6) hn hin) = REFP m d L fD := by
  funext x
  unfold SparseCore.gatherPayload REFP
  refine ((View.read_apply _ _).trans (cast_eq _ _)).trans (congrArg fD ?_)
  funext b; match b with
  | ⟨0, _⟩ =>
    apply Fin.ext
    show 0 + 1 * ((gathers_S20000000_S512).idx (SparseCore.rows ((s6W).view.read (Elt F) g6) hn hin) x (gathers_S20000000_S512).axis).val
      = (IDX2 m d L x).toNat % 20000000
    rw [Shape.Gathers.idx_axis, Nat.mod_eq_of_lt (IDX2_lt m d L hpre x), ← h6 x]
    show 0 + 1 * ((s6W).view.read (Elt F) g6 (S512.rowMajor.symm _)).toNat = _
    rw [Nat.zero_add, Nat.one_mul]
    congr 2
    rw [Equiv.symm_apply_eq]; apply Fin.ext; rw [Shape.rowMajor_val_one]; rfl

end Gathered

section Pts
variable (d : Dev nD) (L : grid0.Coords)
omit [BitOps F] in
theorem pts_posBlk (f : Buf (Elt F) (posLoc d)) :
    ((posBlk L).view.loc (thr d L) ↦[(posBlk L).view.set]{fullShare} f : sProp 𝕄) = posLoc d ↦[blkSet L]{fullShare} f := by rw [set_posBlk]
omit [BitOps F] in
theorem pts_prevBlk (f : Buf (Elt F) (prevLoc d)) :
    ((prevBlk L).view.loc (thr d L) ↦[(prevBlk L).view.set]{fullShare} f : sProp 𝕄) = prevLoc d ↦[blkSet L]{fullShare} f := by rw [set_prevBlk]
omit [BitOps F] in
theorem pts_actBlk (f : Buf (Elt F) (actLoc d)) :
    ((actBlk L).view.loc (thr d L) ↦[(actBlk L).view.set]{fullShare} f : sProp 𝕄) = actLoc d ↦[blkSet L]{fullShare} f := by rw [set_actBlk]
omit [BitOps F] in
theorem pts_dateBlk (f : Buf (Elt F) (dateLoc d)) :
    ((dateBlk L).view.loc (thr d L) ↦[(dateBlk L).view.set]{fullShare} f : sProp 𝕄) = dateLoc d ↦[blkSet L]{fullShare} f := by rw [set_dateBlk]
omit [BitOps F] in
theorem pts_timeBlk (f : Buf (Elt F) (timeLoc d)) :
    ((timeBlk L).view.loc (thr d L) ↦[(timeBlk L).view.set]{fullShare} f : sProp 𝕄) = timeLoc d ↦[blkSet L]{fullShare} f := by rw [set_timeBlk]
omit [BitOps F] in
theorem pts_outBlk (f : Buf (Elt F) (outLoc d)) :
    ((outBlk L).view.loc (thr d L) ↦[(outBlk L).view.set]{fullShare} f : sProp 𝕄) = outLoc d ↦[blkSet L]{fullShare} f := by rw [set_outBlk]

omit [BitOps F] in
/-- One more wait at the kernel's own index recorded. -/
theorem ins_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp
end Pts

section Body

variable (d : Dev nD) (L : grid0.Coords)
variable (fD : Buf (Elt F) (fdataLoc d)) (fA : Buf (Elt F) (fartrLoc d))

omit [BitOps F] in
theorem trips1 : Scf.trips k0_t1_loop.lb k0_t1_loop.ub k0_t1_loop.st = 32 := by decide
omit [BitOps F] in
theorem trips2 : Scf.trips k0_t2_loop.lb k0_t2_loop.ub k0_t2_loop.st = 32 := by decide
def tk1 (k : Fin (Scf.trips k0_t1_loop.lb k0_t1_loop.ub k0_t1_loop.st)) : Fin 32 := ⟨k.val, lt_of_lt_of_eq k.isLt trips1⟩
def tk2 (k : Fin (Scf.trips k0_t2_loop.lb k0_t2_loop.ub k0_t2_loop.st)) : Fin 32 := ⟨k.val, lt_of_lt_of_eq k.isLt trips2⟩

theorem IDX1_lane (k : Fin 32) (l : S16.Idx) :
    IDX1 m d L (lane k l) = k0_pay4 (F := F) (grp16 (DATE m d L) k) (grp16 (TIME m d L) k) l := by
  unfold IDX1; rw [grp_lane, lan_lane]
theorem IDX2_lane (k : Fin 32) (l : S16.Idx) :
    IDX2 m d L (lane k l) = k0_pay10 (k0_pay5 (F := F) (grp16 (DATE m d L) k) (grp16 (TIME m d L) k) (grp16 (POS m d L) k) (grp16 (ACT m d L) k)) l := by
  unfold IDX2; rw [grp_lane, lan_lane]
theorem OUTB_lane (k : Fin 32) (l : S16.Idx) :
    OUTB m d L fD fA (lane k l) = k0_pay1 (k0_pay7 (F := F) (grp16 (POS m d L) k) (grp16 (ACT m d L) k) (grp16 (PREV m d L) k))
      (k0_pay8 (F := F) (grp16 (POS m d L) k) (grp16 (ACT m d L) k) (grp16 (PREV m d L) k) (grp16 (ATR m d L fA) k) (grp16 (REFP m d L fD) k))
      (k0_pay9 (F := F) (grp16 (POS m d L) k) (grp16 (ACT m d L) k) (grp16 (PREV m d L) k) (grp16 (ATR m d L fA) k) (grp16 (REFP m d L fD) k)) l := by
  unfold OUTB; rw [grp_lane, lan_lane]

/-- Before trip `k` of the first loop: the four copied blocks as they landed, the two index buffers filled on their
    first `16 k` elements. -/
def inv1 (k : Nat) (_ : PUnit) : sProp 𝕄 :=
  iprop(((s3W).view.loc (thr d L) ↦{fullShare} DATE m d L) ∗ ((s4W).view.loc (thr d L) ↦{fullShare} TIME m d L)
    ∗ ((s0W).view.loc (thr d L) ↦{fullShare} POS m d L) ∗ ((s2W).view.loc (thr d L) ↦{fullShare} ACT m d L)
    ∗ (∃ f, ⌜∀ j : S512.Idx, (j 0).val < 16 * k → (s5W).view.read (Elt F) f j = IDX1 m d L j⌝ ∗ (s5W).view.loc (thr d L) ↦{fullShare} f)
    ∗ (∃ f, ⌜∀ j : S512.Idx, (j 0).val < 16 * k → (s6W).view.read (Elt F) f j = IDX2 m d L j⌝ ∗ (s6W).view.loc (thr d L) ↦{fullShare} f))

/-- Before trip `k` of the second loop: the three copied blocks and the two gathered buffers, the result buffer
    filled on its first `16 k` elements. -/
def inv2 (k : Nat) (_ : PUnit) : sProp 𝕄 :=
  iprop(((s0W).view.loc (thr d L) ↦{fullShare} POS m d L) ∗ ((s2W).view.loc (thr d L) ↦{fullShare} ACT m d L)
    ∗ ((s1W).view.loc (thr d L) ↦{fullShare} PREV m d L)
    ∗ ((s7W).view.loc (thr d L) ↦{fullShare} ATR m d L fA) ∗ ((s8W).view.loc (thr d L) ↦{fullShare} REFP m d L fD)
    ∗ (∃ f, ⌜∀ j : S512.Idx, (j 0).val < 16 * k → (s9W).view.read (Elt F) f j = OUTB m d L fD fA j⌝ ∗ (s9W).view.loc (thr d L) ↦{fullShare} f))

/-- The result array with the subcore's block overwritten by the new stops. -/
def OUTF : Buf (Elt F) (outLoc d) := (outBlk L).view.writes (Elt F) (m (outLoc d)) [⟨Rect.whole S512, OUTB m d L fD fA⟩]

set_option maxHeartbeats 8000000 in
theorem tile_body (hF : (K (F := F)).Facts) (hpre : PreOK m d) (O : CellTallies nD τ sig (HIx 1)) (W : Waits sig (HIx 1)) (hO : ∀ g, O g none = 0) :
    iprop(levAts (K (F := F)).L (K (F := F)).lev ∗ emp ∗ GO m d L fD fA (m (outLoc d))
        ∗ scopedBufs (thr d L) ∗ scopedSems0 (thr d L) ∗ owes (thr d L) O W)
      ⊢ wp frame (wpE (defs₀ (F := F)) 𝒱₀ (thr d L) none) Set.univ
          (cc0__body L posW (Memref.isWhole_whole _) prevW (Memref.isWhole_whole _) actW (Memref.isWhole_whole _) fdataW (Memref.isWhole_whole _)
            fartrW (Memref.isWhole_whole _) dateW (Memref.isWhole_whole _) timeW (Memref.isWhole_whole _) outW (Memref.isWhole_whole _)
            s0W (Memref.isWhole_whole _) s1W (Memref.isWhole_whole _) s2W (Memref.isWhole_whole _) s3W (Memref.isWhole_whole _) s4W (Memref.isWhole_whole _)
            s5W (Memref.isWhole_whole _) s6W (Memref.isWhole_whole _) s7W (Memref.isWhole_whole _) s8W (Memref.isWhole_whole _) s9W (Memref.isWhole_whole _)
            cc0_scratch10 cc0_scratch11 cc0_scoped0 cc0_scoped1 cc0_scoped2 cc0_scoped3 cc0_scoped4 cc0_scoped5)
          fun _ => iprop(GO m d L fD fA (OUTF m d L fD fA) ∗ scopedBufs (thr d L) ∗ scopedSems0 (thr d L)
            ∗ ∃ W', ⌜∀ p ∈ W', p ∈ W ∨ p.2 = none⌝ ∗ owes (thr d L) O W') := by
  simp only [cc0__body_eq_skeleton]; unfold cc0__body_skel
  simp only [k0_part3_eq_skeleton]; unfold k0_part3_skel
  unfold k0_t1_body k0_t2_body
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V', ownBufs_V']
  unfold GO OUTF
  iintro ⟨#Hlv, -, ⟨Hpos, Hprev, Hact, Hdate, Htime, HfD, HfA, Hout⟩,
    ⟨⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩⟩, Hbufs⟩,
    ⟨⟨Hm10, Hm11, Hc0, Hc1, Hc2, Hc3, Hc4, Hc5⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hpos' := (Entails.of_eq (show (posLoc d ↦[blkSet L]{fullShare} m (posLoc d) : sProp 𝕄)
      = (posBlk L).view.loc (thr d L) ↦[(posBlk L).view.set]{fullShare} m (posLoc d) by rw [set_posBlk])) $$ Hpos
  ihave Hprev' := (Entails.of_eq (show (prevLoc d ↦[blkSet L]{fullShare} m (prevLoc d) : sProp 𝕄)
      = (prevBlk L).view.loc (thr d L) ↦[(prevBlk L).view.set]{fullShare} m (prevLoc d) by rw [set_prevBlk])) $$ Hprev
  ihave Hact' := (Entails.of_eq (show (actLoc d ↦[blkSet L]{fullShare} m (actLoc d) : sProp 𝕄)
      = (actBlk L).view.loc (thr d L) ↦[(actBlk L).view.set]{fullShare} m (actLoc d) by rw [set_actBlk])) $$ Hact
  ihave Hdate' := (Entails.of_eq (show (dateLoc d ↦[blkSet L]{fullShare} m (dateLoc d) : sProp 𝕄)
      = (dateBlk L).view.loc (thr d L) ↦[(dateBlk L).view.set]{fullShare} m (dateLoc d) by rw [set_dateBlk])) $$ Hdate
  ihave Htime' := (Entails.of_eq (show (timeLoc d ↦[blkSet L]{fullShare} m (timeLoc d) : sProp 𝕄)
      = (timeBlk L).view.loc (thr d L) ↦[(timeBlk L).view.set]{fullShare} m (timeLoc d) by rw [set_timeBlk])) $$ Htime
  ihave Hout' := (Entails.of_eq (show (outLoc d ↦[blkSet L]{fullShare} m (outLoc d) : sProp 𝕄)
      = (outBlk L).view.loc (thr d L) ↦[(outBlk L).view.set]{fullShare} m (outLoc d) by rw [set_outBlk])) $$ Hout
  ihave HfD' := (Entails.of_eq (show (fdataLoc d ↦{tokq L} fD : sProp 𝕄) = (fdataW).view.loc (thr d L) ↦{tokq L} fD from rfl)) $$ HfD
  ihave HfA' := (Entails.of_eq (show (fartrLoc d ↦{tokq L} fA : sProp 𝕄) = (fartrW).view.loc (thr d L) ↦{tokq L} fA from rfl)) $$ HfA
  -- the five blocks copied in
  sl_exec
  ihave H3 := (Entails.of_eq (show ((s3W).view.loc (thr d L) ↦{fullShare} View.write (Elt F) (s3W).view f3 (tile_body.sl.dma0 m d L) Finset.univ : sProp 𝕄)
      = (s3W).view.loc (thr d L) ↦{fullShare} DATE m d L from
      congrArg (fun g => ((s3W).view.loc (thr d L) ↦{fullShare} g : sProp 𝕄)) (View.write_whole_univ cc0_scratch3 f3 (DATE m d L)))) $$ Hs3
  ihave H4 := (Entails.of_eq (show ((s4W).view.loc (thr d L) ↦{fullShare} View.write (Elt F) (s4W).view f4 (tile_body.sl.dma0_1 m d L) Finset.univ : sProp 𝕄)
      = (s4W).view.loc (thr d L) ↦{fullShare} TIME m d L from
      congrArg (fun g => ((s4W).view.loc (thr d L) ↦{fullShare} g : sProp 𝕄)) (View.write_whole_univ cc0_scratch4 f4 (TIME m d L)))) $$ Hs4
  ihave H0 := (Entails.of_eq (show ((s0W).view.loc (thr d L) ↦{fullShare} View.write (Elt F) (s0W).view f0 (tile_body.sl.dma0_2 m d L) Finset.univ : sProp 𝕄)
      = (s0W).view.loc (thr d L) ↦{fullShare} POS m d L from
      congrArg (fun g => ((s0W).view.loc (thr d L) ↦{fullShare} g : sProp 𝕄)) (View.write_whole_univ cc0_scratch0 f0 (POS m d L)))) $$ Hs0
  ihave H2 := (Entails.of_eq (show ((s2W).view.loc (thr d L) ↦{fullShare} View.write (Elt F) (s2W).view f2 (tile_body.sl.dma0_3 m d L) Finset.univ : sProp 𝕄)
      = (s2W).view.loc (thr d L) ↦{fullShare} ACT m d L from
      congrArg (fun g => ((s2W).view.loc (thr d L) ↦{fullShare} g : sProp 𝕄)) (View.write_whole_univ cc0_scratch2 f2 (ACT m d L)))) $$ Hs2
  ihave H1 := (Entails.of_eq (show ((s1W).view.loc (thr d L) ↦{fullShare} View.write (Elt F) (s1W).view f1 (tile_body.sl.dma0_4 m d L) Finset.univ : sProp 𝕄)
      = (s1W).view.loc (thr d L) ↦{fullShare} PREV m d L from
      congrArg (fun g => ((s1W).view.loc (thr d L) ↦{fullShare} g : sProp 𝕄)) (View.write_whole_univ cc0_scratch1 f1 (PREV m d L)))) $$ Hs1
  -- the first loop: the two flat indices, sixteen lanes a trip
  rw [Prog.bind_assoc]
  sl_for (inv1 m d L) $$ [H3 H4 H0 H2 Hs5 Hs6]
  case region =>
    intro k _
    unfold inv1
    iintro ⟨H3, H4, H0, H2, ⟨%g5, %h5, H5⟩, ⟨%g6, %h6, H6⟩⟩
    sl_exec
    sl_step
    isplitl [H3]; · iexact H3
    isplitl [H4]; · iexact H4
    isplitl [H0]; · iexact H0
    isplitl [H2]; · iexact H2
    isplitl [H5]
    · iexists _; isplitr
      swap; · iexact H5
      ipureintro
      refine read_prefix_step (s5W).view g5 (IDX1 m d L) (tk1 k) _ _ (k0_off2_eq k) _ h5 (fun l => ?_)
      rw [IDX1_lane, readAt_grp16 (s3W).view (DATE m d L) (tk1 k) _ _ (k0_off2_eq k),
        readAt_grp16 (s4W).view (TIME m d L) (tk1 k) _ _ (k0_off2_eq k)]
      rfl
    · iexists _; isplitr
      swap; · iexact H6
      ipureintro
      refine read_prefix_step (s6W).view g6 (IDX2 m d L) (tk1 k) _ _ (k0_off2_eq k) _ h6 (fun l => ?_)
      rw [IDX2_lane, readAt_grp16 (s3W).view (DATE m d L) (tk1 k) _ _ (k0_off2_eq k),
        readAt_grp16 (s4W).view (TIME m d L) (tk1 k) _ _ (k0_off2_eq k),
        readAt_grp16 (s0W).view (POS m d L) (tk1 k) _ _ (k0_off2_eq k),
        readAt_grp16 (s2W).view (ACT m d L) (tk1 k) _ _ (k0_off2_eq k)]
      rfl
  · unfold inv1
    isplitl [H3]; · iexact H3
    isplitl [H4]; · iexact H4
    isplitl [H0]; · iexact H0
    isplitl [H2]; · iexact H2
    isplitl [Hs5]
    · iexists f5; isplitr
      · ipureintro; intro j hj; exact absurd hj (by omega)
      · iexact Hs5
    · iexists f6; isplitr
      · ipureintro; intro j hj; exact absurd hj (by omega)
      · iexact Hs6
  iintro %_ HI
  unfold inv1
  icases HI with ⟨H3, H4, H0, H2, ⟨%g5, %h5, H5⟩, ⟨%g6, %h6, H6⟩⟩
  have h5' : ∀ j : S512.Idx, (s5W).view.read (Elt F) g5 j = IDX1 m d L j := fun j => h5 j (by
    rw [trips1]; have : (j 0).val < 512 := (j 0).isLt; omega)
  have h6' : ∀ j : S512.Idx, (s6W).view.read (Elt F) g6 j = IDX2 m d L j := fun j => h6 j (by
    rw [trips1]; have : (j 0).val < 512 := (j 0).isLt; omega)
  have hin1 : ∀ x, ((s5W).view.read (Elt F) g5 x).toNat < 5000000 := fun x => by rw [h5' x]; exact IDX1_lt m d L hpre x
  have hin2 : ∀ x, ((s6W).view.read (Elt F) g6 x).toNat < 20000000 := fun x => by rw [h6' x]; exact IDX2_lt m d L hpre x
  -- the two gathers and their waits
  sl_exec
  have e7 : (s7W).view.writes (Elt F) (s7W).view.junk [⟨Rect.whole cc0_scratch7.ty.shape, tile_body.sl.gather0 d fA g5 hin1⟩] = ATR m d L fA :=
    (View.read_writes_whole (s7W).view _ _).trans (gathered_fartr m d L fA hpre g5 _ hin1 h5')
  have e8 : (s8W).view.writes (Elt F) (s8W).view.junk [⟨Rect.whole cc0_scratch8.ty.shape, tile_body.sl.gather1 d fD g6 hin2⟩] = REFP m d L fD :=
    (View.read_writes_whole (s8W).view _ _).trans (gathered_fdata m d L fD hpre g6 _ hin2 h6')
  rw [e7, e8]
  -- the second loop: the new stop, sixteen lanes a trip
  sl_for (inv2 m d L fD fA) $$ [H0 H2 H1 Hs7 Hs8 Hs9]
  case region =>
    intro k _
    unfold inv2
    iintro ⟨H0, H2, H1, H7, H8, ⟨%g9, %h9, H9⟩⟩
    sl_exec
    sl_step
    isplitl [H0]; · iexact H0
    isplitl [H2]; · iexact H2
    isplitl [H1]; · iexact H1
    isplitl [H7]; · iexact H7
    isplitl [H8]; · iexact H8
    iexists _; isplitr
    swap; · iexact H9
    ipureintro
    refine read_prefix_step (s9W).view g9 (OUTB m d L fD fA) (tk2 k) _ _ (k0_off3_eq k) _ h9 (fun l => ?_)
    rw [OUTB_lane, readAt_grp16 (s0W).view (POS m d L) (tk2 k) _ _ (k0_off3_eq k), readAt_grp16 (s2W).view (ACT m d L) (tk2 k) _ _ (k0_off3_eq k),
      readAt_grp16 (s1W).view (PREV m d L) (tk2 k) _ _ (k0_off3_eq k), readAt_grp16 (s7W).view (ATR m d L fA) (tk2 k) _ _ (k0_off3_eq k), readAt_grp16 (s8W).view (REFP m d L fD) (tk2 k) _ _ (k0_off3_eq k)]
    rfl
  · unfold inv2
    isplitl [H0]; · iexact H0
    isplitl [H2]; · iexact H2
    isplitl [H1]; · iexact H1
    isplitl [Hs7]; · iexact Hs7
    isplitl [Hs8]; · iexact Hs8
    iexists f9; isplitr
    · ipureintro; intro j hj; exact absurd hj (by omega)
    · iexact Hs9
  iintro %_ HI
  unfold inv2
  icases HI with ⟨H0, H2, H1, H7, H8, ⟨%g9, %h9, H9⟩⟩
  have h9' : (s9W).view.read (Elt F) g9 = OUTB m d L fD fA := funext fun j => h9 j (by
    rw [trips2]; have : (j 0).val < 512 := (j 0).isLt; omega)
  -- the result block copied out
  sl_exec
  have e9 : tile_body.sl.dma0_5 g9 = OUTB m d L fD fA := h9'
  rw [e9]
  sl_step
  isplitl [Hpos' Hprev' Hact' Hdate' Htime' HfD' HfA' Hout']
  · isplitl [Hpos']; · iapply (Entails.of_eq (pts_posBlk (F := F) d L _)); iexact Hpos'
    isplitl [Hprev']; · iapply (Entails.of_eq (pts_prevBlk (F := F) d L _)); iexact Hprev'
    isplitl [Hact']; · iapply (Entails.of_eq (pts_actBlk (F := F) d L _)); iexact Hact'
    isplitl [Hdate']; · iapply (Entails.of_eq (pts_dateBlk (F := F) d L _)); iexact Hdate'
    isplitl [Htime']; · iapply (Entails.of_eq (pts_timeBlk (F := F) d L _)); iexact Htime'
    isplitl [HfD']; · iexact HfD'
    isplitl [HfA']; · iexact HfA'
    iapply (Entails.of_eq (pts_outBlk (F := F) d L _)); iexact Hout'
  isplitl [H0 H1 H2 H3 H4 H5 H6 H7 H8 H9 Hbufs]
  · isplitl [H0 H1 H2 H3 H4 H5 H6 H7 H8 H9]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      iexists _; iexact H9
    · iexact Hbufs
  isplitl [Hm10 Hm11 Hc0 Hc1 Hc2 Hc3 Hc4 Hc5 Hsems]
  · isplitl [Hm10 Hm11 Hc0 Hc1 Hc2 Hc3 Hc4 Hc5]
    · isplitl [Hm10]; · iexact Hm10
      isplitl [Hm11]; · iexact Hm11
      isplitl [Hc0]; · iexact Hc0
      isplitl [Hc1]; · iexact Hc1
      isplitl [Hc2]; · iexact Hc2
      isplitl [Hc3]; · iexact Hc3
      isplitl [Hc4]; · iexact Hc4
      iexact Hc5
    · iexact Hsems
  iexists _; isplitr
  swap; · iexact HO
  ipureintro
  exact ins_ok _ (ins_ok _ (ins_ok _ (ins_ok _ (ins_ok _ (ins_ok _ (ins_ok _ (ins_ok _ (fun p hp => .inl hp))))))))

end Body

end Cert.Proof.TileBits

end
-- ==== Proof.TileLaunchB.lean ====
/-
  The launch: the thirty-two blocks tile the 16384 positions, so each per-position array splits into the subcores'
  blocks and the result's blocks join into the whole result; the two flattened tables go out as thirty-two read shares;
  the TensorCore transposes and flattens the price table and flattens the table of ratios, starts the two SparseCores,
  waits for them, and ends holding its seven arguments as they were and the result, which on every subcore's block is
  what that subcore wrote.
-/
import proofs.«202963_g88613765251846_cont_sun_m_1299_31_alg».proof.Proof.TileBodyB

noncomputable section

namespace Cert.Proof.TileBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type}

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)

local notation "posW" => (Memref.whole Cert.Kernel.main_arg0_scv : Memref Cert.Kernel.sig Kind.scVector Space.hbm Cert.Kernel.S16384 EltTy.f32)
local notation "prevW" => (Memref.whole Cert.Kernel.main_arg1_scv : Memref Cert.Kernel.sig Kind.scVector Space.hbm Cert.Kernel.S16384 EltTy.f32)
local notation "actW" => (Memref.whole Cert.Kernel.main_arg2_scv : Memref Cert.Kernel.sig Kind.scVector Space.hbm Cert.Kernel.S16384 EltTy.f32)
local notation "fdataW" => (Memref.whole Cert.Kernel.main_v1_scv : Memref Cert.Kernel.sig Kind.scVector Space.hbm Cert.Kernel.S20000000 EltTy.f32)
local notation "fartrW" => (Memref.whole Cert.Kernel.main_v2_scv : Memref Cert.Kernel.sig Kind.scVector Space.hbm Cert.Kernel.S5000000 EltTy.f32)
local notation "dateW" => (Memref.whole Cert.Kernel.main_arg5_scv : Memref Cert.Kernel.sig Kind.scVector Space.hbm Cert.Kernel.S16384 EltTy.i32)
local notation "timeW" => (Memref.whole Cert.Kernel.main_arg6_scv : Memref Cert.Kernel.sig Kind.scVector Space.hbm Cert.Kernel.S16384 EltTy.i32)
local notation "outW" => (Memref.whole Cert.Kernel.main_v3_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S512 EltTy.f32)
local notation "s1W" => (Memref.whole Cert.Kernel.cc0_scratch1 : Memref Cert.Kernel.sig Kind.scVector Space.vmem Cert.Kernel.S512 EltTy.f32)
local notation "s2W" => (Memref.whole Cert.Kernel.cc0_scratch2 : Memref Cert.Kernel.sig Kind.scVector Space.vmem Cert.Kernel.S512 EltTy.f32)
local notation "s3W" => (Memref.whole Cert.Kernel.cc0_scratch3 : Memref Cert.Kernel.sig Kind.scVector Space.vmem Cert.Kernel.S512 EltTy.i32)
local notation "s4W" => (Memref.whole Cert.Kernel.cc0_scratch4 : Memref Cert.Kernel.sig Kind.scVector Space.vmem Cert.Kernel.S512 EltTy.i32)
local notation "s5W" => (Memref.whole Cert.Kernel.cc0_scratch5 : Memref Cert.Kernel.sig Kind.scVector Space.vmem Cert.Kernel.S512 EltTy.i32)
local notation "s6W" => (Memref.whole Cert.Kernel.cc0_scratch6 : Memref Cert.Kernel.sig Kind.scVector Space.vmem Cert.Kernel.S512 EltTy.i32)
local notation "s7W" => (Memref.whole Cert.Kernel.cc0_scratch7 : Memref Cert.Kernel.sig Kind.scVector Space.vmem Cert.Kernel.S512 EltTy.f32)
local notation "s8W" => (Memref.whole Cert.Kernel.cc0_scratch8 : Memref Cert.Kernel.sig Kind.scVector Space.vmem Cert.Kernel.S512 EltTy.f32)
local notation "s9W" => (Memref.whole Cert.Kernel.cc0_scratch9 : Memref Cert.Kernel.sig Kind.scVector Space.vmem Cert.Kernel.S512 EltTy.f32)

/-! ## The thirty-two blocks tile the positions -/

omit m in
theorem coordsV_zero (c : Fin (grid0.bound 0)) (s : Fin (grid0.bound 1)) : coordsV c s 0 = c := rfl
omit m in
theorem coordsV_one (c : Fin (grid0.bound 0)) (s : Fin (grid0.bound 1)) : coordsV c s 1 = s := rfl

/-- The block of subcore `p.2` of core `p.1`. -/
def KB (p : Fin 2 × Fin 16) : Finset S16384.Idx := blkSet (coordsV p.1 p.2)

omit m in
theorem mem_KB (p : Fin 2 × Fin 16) (j : S16384.Idx) :
    j ∈ KB p ↔ 1024 * p.2.val + 512 * p.1.val ≤ (j 0).val ∧ (j 0).val < 1024 * p.2.val + 512 * p.1.val + 512 := by
  unfold KB; rw [mem_blkSet]; rfl

omit m in
theorem KB_disjoint : ∀ p ∈ (Finset.univ : Finset (Fin 2 × Fin 16)), ∀ p' ∈ (Finset.univ : Finset (Fin 2 × Fin 16)), p ≠ p' → Disjoint (KB p) (KB p') := by
  intro p _ p' _ hne
  rw [Finset.disjoint_left]; intro j hj hj'
  rw [mem_KB] at hj hj'
  apply hne
  have h1 : p.1.val < 2 := p.1.isLt
  have h1' : p'.1.val < 2 := p'.1.isLt
  exact Prod.ext (Fin.ext (by omega)) (Fin.ext (by omega))

omit m in
theorem KB_cover : (Finset.univ : Finset (Fin 2 × Fin 16)).biUnion KB = Finset.univ := by
  ext j
  simp only [Finset.mem_biUnion, Finset.mem_univ, true_and, iff_true]
  have hj : (j 0).val < 16384 := (j 0).isLt
  refine ⟨(⟨(j 0).val / 512 % 2, Nat.mod_lt _ (by decide)⟩, ⟨(j 0).val / 1024, by omega⟩), ?_⟩
  rw [mem_KB]
  show 1024 * ((j 0).val / 1024) + 512 * ((j 0).val / 512 % 2) ≤ (j 0).val ∧ (j 0).val < 1024 * ((j 0).val / 1024) + 512 * ((j 0).val / 512 % 2) + 512
  omega

omit m in
/-- An array over the positions is its thirty-two blocks; -/
theorem pts_blocks (ℓ : Loc nD τ sig) (KBℓ : Fin 2 × Fin 16 → Finset (Idx ℓ))
    (hd : ∀ p ∈ (Finset.univ : Finset (Fin 2 × Fin 16)), ∀ p' ∈ (Finset.univ : Finset (Fin 2 × Fin 16)), p ≠ p' → Disjoint (KBℓ p) (KBℓ p'))
    (hc : (Finset.univ : Finset (Fin 2 × Fin 16)).biUnion KBℓ = Finset.univ) (q : PosShare TreeShare) (f : Buf (Elt F) ℓ) :
    (ℓ ↦{q} f : sProp 𝕄) = bigSep Finset.univ fun c : Fin 2 => bigSep Finset.univ fun i : Fin 16 => ℓ ↦[KBℓ (c, i)]{q} f := by
  rw [← bigSep_univ_prod (fun p : Fin 2 × Fin 16 => (ℓ ↦[KBℓ p]{q} f : sProp 𝕄)), ← pointsTo_biUnion Finset.univ KBℓ hd, hc]

omit m in
/-- and blocks held at different contents join into one array that agrees with each on its block. -/
theorem join_blocks (ℓ : Loc nD τ sig) (KBℓ : Fin 2 × Fin 16 → Finset (Idx ℓ))
    (hd : ∀ p ∈ (Finset.univ : Finset (Fin 2 × Fin 16)), ∀ p' ∈ (Finset.univ : Finset (Fin 2 × Fin 16)), p ≠ p' → Disjoint (KBℓ p) (KBℓ p'))
    (hc : (Finset.univ : Finset (Fin 2 × Fin 16)).biUnion KBℓ = Finset.univ) (q : PosShare TreeShare) (fs : Fin 2 × Fin 16 → Buf (Elt F) ℓ) (f₀ : Buf (Elt F) ℓ) :
    (bigSep Finset.univ fun c : Fin 2 => bigSep Finset.univ fun i : Fin 16 => (ℓ ↦[KBℓ (c, i)]{q} fs (c, i) : sProp 𝕄))
      ⊢ iprop(∃ g, ⌜∀ p, ∀ i ∈ KBℓ p, g i = fs p i⌝ ∗ ℓ ↦{q} g) := by
  rw [← bigSep_univ_prod (fun p : Fin 2 × Fin 16 => (ℓ ↦[KBℓ p]{q} fs p : sProp 𝕄))]
  refine (pointsTo_biUnion_join Finset.univ KBℓ fs f₀ hd).trans ?_
  rw [hc]
  iintro ⟨%g, %hg, H⟩
  iexists g; isplitr
  · ipureintro; exact fun p i hi => hg p (Finset.mem_univ _) i hi
  · iexact H

omit m in
theorem range32 : Finset.range 32 = (Finset.univ : Finset (Fin 2 × Fin 16)).image (fun p => 2 * p.2.val + p.1.val) := by decide

omit m in
/-- A table read by all thirty-two subcores: a share kept and one read share per subcore. -/
theorem toks_split (ℓ : Loc nD τ sig) (q : PosShare TreeShare) (f : Buf (Elt F) ℓ) :
    (ℓ ↦{q} f : sProp 𝕄) ⊣⊢ iprop((ℓ ↦{Transfers.shareDrop q 32} f)
      ∗ bigSep Finset.univ fun c : Fin 2 => bigSep Finset.univ fun i : Fin 16 => ℓ ↦{Transfers.shareTokN q (2 * i.val + c.val)} f) := by
  have e : (bigSep (Finset.range 32) fun w => (ℓ ↦{Transfers.shareTokN q w} f : sProp 𝕄))
      = bigSep Finset.univ fun c : Fin 2 => bigSep Finset.univ fun i : Fin 16 => ℓ ↦{Transfers.shareTokN q (2 * i.val + c.val)} f := by
    rw [range32, SparseCore.bigSep_image_of_injOn (fun a _ b _ e => by
      have h1 : a.1.val < 2 := a.1.isLt
      have h1' : b.1.val < 2 := b.1.isLt
      exact Prod.ext (Fin.ext (by omega)) (Fin.ext (by omega))), bigSep_univ_prod]
  rw [← e]
  exact Transfers.pointsTo_toks_range q 32

/-! ## The host operations before the call, and the tables they leave -/

abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_arg3 : DevRef τ sig := Proc.devRef .tc (main_arg3 : Ref sig .tc)
abbrev r_arg4 : DevRef τ sig := Proc.devRef .tc (main_arg4 : Ref sig .tc)
abbrev r_arg5 : DevRef τ sig := Proc.devRef .tc (main_arg5 : Ref sig .tc)
abbrev r_arg6 : DevRef τ sig := Proc.devRef .tc (main_arg6 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)

/-- The TensorCore's eleven arrays, all unscoped. -/
abbrev S11 : Finset (DevRef τ sig) := {r_arg0, r_arg1, r_arg2, r_arg3, r_arg4, r_arg5, r_arg6, r_v0, r_v1, r_v2, r_v3}

variable [BitOps F]

abbrev op1 : HloOp τ sig (Elt F) :=
  StableHlo.unary main_arg3 main_v0 ((transpose S5000x4x1000 [0, 2, 1] · transposes_S5000x1000x4_S5000x4x1000_0_2_1) : (⟨S5000x1000x4, .f32⟩ : BufTy).Contents (Elt F) → (⟨S5000x4x1000, .f32⟩ : BufTy).Contents (Elt F))
abbrev op2 : HloOp τ sig (Elt F) := StableHlo.reshape main_v0 main_v1 rfl shapeCasts_S5000x4x1000_S20000000
abbrev op3 : HloOp τ sig (Elt F) := StableHlo.reshape main_arg4 main_v2 rfl shapeCasts_S5000x1000_S5000000

/-- The launch valuation, and the one the three operations leave. -/
def V0 (d : Dev nD) : Valuation τ sig (Elt F) := fun b => m (d, b)
abbrev V3 (d : Dev nD) : Valuation τ sig (Elt F) := (op3 (F := F)).result ((op2 (F := F)).result ((op1 (F := F)).result (V0 m d)))

/-- The price table transposed and flattened, the table of ratios flattened: what the subcores gather from. -/
def FD (d : Dev nD) : Buf (Elt F) (fdataLoc d) := V3 m d r_v1
def FA (d : Dev nD) : Buf (Elt F) (fartrLoc d) := V3 m d r_v2

omit [BitOps F] in
theorem held_S11 (d : Dev nD) (W : Valuation τ sig (Elt F)) :
    (held (T d) S11 W : sProp 𝕄) = iprop((posLoc d ↦{fullShare} W r_arg0) ∗ (prevLoc d ↦{fullShare} W r_arg1) ∗ (actLoc d ↦{fullShare} W r_arg2)
      ∗ (dataLoc d ↦{fullShare} W r_arg3) ∗ (artrLoc d ↦{fullShare} W r_arg4) ∗ (dateLoc d ↦{fullShare} W r_arg5) ∗ (timeLoc d ↦{fullShare} W r_arg6)
      ∗ (tdataLoc d ↦{fullShare} W r_v0) ∗ (fdataLoc d ↦{fullShare} W r_v1) ∗ (fartrLoc d ↦{fullShare} W r_v2) ∗ (outLoc d ↦{fullShare} W r_v3)) := by
  unfold held S11
  repeat rw [SparseCore.bigSep_insert' (by decide)]
  rw [bigSep_singleton]

omit [BitOps F] in
theorem unscoped_held (d : Dev nD) : (unscopedBufs d (fun b => m ((SparseCore.T d).loc b)) : sProp 𝕄) = held (T d) S11 (V0 m d) := by
  unfold unscopedBufs held S11
  rw [show (Finset.univ.filter fun b : Ref sig .tc => ¬ b.isScoped) = {main_arg0, main_arg1, main_arg2, main_arg3, main_arg4, main_arg5, main_arg6, main_v0, main_v1, main_v2, main_v3} by decide]
  repeat rw [SparseCore.bigSep_insert' (by decide)]
  rw [bigSep_singleton, bigSep_singleton]
  rfl

theorem hop1 : (op1 (F := F)).bufs ⊆ S11 := show ({r_arg3, r_v0} : Finset (DevRef τ sig)) ⊆ S11 by decide
theorem hop2 : (op2 (F := F)).bufs ⊆ S11 := show ({r_v0, r_v1} : Finset (DevRef τ sig)) ⊆ S11 by decide
theorem hop3 : (op3 (F := F)).bufs ⊆ S11 := show ({r_arg4, r_v2} : Finset (DevRef τ sig)) ⊆ S11 by decide

/-- The three operations write only `main_v0`, `main_v1`, `main_v2`: every other array is as launched. -/
theorem V3_kept (d : Dev nD) (b : DevRef τ sig) (h0 : b ≠ r_v0) (h1 : b ≠ r_v1) (h2 : b ≠ r_v2) : V3 m d b = V0 m d b := by
  show (op3 (F := F)).result ((op2 (F := F)).result ((op1 (F := F)).result (V0 m d))) b = V0 m d b
  rw [HloOp.result_of_not_mem _ _ (show b ∉ (op3 (F := F)).writes from fun h => h2 (Finset.mem_singleton.mp h)),
    HloOp.result_of_not_mem _ _ (show b ∉ (op2 (F := F)).writes from fun h => h1 (Finset.mem_singleton.mp h)),
    HloOp.result_of_not_mem _ _ (show b ∉ (op1 (F := F)).writes from fun h => h0 (Finset.mem_singleton.mp h))]

/-! ## What the handshakes carry -/

omit m in
theorem nCore_b : (K (F := F)).nCore 0 = grid0.bound 0 := rfl
omit m in
theorem nSub_b : (K (F := F)).nSub 0 = grid0.bound 1 := rfl

/-- Per SparseCore, its sixteen subcores' shares; per subcore, `GO` — on the way back with the result's block written. -/
def P : (K (F := F)).Pay (nD := nD) (Val := Elt F) (Name := ℕ) (U := UU) where
  st := fun q d c => match q with
    | 0 => bigSep Finset.univ fun i : Fin (grid0.bound 1) => GO m d (coordsV (Fin.cast nCore_b c) i) (FD m d) (FA m d) (m (outLoc d))
  dn := fun q d c => match q with
    | 0 => bigSep Finset.univ fun i : Fin (grid0.bound 1) =>
        GO m d (coordsV (Fin.cast nCore_b c) i) (FD m d) (FA m d) (OUTF m d (coordsV (Fin.cast nCore_b c) i) (FD m d) (FA m d))
  go := fun q d c i => match q with
    | 0 => GO m d (coordsV (Fin.cast nCore_b c) (Fin.cast nSub_b i)) (FD m d) (FA m d) (m (outLoc d))
  td := fun q d c i => match q with
    | 0 => GO m d (coordsV (Fin.cast nCore_b c) (Fin.cast nSub_b i)) (FD m d) (FA m d)
        (OUTF m d (coordsV (Fin.cast nCore_b c) (Fin.cast nSub_b i)) (FD m d) (FA m d))
  x := fun _ _ => iprop(emp)

instance GO_storable (d : Dev nD) (L : grid0.Coords) (fD : Buf (Elt F) (fdataLoc d)) (fA : Buf (Elt F) (fartrLoc d)) (fo : Buf (Elt F) (outLoc d)) :
    BI.Storable (upEmb : UEmb _ 𝕄) (GO m d L fD fA fo) := by
  unfold GO; infer_instance

instance P_storable : (P (F := F) m).IsStorable where
  st q d c := match q with
    | 0 => (inferInstance : BI.Storable (upEmb : UEmb _ 𝕄)
        (bigSep Finset.univ fun i : Fin (grid0.bound 1) => GO m d (coordsV (Fin.cast nCore_b c) i) (FD m d) (FA m d) (m (outLoc d))))
  dn q d c := match q with
    | 0 => (inferInstance : BI.Storable (upEmb : UEmb _ 𝕄)
        (bigSep Finset.univ fun i : Fin (grid0.bound 1) =>
          GO m d (coordsV (Fin.cast nCore_b c) i) (FD m d) (FA m d) (OUTF m d (coordsV (Fin.cast nCore_b c) i) (FD m d) (FA m d))))
  go q d c i := match q with
    | 0 => (inferInstance : BI.Storable (upEmb : UEmb _ 𝕄)
        (GO m d (coordsV (Fin.cast nCore_b c) (Fin.cast nSub_b i)) (FD m d) (FA m d) (m (outLoc d))))
  td q d c i := match q with
    | 0 => (inferInstance : BI.Storable (upEmb : UEmb _ 𝕄)
        (GO m d (coordsV (Fin.cast nCore_b c) (Fin.cast nSub_b i)) (FD m d) (FA m d)
          (OUTF m d (coordsV (Fin.cast nCore_b c) (Fin.cast nSub_b i)) (FD m d) (FA m d))))

/-! ## The launch theorem's obligations -/

theorem defs₀_vector (c : Fin τ.nSC) (s : Fin τ.nSub) :
    defs₀ (F := F) (.scVector c s) 0 ()
      = SparseCore.onTile hcore0 hsub0 (fun c s => cc0__body (coordsV c s)
          posW (Memref.isWhole_whole _) prevW (Memref.isWhole_whole _) actW (Memref.isWhole_whole _) fdataW (Memref.isWhole_whole _)
          fartrW (Memref.isWhole_whole _) dateW (Memref.isWhole_whole _) timeW (Memref.isWhole_whole _) outW (Memref.isWhole_whole _)
          s0W (Memref.isWhole_whole _) s1W (Memref.isWhole_whole _) s2W (Memref.isWhole_whole _) s3W (Memref.isWhole_whole _) s4W (Memref.isWhole_whole _)
          s5W (Memref.isWhole_whole _) s6W (Memref.isWhole_whole _) s7W (Memref.isWhole_whole _) s8W (Memref.isWhole_whole _) s9W (Memref.isWhole_whole _)
          cc0_scratch10 cc0_scratch11 cc0_scoped0 cc0_scoped1 cc0_scoped2 cc0_scoped3 cc0_scoped4 cc0_scoped5) ⟨⟩ c s := rfl

omit [BitOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ d, PreOK m d) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) (FD m d) (FA m d) hF (hpre d) O W hO).trans (wp_mono frame _ _ fun _ => obl_post)

theorem bigSep_tasks (Φ : Fin 16 → sProp 𝕄) :
    (bigSep Finset.univ fun i : Fin ((K (F := F)).nSub 0) => Φ (Fin.cast nSub_b i)) = bigSep Finset.univ Φ :=
  bigSep_congr fun _ _ => congrArg Φ (Fin.ext rfl)

theorem vecSplit : (K (F := F)).VecSplit' (P m) 0 := by
  intro d c
  show (bigSep Finset.univ fun i : Fin (grid0.bound 1) => GO m d (coordsV (Fin.cast nCore_b c) i) (FD m d) (FA m d) (m (outLoc d))) ⊢ |={Set.univ}=> iprop(
      (bigSep Finset.univ fun i : Fin ((K (F := F)).nSub 0) =>
        GO m d (coordsV (Fin.cast nCore_b c) (Fin.cast nSub_b i)) (FD m d) (FA m d) (m (outLoc d)))
      ∗ ((bigSep Finset.univ fun i : Fin ((K (F := F)).nSub 0) =>
          GO m d (coordsV (Fin.cast nCore_b c) (Fin.cast nSub_b i)) (FD m d) (FA m d)
            (OUTF m d (coordsV (Fin.cast nCore_b c) (Fin.cast nSub_b i)) (FD m d) (FA m d)))
          -∗ bigSep Finset.univ fun i : Fin (grid0.bound 1) =>
            GO m d (coordsV (Fin.cast nCore_b c) i) (FD m d) (FA m d) (OUTF m d (coordsV (Fin.cast nCore_b c) i) (FD m d) (FA m d))))
  iintro H; imodintro
  isplitl [H]
  · iapply (Entails.of_eq (bigSep_tasks (F := F) (fun i => GO m d (coordsV (Fin.cast nCore_b c) i) (FD m d) (FA m d) (m (outLoc d)))).symm)
    iexact H
  iintro H
  iapply (Entails.of_eq (bigSep_tasks (F := F) (fun i => GO m d (coordsV (Fin.cast nCore_b c) i) (FD m d) (FA m d)
      (OUTF m d (coordsV (Fin.cast nCore_b c) i) (FD m d) (FA m d)))))
  iexact H

/-! ## The launch element: the handshakes' rounds; nothing of the kernel's own -/

def u₀ : UU := (initOf (K (F := F)).hsCells (K (F := F)).hsToks, 1)

omit [BitOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem bigSep_cores (Φ : Fin (grid0.bound 0) → sProp 𝕄) :
    (bigSep Finset.univ fun c : Fin ((K (F := F)).nCore 0) => Φ (Fin.cast nCore_b c)) = bigSep Finset.univ Φ :=
  bigSep_congr fun _ _ => congrArg Φ (Fin.ext rfl)

/-- The thirty-two subcores' shares, array by array. -/
theorem GO_split (d : Dev nD) (fD : Buf (Elt F) (fdataLoc d)) (fA : Buf (Elt F) (fartrLoc d)) (fo : Fin 2 × Fin 16 → Buf (Elt F) (outLoc d)) :
    (bigSep Finset.univ fun p : Fin 2 × Fin 16 => GO m d (coordsV p.1 p.2) fD fA (fo p))
      = iprop((bigSep Finset.univ fun p : Fin 2 × Fin 16 => posLoc d ↦[KB p]{fullShare} m (posLoc d))
        ∗ (bigSep Finset.univ fun p : Fin 2 × Fin 16 => prevLoc d ↦[KB p]{fullShare} m (prevLoc d))
        ∗ (bigSep Finset.univ fun p : Fin 2 × Fin 16 => actLoc d ↦[KB p]{fullShare} m (actLoc d))
        ∗ (bigSep Finset.univ fun p : Fin 2 × Fin 16 => dateLoc d ↦[KB p]{fullShare} m (dateLoc d))
        ∗ (bigSep Finset.univ fun p : Fin 2 × Fin 16 => timeLoc d ↦[KB p]{fullShare} m (timeLoc d))
        ∗ (bigSep Finset.univ fun p : Fin 2 × Fin 16 => fdataLoc d ↦{Transfers.shareTokN fullShare (2 * p.2.val + p.1.val)} fD)
        ∗ (bigSep Finset.univ fun p : Fin 2 × Fin 16 => fartrLoc d ↦{Transfers.shareTokN fullShare (2 * p.2.val + p.1.val)} fA)
        ∗ (bigSep Finset.univ fun p : Fin 2 × Fin 16 => outLoc d ↦[KB p]{fullShare} fo p)) := by
  unfold GO
  rw [bigSep_sep', bigSep_sep', bigSep_sep', bigSep_sep', bigSep_sep', bigSep_sep', bigSep_sep']
  rfl

theorem st_eq (d : Dev nD) :
    (bigSep Finset.univ fun c : Fin ((K (F := F)).nCore 0) => (P m).st 0 d c)
      = bigSep Finset.univ fun p : Fin 2 × Fin 16 => GO m d (coordsV p.1 p.2) (FD m d) (FA m d) (m (outLoc d)) := by
  rw [bigSep_univ_prod (fun p : Fin 2 × Fin 16 => GO m d (coordsV p.1 p.2) (FD m d) (FA m d) (m (outLoc d)))]
  exact bigSep_cores (F := F) (fun c => bigSep Finset.univ fun i : Fin (grid0.bound 1) => GO m d (coordsV c i) (FD m d) (FA m d) (m (outLoc d)))
theorem dn_eq (d : Dev nD) :
    (bigSep Finset.univ fun c : Fin ((K (F := F)).nCore 0) => (P m).dn 0 d c)
      = bigSep Finset.univ fun p : Fin 2 × Fin 16 => GO m d (coordsV p.1 p.2) (FD m d) (FA m d) (OUTF m d (coordsV p.1 p.2) (FD m d) (FA m d)) := by
  rw [bigSep_univ_prod (fun p : Fin 2 × Fin 16 => GO m d (coordsV p.1 p.2) (FD m d) (FA m d) (OUTF m d (coordsV p.1 p.2) (FD m d) (FA m d)))]
  exact bigSep_cores (F := F) (fun c => bigSep Finset.univ fun i : Fin (grid0.bound 1) =>
    GO m d (coordsV c i) (FD m d) (FA m d) (OUTF m d (coordsV c i) (FD m d) (FA m d)))

omit m [BitOps F] in
theorem pts_blocksP (ℓ : Loc nD τ sig) (KBℓ : Fin 2 × Fin 16 → Finset (Idx ℓ))
    (hd : ∀ p ∈ (Finset.univ : Finset (Fin 2 × Fin 16)), ∀ p' ∈ (Finset.univ : Finset (Fin 2 × Fin 16)), p ≠ p' → Disjoint (KBℓ p) (KBℓ p'))
    (hc : (Finset.univ : Finset (Fin 2 × Fin 16)).biUnion KBℓ = Finset.univ) (q : PosShare TreeShare) (f : Buf (Elt F) ℓ) :
    (ℓ ↦{q} f : sProp 𝕄) = bigSep Finset.univ fun p : Fin 2 × Fin 16 => ℓ ↦[KBℓ p]{q} f := by
  rw [← pointsTo_biUnion Finset.univ KBℓ hd, hc]

omit m [BitOps F] in
theorem toks_splitP (ℓ : Loc nD τ sig) (q : PosShare TreeShare) (f : Buf (Elt F) ℓ) :
    (ℓ ↦{q} f : sProp 𝕄) ⊣⊢ iprop((ℓ ↦{Transfers.shareDrop q 32} f)
      ∗ bigSep Finset.univ fun p : Fin 2 × Fin 16 => ℓ ↦{Transfers.shareTokN q (2 * p.2.val + p.1.val)} f) := by
  have e : (bigSep (Finset.range 32) fun w => (ℓ ↦{Transfers.shareTokN q w} f : sProp 𝕄))
      = bigSep Finset.univ fun p : Fin 2 × Fin 16 => ℓ ↦{Transfers.shareTokN q (2 * p.2.val + p.1.val)} f := by
    rw [range32, SparseCore.bigSep_image_of_injOn (fun a _ b _ e => by
      have h1 : a.1.val < 2 := a.1.isLt
      have h1' : b.1.val < 2 := b.1.isLt
      exact Prod.ext (Fin.ext (by omega)) (Fin.ext (by omega)))]
  rw [← e]
  exact Transfers.pointsTo_toks_range q 32

/-- What the result holds on each subcore's block. -/
def OutSpec (d : Dev nD) (g : Buf (Elt F) (outLoc d)) : Prop :=
  ∀ p : Fin 2 × Fin 16, ∀ i ∈ KB p, g i = OUTF m d (coordsV p.1 p.2) (FD m d) (FA m d) i

/-- What @main leaves the claim: the seven arguments as launched, the result as the subcores wrote it. -/
abbrev FIN (d : Dev nD) : sProp 𝕄 :=
  iprop((posLoc d ↦{fullShare} m (posLoc d)) ∗ (prevLoc d ↦{fullShare} m (prevLoc d)) ∗ (actLoc d ↦{fullShare} m (actLoc d))
    ∗ (dataLoc d ↦{fullShare} m (dataLoc d)) ∗ (artrLoc d ↦{fullShare} m (artrLoc d)) ∗ (dateLoc d ↦{fullShare} m (dateLoc d))
    ∗ (timeLoc d ↦{fullShare} m (timeLoc d)) ∗ ∃ g, ⌜OutSpec m d g⌝ ∗ outLoc d ↦{fullShare} g)

theorem V3_arg (d : Dev nD) (b : DevRef τ sig) (h0 : b ≠ r_v0) (h1 : b ≠ r_v1) (h2 : b ≠ r_v2) : V3 m d b = m (d, b) :=
  V3_kept m d b h0 h1 h2

set_option maxHeartbeats 4000000 in
/-- @main on device `d`'s TensorCore: the three host operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op1) (S := S11) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S11) hop2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S11) hop3 (V := (op2 (F := F)).result ((op1 (F := F)).result (V0 m d)))) $$ [Hb Hheld]
  · isplitl [Hb]; · iexact Hb
    iexact Hheld
  iintro ⟨Hb, Hheld⟩
  rw [wp_ret]; imodintro
  ihave Hh := (Entails.of_eq (held_S11 (F := F) d (V3 m d))) $$ Hheld
  icases Hh with ⟨Hpos, Hprev, Hact, Hdata, Hartr, Hdate, Htime, -, Hfd, Hfa, Hout⟩
  rw [V3_arg m d r_arg0 (by decide) (by decide) (by decide), V3_arg m d r_arg1 (by decide) (by decide) (by decide),
    V3_arg m d r_arg2 (by decide) (by decide) (by decide), V3_arg m d r_arg3 (by decide) (by decide) (by decide),
    V3_arg m d r_arg4 (by decide) (by decide) (by decide), V3_arg m d r_arg5 (by decide) (by decide) (by decide),
    V3_arg m d r_arg6 (by decide) (by decide) (by decide), V3_arg m d r_v3 (by decide) (by decide) (by decide)]
  ihave Hfd := (Entails.of_eq (show (fdataLoc d ↦{fullShare} V3 m d r_v1 : sProp 𝕄) = fdataLoc d ↦{fullShare} FD m d from rfl)) $$ Hfd
  ihave Hfa := (Entails.of_eq (show (fartrLoc d ↦{fullShare} V3 m d r_v2 : sProp 𝕄) = fartrLoc d ↦{fullShare} FA m d from rfl)) $$ Hfa
  ihave Hfd' := (toks_splitP (F := F) (fdataLoc d) fullShare (FD m d)).1 $$ Hfd
  icases Hfd' with ⟨-, Hfd⟩
  ihave Hfa' := (toks_splitP (F := F) (fartrLoc d) fullShare (FA m d)).1 $$ Hfa
  icases Hfa' with ⟨-, Hfa⟩
  iapply ((K (F := F)).wp_run (D (F := F)) 𝒱 (EH := EH) (P := P m) κ d 0) $$ [Hst Hpos Hprev Hact Hdate Htime Hfd Hfa Hout Hdata Hartr]
  isplitr; · iexact Hctx
  isplitl [Hst]; · iexact Hst
  isplitl [Hpos Hprev Hact Hdate Htime Hfd Hfa Hout]
  · rw [st_eq, GO_split]
    isplitl [Hpos]; · iapply (Entails.of_eq (pts_blocksP (F := F) (posLoc d) KB KB_disjoint KB_cover fullShare _)); iexact Hpos
    isplitl [Hprev]; · iapply (Entails.of_eq (pts_blocksP (F := F) (prevLoc d) KB KB_disjoint KB_cover fullShare _)); iexact Hprev
    isplitl [Hact]; · iapply (Entails.of_eq (pts_blocksP (F := F) (actLoc d) KB KB_disjoint KB_cover fullShare _)); iexact Hact
    isplitl [Hdate]; · iapply (Entails.of_eq (pts_blocksP (F := F) (dateLoc d) KB KB_disjoint KB_cover fullShare _)); iexact Hdate
    isplitl [Htime]; · iapply (Entails.of_eq (pts_blocksP (F := F) (timeLoc d) KB KB_disjoint KB_cover fullShare _)); iexact Htime
    isplitl [Hfd]; · iexact Hfd
    isplitl [Hfa]; · iexact Hfa
    iapply (Entails.of_eq (pts_blocksP (F := F) (outLoc d) KB KB_disjoint KB_cover fullShare _)); iexact Hout
  iintro ⟨Hst, Hdn⟩
  ihave Hdn' := (Entails.of_eq ((dn_eq m d).trans (GO_split m d (FD m d) (FA m d) (fun p => OUTF m d (coordsV p.1 p.2) (FD m d) (FA m d))))) $$ Hdn
  icases Hdn' with ⟨Hpos, Hprev, Hact, Hdate, Htime, -, -, Hout⟩
  ihave Hpos := (Entails.of_eq (pts_blocksP (F := F) (posLoc d) KB KB_disjoint KB_cover fullShare (m (posLoc d))).symm) $$ Hpos
  ihave Hprev := (Entails.of_eq (pts_blocksP (F := F) (prevLoc d) KB KB_disjoint KB_cover fullShare (m (prevLoc d))).symm) $$ Hprev
  ihave Hact := (Entails.of_eq (pts_blocksP (F := F) (actLoc d) KB KB_disjoint KB_cover fullShare (m (actLoc d))).symm) $$ Hact
  ihave Hdate := (Entails.of_eq (pts_blocksP (F := F) (dateLoc d) KB KB_disjoint KB_cover fullShare (m (dateLoc d))).symm) $$ Hdate
  ihave Htime := (Entails.of_eq (pts_blocksP (F := F) (timeLoc d) KB KB_disjoint KB_cover fullShare (m (timeLoc d))).symm) $$ Htime
  ihave Ho := (pointsTo_biUnion_join (Finset.univ : Finset (Fin 2 × Fin 16)) (ℓ := outLoc d) (q := fullShare) KB
    (fun p => OUTF m d (coordsV p.1 p.2) (FD m d) (FA m d)) (m (outLoc d)) KB_disjoint) $$ Hout
  icases Ho with ⟨%g, %hg, Hout⟩
  rw [KB_cover]
  imodintro
  isplitl [Hst]; · iexact Hst
  isplitl [Hpos]; · iexact Hpos
  isplitl [Hprev]; · iexact Hprev
  isplitl [Hact]; · iexact Hact
  isplitl [Hdata]; · iexact Hdata
  isplitl [Hartr]; · iexact Hartr
  isplitl [Hdate]; · iexact Hdate
  isplitl [Htime]; · iexact Htime
  iexists g; isplitr
  · ipureintro; exact fun p i hi => hg p (Finset.mem_univ _) i hi
  · iexact Hout

/-! ## The final memory -/

def fq (d : Dev nD) (s' : Phys nD τ sig (Elt F)) : Prop :=
  s'.mem.mem (posLoc d) = m (posLoc d) ∧ s'.mem.mem (prevLoc d) = m (prevLoc d) ∧ s'.mem.mem (actLoc d) = m (actLoc d)
  ∧ s'.mem.mem (dataLoc d) = m (dataLoc d) ∧ s'.mem.mem (artrLoc d) = m (artrLoc d) ∧ s'.mem.mem (dateLoc d) = m (dateLoc d)
  ∧ s'.mem.mem (timeLoc d) = m (timeLoc d) ∧ OutSpec m d (s'.mem.mem (outLoc d))

omit m [BitOps F] in
/-- A whole array held agrees with the memory, which stays. -/
theorem agree_keep (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H4, H5, H6, %g, %hg, Ho⟩, HSI⟩
  ihave A := (agree_keep (F := F) (posLoc d) _ s') $$ [HSI H0]; · isplitl [HSI] <;> iassumption
  icases A with ⟨%e0, HSI⟩
  ihave A := (agree_keep (F := F) (prevLoc d) _ s') $$ [HSI H1]; · isplitl [HSI] <;> iassumption
  icases A with ⟨%e1, HSI⟩
  ihave A := (agree_keep (F := F) (actLoc d) _ s') $$ [HSI H2]; · isplitl [HSI] <;> iassumption
  icases A with ⟨%e2, HSI⟩
  ihave A := (agree_keep (F := F) (dataLoc d) _ s') $$ [HSI H3]; · isplitl [HSI] <;> iassumption
  icases A with ⟨%e3, HSI⟩
  ihave A := (agree_keep (F := F) (artrLoc d) _ s') $$ [HSI H4]; · isplitl [HSI] <;> iassumption
  icases A with ⟨%e4, HSI⟩
  ihave A := (agree_keep (F := F) (dateLoc d) _ s') $$ [HSI H5]; · isplitl [HSI] <;> iassumption
  icases A with ⟨%e5, HSI⟩
  ihave A := (agree_keep (F := F) (timeLoc d) _ s') $$ [HSI H6]; · isplitl [HSI] <;> iassumption
  icases A with ⟨%e6, HSI⟩
  ihave A := (agree_keep (F := F) (outLoc d) _ s') $$ [HSI Ho]; · isplitl [HSI] <;> iassumption
  icases A with ⟨%e7, -⟩
  ipureintro
  exact ⟨e0, e1, e2, e3, e4, e5, e6, e7 ▸ hg⟩

/-! ## The program's run -/

/-- Every execution ends with the seven arguments as launched and the result, on each subcore's block, what that subcore
    computed from the launch memory. -/
def QC : PUnit × MemSt nD τ sig (Elt F) → Prop := fun r => ∀ c : Dev nD,
  r.2.mem (posLoc c) = m (posLoc c) ∧ r.2.mem (prevLoc c) = m (prevLoc c) ∧ r.2.mem (actLoc c) = m (actLoc c)
  ∧ r.2.mem (dataLoc c) = m (dataLoc c) ∧ r.2.mem (artrLoc c) = m (artrLoc c) ∧ r.2.mem (dateLoc c) = m (dateLoc c)
  ∧ r.2.mem (timeLoc c) = m (timeLoc c) ∧ OutSpec m c (r.2.mem (outLoc c))

theorem run_main [∀ e, Nonempty (Elt F e)] (hpre : ∀ d, PreOK m d) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.TileBits

end
-- ==== Proof.TilePreB.lean ====
/-
  From the precondition to what the proof asks of the launch memory: the precondition's last conjuncts say, element by
  element, that every date index is at least 0 and at most 4999 and every time index at least 0 and at most 999 as signed
  words, all of it folded by `and` into one bit; a signed word between 0 and a small bound is its own unsigned value.
-/
import proofs.«202963_g88613765251846_cont_sun_m_1299_31_alg».proof.Proof.TileBodyB
import proofs.«202963_g88613765251846_cont_sun_m_1299_31_alg».proof.Proof.Gen.Pre_input_domain
import Idealize.ShloMosaic.Lib.ReduceAll

noncomputable section

namespace Cert.Proof.TileBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type}

local notation "𝕄" => MT nD τ sig (HIx 1) (Elt F) ℕ UU ℕ

variable (m : (ℓ : Loc nD τ sig) → Buf (Elt F) ℓ)

instance subsingleton_S_ : Subsingleton Cert.Pre_input_domain.S_.Idx := ⟨fun a b => funext fun d => d.elim0⟩

theorem word_le_of_signed (v : BitVec 32) (n : ℕ) (hn : n < 2 ^ 31)
    (e : IntOp.andi (IntOp.cmpi .sge v 0#32) (IntOp.cmpi .sle v (BitVec.ofNat 32 n)) = 1#1) : v.toNat ≤ n := by
  obtain ⟨a, b⟩ := IntOp.andi_eq_one.mp e
  rw [IntOp.cmpi_sge] at a
  rw [IntOp.cmpi_sle] at b
  have h0 : (0#32 : BitVec 32).toInt = 0 := by decide
  have hN : (BitVec.ofNat 32 n).toInt = n := by
    rw [BitVec.toInt_eq_toNat_cond, BitVec.toNat_ofNat, Nat.mod_eq_of_lt (by omega)]
    split <;> omega
  rw [h0] at a; rw [hN] at b
  rw [BitVec.toInt_eq_toNat_cond] at a b
  split at a <;> omega

variable [BitOps F] [Cert.Pre_input_domain.Facts]

theorem ok_of_pre (d : Dev nD)
    (h : Cert.Pre_input_domain.fn (F := F) (m (posLoc d)) (m (prevLoc d)) (m (actLoc d)) (m (dataLoc d)) (m (artrLoc d)) (m (dateLoc d)) (m (timeLoc d))
      = fun _ => 1#1) : PreOK m d := by
  have e := congrFun h ValueIdx.ix0
  simp only [Cert.Pre_input_domain.fn, Cert.Pre_input_domain.fn_part1, Cert.Pre_input_domain.fn_part2] at e
  obtain ⟨e30, e36⟩ := IntOp.andi_eq_one.mp e
  obtain ⟨-, e29⟩ := IntOp.andi_eq_one.mp e30
  intro j
  exact ⟨word_le_of_signed _ 4999 (by decide) (Host.reduce_andi_all _ _ _ _ _ e29 j),
    word_le_of_signed _ 999 (by decide) (Host.reduce_andi_all _ _ _ _ _ e36 j)⟩

end Cert.Proof.TileBits

end
-- ==== Proof.TileSetup.lean ====
/-
  A stop-loss update over 16384 positions on the two SparseCores: thirty-two vector subcores, subcore s of core c taking
  the 512 positions from 512 * (2 s + c) on. Each subcore copies its block of the date and time indices, of the position,
  the action and the previous stop into its own memory; forms, sixteen lanes at a time, the flat index d * 1000 + t into
  the table of ratios laid out as one row of 5,000,000 words and the flat index ((4 d + ch) * 1000 + t) into the price
  table transposed to [date, channel, time] and laid out as one row of 20,000,000 words, the channel ch being 3 where the
  position is zero, 1 where the sign of position + action is positive and 2 otherwise; gathers the 512 ratios and the 512
  prices those indices name; computes the new stop sixteen lanes at a time and copies its block of the result out.

  This module: the program as the launch theorem sees it, the ghost state (the handshakes' rounds beside the transfers'
  counters), the arrays as the TensorCore and as a subcore name them, the block of a subcore as a set of indices, and the
  pure functions of the launch memory that each scratch buffer holds at each stage — stated for any float instance.
-/
import proofs.«202963_g88613765251846_cont_sun_m_1299_31_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.WritesUnit
import Idealize.ShloMosaic.Lib.ValueIdx
import Idealize.ShloMosaic.Lib.Pipeline.Value
import proofs.«202963_g88613765251846_cont_sun_m_1299_31_alg».proof.Proof.Gen.KernelIdeal
import proofs.«202963_g88613765251846_cont_sun_m_1299_31_alg».proof.Proof.Gen.KernelIdeal.Skeleton

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, as the TensorCore names them -/

abbrev posLoc (d : Dev nD) : Loc nD τ sig := (SparseCore.T d).loc main_arg0
abbrev prevLoc (d : Dev nD) : Loc nD τ sig := (SparseCore.T d).loc main_arg1
abbrev actLoc (d : Dev nD) : Loc nD τ sig := (SparseCore.T d).loc main_arg2
abbrev dataLoc (d : Dev nD) : Loc nD τ sig := (SparseCore.T d).loc main_arg3
abbrev artrLoc (d : Dev nD) : Loc nD τ sig := (SparseCore.T d).loc main_arg4
abbrev dateLoc (d : Dev nD) : Loc nD τ sig := (SparseCore.T d).loc main_arg5
abbrev timeLoc (d : Dev nD) : Loc nD τ sig := (SparseCore.T d).loc main_arg6
abbrev tdataLoc (d : Dev nD) : Loc nD τ sig := (SparseCore.T d).loc main_v0
abbrev fdataLoc (d : Dev nD) : Loc nD τ sig := (SparseCore.T d).loc main_v1
abbrev fartrLoc (d : Dev nD) : Loc nD τ sig := (SparseCore.T d).loc main_v2
abbrev outLoc (d : Dev nD) : Loc nD τ sig := (SparseCore.T d).loc main_v3

/-! ## A subcore's block -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The 512 positions of the subcore at `L`, as the kernel slices them: from `512 * (2 * L 1 + L 0)` on. -/
abbrev blkR (L : grid0.Coords) : Rect S16384 := Rect.unit (s := S16384) (k0_off1 L) S512.size (k0_off1_inb L)
/-- The same as a set of indices of a 16384-array. -/
def blkSet (L : grid0.Coords) : Finset S16384.Idx := (blkR L).set

theorem mem_blkSet (L : grid0.Coords) (j : S16384.Idx) :
    j ∈ blkSet L ↔ 1024 * (L 1).val + 512 * (L 0).val ≤ (j 0).val ∧ (j 0).val < 1024 * (L 1).val + 512 * (L 0).val + 512 := by
  unfold blkSet blkR
  rw [Rect.mem_set_unit, k0_off1_eq]
  constructor
  · intro h; have := h 0; simpa using this
  · intro h a; obtain rfl : a = 0 := Subsingleton.elim _ _; simpa using h

/-- The position `x` of the block at `L`, as an index of the 16384-array. -/
def blkIdx (L : grid0.Coords) (x : S512.Idx) : S16384.Idx :=
  ix1 (⟨1024 * (L 1).val + 512 * (L 0).val + (x 0).val, by
    have h1 : (L 1).val < 16 := (L 1).isLt
    have h0 : (L 0).val < 2 := (L 0).isLt
    have hx : (x 0).val < 512 := (x 0).isLt
    omega⟩ : Fin 16384)

theorem blkR_emb (L : grid0.Coords) (x : S512.Idx) : (blkR L).emb x = blkIdx L x := by
  funext a; match a with
  | ⟨0, _⟩ =>
    apply Fin.ext
    show (k0_off1 L) 0 + 1 * (x 0).val = 1024 * (L 1).val + 512 * (L 0).val + (x 0).val
    rw [k0_off1_eq]; simp

/-! ## Sixteen lanes of a 512-buffer -/

/-- Lane `l` of the `k`-th group of sixteen. -/
def lane (k : Fin 32) (l : S16.Idx) : S512.Idx :=
  ix1 (⟨16 * k.val + (l 0).val, by
    have hk : k.val < 32 := k.isLt
    have hl : (l 0).val < 16 := (l 0).isLt
    omega⟩ : Fin 512)
/-- The group of sixteen an index of a 512-buffer lies in, and its lane there. -/
def grp (j : S512.Idx) : Fin 32 := ⟨(j 0).val / 16, by have : (j 0).val < 512 := (j 0).isLt; omega⟩
def lan (j : S512.Idx) : S16.Idx := ix1 (⟨(j 0).val % 16, Nat.mod_lt _ (by decide)⟩ : Fin 16)
theorem lane_grp_lan (j : S512.Idx) : lane (grp j) (lan j) = j := by
  funext a; match a with
  | ⟨0, _⟩ =>
    apply Fin.ext
    show 16 * ((j 0).val / 16) + (j 0).val % 16 = (j 0).val
    omega
theorem grp_lane (k : Fin 32) (l : S16.Idx) : grp (lane k l) = k := by
  apply Fin.ext
  show (16 * k.val + (l 0).val) / 16 = k.val
  have hl : (l 0).val < 16 := (l 0).isLt
  omega
theorem lan_lane (k : Fin 32) (l : S16.Idx) : lan (lane k l) = l := by
  funext a; match a with
  | ⟨0, _⟩ =>
    apply Fin.ext
    show (16 * k.val + (l 0).val) % 16 = (l 0).val
    have hl : (l 0).val < 16 := (l 0).isLt
    omega
/-- The sixteen lanes of group `k` of a 512-buffer's contents. -/
def grp16 {α : Type} (f : S512.Idx → α) (k : Fin 32) : S16.Idx → α := fun l => f (lane k l)

end Cert.Proof.TileIdeal

end
-- ==== Proof.TileBody.lean ====
/-
  One vector subcore's task, once, at a symbolic place (core c, subcore s): from its block of the five per-position
  arguments and of the result, a read share of the two flattened tables and its own ten scratch buffers and eight DMA
  semaphores, the task ends — nothing faulting, every wait answered — with the arguments' blocks and the tables as they
  were and its block of the result holding, at position x of the block, the new stop computed from the block's
  position, action and previous stop at x, the ratio at flat index d * 1000 + t and the price at flat index
  ((4 d + ch) * 1000 + t). The two loops go by invariants: before trip k the buffers a loop fills agree with their
  final contents on the first 16 k elements. The two gathers complete on semaphores of their own and are both waited
  for before either gathered buffer is read. Both flat indices name rows of their tables because every date index is
  below 5000, every time index below 1000 and the channel is 1, 2 or 3. Stated for any float instance.
-/
import proofs.«202963_g88613765251846_cont_sun_m_1299_31_alg».proof.Proof.TileSetup

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "posW" => (Memref.whole Cert.KernelIdeal.main_arg0_scv : Memref Cert.KernelIdeal.sig Kind.scVector Space.hbm Cert.KernelIdeal.S16384 EltTy.f32)
local notation "prevW" => (Memref.whole Cert.KernelIdeal.main_arg1_scv : Memref Cert.KernelIdeal.sig Kind.scVector Space.hbm Cert.KernelIdeal.S16384 EltTy.f32)
local notation "actW" => (Memref.whole Cert.KernelIdeal.main_arg2_scv : Memref Cert.KernelIdeal.sig Kind.scVector Space.hbm Cert.KernelIdeal.S16384 EltTy.f32)
local notation "fdataW" => (Memref.whole Cert.KernelIdeal.main_v1_scv : Memref Cert.KernelIdeal.sig Kind.scVector Space.hbm Cert.KernelIdeal.S20000000 EltTy.f32)
local notation "fartrW" => (Memref.whole Cert.KernelIdeal.main_v2_scv : Memref Cert.KernelIdeal.sig Kind.scVector Space.hbm Cert.KernelIdeal.S5000000 EltTy.f32)
local notation "dateW" => (Memref.whole Cert.KernelIdeal.main_arg5_scv : Memref Cert.KernelIdeal.sig Kind.scVector Space.hbm Cert.KernelIdeal.S16384 EltTy.i32)
local notation "timeW" => (Memref.whole Cert.KernelIdeal.main_arg6_scv : Memref Cert.KernelIdeal.sig Kind.scVector Space.hbm Cert.KernelIdeal.S16384 EltTy.i32)
local notation "outW" => (Memref.whole Cert.KernelIdeal.main_v3_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S512 EltTy.f32)
local notation "s1W" => (Memref.whole Cert.KernelIdeal.cc0_scratch1 : Memref Cert.KernelIdeal.sig Kind.scVector Space.vmem Cert.KernelIdeal.S512 EltTy.f32)
local notation "s2W" => (Memref.whole Cert.KernelIdeal.cc0_scratch2 : Memref Cert.KernelIdeal.sig Kind.scVector Space.vmem Cert.KernelIdeal.S512 EltTy.f32)
local notation "s3W" => (Memref.whole Cert.KernelIdeal.cc0_scratch3 : Memref Cert.KernelIdeal.sig Kind.scVector Space.vmem Cert.KernelIdeal.S512 EltTy.i32)
local notation "s4W" => (Memref.whole Cert.KernelIdeal.cc0_scratch4 : Memref Cert.KernelIdeal.sig Kind.scVector Space.vmem Cert.KernelIdeal.S512 EltTy.i32)
local notation "s5W" => (Memref.whole Cert.KernelIdeal.cc0_scratch5 : Memref Cert.KernelIdeal.sig Kind.scVector Space.vmem Cert.KernelIdeal.S512 EltTy.i32)
local notation "s6W" => (Memref.whole Cert.KernelIdeal.cc0_scratch6 : Memref Cert.KernelIdeal.sig Kind.scVector Space.vmem Cert.KernelIdeal.S512 EltTy.i32)
local notation "s7W" => (Memref.whole Cert.KernelIdeal.cc0_scratch7 : Memref Cert.KernelIdeal.sig Kind.scVector Space.vmem Cert.KernelIdeal.S512 EltTy.f32)
local notation "s8W" => (Memref.whole Cert.KernelIdeal.cc0_scratch8 : Memref Cert.KernelIdeal.sig Kind.scVector Space.vmem Cert.KernelIdeal.S512 EltTy.f32)
local notation "s9W" => (Memref.whole Cert.KernelIdeal.cc0_scratch9 : Memref Cert.KernelIdeal.sig Kind.scVector Space.vmem Cert.KernelIdeal.S512 EltTy.f32)

variable [FloatOps F]

/-! ## A subcore's own storage: ten scratch buffers and eight DMA semaphores -/

def scr : Fin 10 → Ref sig .scVector
  | 0 => cc0_scratch0 | 1 => cc0_scratch1 | 2 => cc0_scratch2 | 3 => cc0_scratch3 | 4 => cc0_scratch4
  | 5 => cc0_scratch5 | 6 => cc0_scratch6 | 7 => cc0_scratch7 | 8 => cc0_scratch8 | 9 => cc0_scratch9

omit [FloatOps F] in
theorem scr_injective : Function.Injective scr := by decide

section Tile

variable (d : Dev nD) (L : grid0.Coords)

abbrev thr (d : Dev nD) (L : grid0.Coords) : Thread nD τ := V d (cV L) (jV L)

omit [FloatOps F] in
theorem ownBufs_V :
    (ownBufs (thr d L) : sProp 𝕄)
      = iprop((bigSep Finset.univ fun k : Fin 10 => iprop(∃ f, ((d, (Proc.scVector (cV L) (jV L)).devRef (scr k)) : Loc nD τ sig) ↦{fullShare} f))
          ∗ bigSep ((ownRefs (τ := τ) (.scVector (cV L) (jV L))) \ (Finset.univ.image fun k : Fin 10 => (Proc.scVector (cV L) (jV L)).devRef (scr k)))
              fun b => iprop(∃ f, ((d, b) : Loc nD τ sig) ↦{fullShare} f)) := by
  unfold SparseCore.Cfg.ownBufs
  rw [SparseCore.bigSep_sdiff_split' (t := Finset.univ.image fun k : Fin 10 => (Proc.scVector (cV L) (jV L)).devRef (scr k)) ?h,
    SparseCore.bigSep_image_of_injOn (show Function.Injective (fun k : Fin 10 => (Proc.scVector (cV L) (jV L)).devRef (scr k)) from
      (Proc.devRef_injective _).comp scr_injective).injOn]
  case h =>
    intro b hb
    obtain ⟨k, -, rfl⟩ := Finset.mem_image.mp hb
    exact SparseCore.Cfg.mem_ownRefs_of_owner (p := Proc.scVector (cV L) (jV L)) (by fin_cases k <;> rfl)

end Tile

def dsem : Fin 8 → DmaSem sig
  | 0 => cc0_scratch10.sem | 1 => cc0_scratch11.sem | 2 => cc0_scoped0.sem | 3 => cc0_scoped1.sem
  | 4 => cc0_scoped2.sem | 5 => cc0_scoped3.sem | 6 => cc0_scoped4.sem | 7 => cc0_scoped5.sem

omit [FloatOps F] in
theorem dsem_injective : Function.Injective dsem := by decide

section Tile2

variable (d : Dev nD) (L : grid0.Coords)

omit [FloatOps F] in
theorem ownSems0_V :
    (ownSems0 (thr d L) : sProp 𝕄)
      = iprop((bigSep Finset.univ fun k : Fin 8 => semVal ((thr d L, SemLoc.dma (dsem k)) : GSem nD τ sig) 0)
          ∗ bigSep ((ownCells (thr d L)) \ (Finset.univ.image fun k : Fin 8 => ((thr d L, SemLoc.dma (dsem k)) : GSem nD τ sig)))
              fun g => semVal g 0) := by
  unfold SparseCore.Cfg.ownSems0
  rw [SparseCore.bigSep_sdiff_split' (t := Finset.univ.image fun k : Fin 8 => ((thr d L, SemLoc.dma (dsem k)) : GSem nD τ sig)) ?h,
    SparseCore.bigSep_image_of_injOn (show Function.Injective (fun k : Fin 8 => ((thr d L, SemLoc.dma (dsem k)) : GSem nD τ sig)) from
      fun a b e => dsem_injective (SemLoc.dma.inj (Prod.mk.inj e).2)).injOn]
  case h =>
    intro g hg
    obtain ⟨k, -, rfl⟩ := Finset.mem_image.mp hg
    exact (mem_ownCells (g := ((thr d L, SemLoc.dma (dsem k)) : GSem nD τ sig))).mpr ⟨rfl, by
      show (SemLoc.dma (dsem k) : SemLoc sig).isScoped .scVector = true
      fin_cases k <;> decide⟩

end Tile2

section Tile3

variable (d : Dev nD) (L : grid0.Coords)

omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  repeat rw [SparseCore.bigSep_insert' (by decide)]
  rw [bigSep_singleton]
omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [SparseCore.bigSep_insert' (by decide)]
  rw [bigSep_singleton]

/-- The rest of a subcore's own buffers and cells: carried along untouched. -/
abbrev restBufs : sProp 𝕄 :=
  bigSep ((ownRefs (τ := τ) (.scVector (cV L) (jV L))) \ (Finset.univ.image fun k : Fin 10 => (Proc.scVector (cV L) (jV L)).devRef (scr k)))
    fun b => iprop(∃ f, ((d, b) : Loc nD τ sig) ↦{fullShare} f)
abbrev restSems : sProp 𝕄 :=
  bigSep ((ownCells (thr d L)) \ (Finset.univ.image fun k : Fin 8 => ((thr d L, SemLoc.dma (dsem k)) : GSem nD τ sig))) fun g => semVal g 0

omit [FloatOps F] in
theorem ownBufs_V' :
    (ownBufs (thr d L) : sProp 𝕄)
      = iprop(((∃ f, (s0W).view.loc (thr d L) ↦{fullShare} f) ∗ (∃ f, (s1W).view.loc (thr d L) ↦{fullShare} f) ∗ (∃ f, (s2W).view.loc (thr d L) ↦{fullShare} f)
          ∗ (∃ f, (s3W).view.loc (thr d L) ↦{fullShare} f) ∗ (∃ f, (s4W).view.loc (thr d L) ↦{fullShare} f) ∗ (∃ f, (s5W).view.loc (thr d L) ↦{fullShare} f)
          ∗ (∃ f, (s6W).view.loc (thr d L) ↦{fullShare} f) ∗ (∃ f, (s7W).view.loc (thr d L) ↦{fullShare} f) ∗ (∃ f, (s8W).view.loc (thr d L) ↦{fullShare} f)
          ∗ (∃ f, (s9W).view.loc (thr d L) ↦{fullShare} f)) ∗ restBufs (F := F) d L) := by
  rw [ownBufs_V, bigSep_fin10]; rfl

omit [FloatOps F] in
theorem ownSems0_V' :
    (ownSems0 (thr d L) : sProp 𝕄)
      = iprop((semVal ((thr d L, SemLoc.dma cc0_scratch10.sem) : GSem nD τ sig) 0 ∗ semVal ((thr d L, SemLoc.dma cc0_scratch11.sem) : GSem nD τ sig) 0
          ∗ semVal ((thr d L, SemLoc.dma cc0_scoped0.sem) : GSem nD τ sig) 0 ∗ semVal ((thr d L, SemLoc.dma cc0_scoped1.sem) : GSem nD τ sig) 0
          ∗ semVal ((thr d L, SemLoc.dma cc0_scoped2.sem) : GSem nD τ sig) 0 ∗ semVal ((thr d L, SemLoc.dma cc0_scoped3.sem) : GSem nD τ sig) 0
          ∗ semVal ((thr d L, SemLoc.dma cc0_scoped4.sem) : GSem nD τ sig) 0 ∗ semVal ((thr d L, SemLoc.dma cc0_scoped5.sem) : GSem nD τ sig) 0)
          ∗ restSems (F := F) d L) := by
  rw [ownSems0_V, bigSep_fin8]; rfl

/-! ## The blocks as the subcore slices them -/

abbrev posBlk : Memref sig .scVector .hbm S512 .f32 := (posW).slice (blkR L) (fun _ => rfl)
abbrev prevBlk : Memref sig .scVector .hbm S512 .f32 := (prevW).slice (blkR L) (fun _ => rfl)
abbrev actBlk : Memref sig .scVector .hbm S512 .f32 := (actW).slice (blkR L) (fun _ => rfl)
abbrev dateBlk : Memref sig .scVector .hbm S512 .i32 := (dateW).slice (blkR L) (fun _ => rfl)
abbrev timeBlk : Memref sig .scVector .hbm S512 .i32 := (timeW).slice (blkR L) (fun _ => rfl)
abbrev outBlk : Memref sig .scVector .hbm S512 .f32 := (outW).slice (blkR L) (fun _ => rfl)

omit [FloatOps F] in
theorem set_posBlk : (posBlk L).view.set = blkSet L := by
  show ((View.whole (main_arg0_scv : Ref sig .scVector)).slice (blkR L)).set = _
  rw [View.set_slice]; exact Finset.map_refl
omit [FloatOps F] in
theorem set_prevBlk : (prevBlk L).view.set = blkSet L := by
  show ((View.whole (main_arg1_scv : Ref sig .scVector)).slice (blkR L)).set = _
  rw [View.set_slice]; exact Finset.map_refl
omit [FloatOps F] in
theorem set_actBlk : (actBlk L).view.set = blkSet L := by
  show ((View.whole (main_arg2_scv : Ref sig .scVector)).slice (blkR L)).set = _
  rw [View.set_slice]; exact Finset.map_refl
omit [FloatOps F] in
theorem set_dateBlk : (dateBlk L).view.set = blkSet L := by
  show ((View.whole (main_arg5_scv : Ref sig .scVector)).slice (blkR L)).set = _
  rw [View.set_slice]; exact Finset.map_refl
omit [FloatOps F] in
theorem set_timeBlk : (timeBlk L).view.set = blkSet L := by
  show ((View.whole (main_arg6_scv : Ref sig .scVector)).slice (blkR L)).set = _
  rw [View.set_slice]; exact Finset.map_refl
omit [FloatOps F] in
theorem set_outBlk : (outBlk L).view.set = blkSet L := by
  show ((View.whole (main_v3_scv : Ref sig .scVector)).slice (blkR L)).set = _
  rw [View.set_slice]; exact Finset.map_refl

/-- The share of the two tables the subcore at `L` reads under. -/
def tokq (L : grid0.Coords) : PosShare TreeShare := Transfers.shareTokN fullShare (2 * (L 1).val + (L 0).val)

variable (fD : Buf (Elt F) (fdataLoc d)) (fA : Buf (Elt F) (fartrLoc d))

/-- What the go signal hands the subcore at `L`: its block of the five per-position arguments and of the result,
    and a read share of the two tables. -/
def GO (fo : Buf (Elt F) (outLoc d)) : sProp 𝕄 :=
  iprop((posLoc d ↦[blkSet L]{fullShare} m (posLoc d)) ∗ (prevLoc d ↦[blkSet L]{fullShare} m (prevLoc d)) ∗ (actLoc d ↦[blkSet L]{fullShare} m (actLoc d))
    ∗ (dateLoc d ↦[blkSet L]{fullShare} m (dateLoc d)) ∗ (timeLoc d ↦[blkSet L]{fullShare} m (timeLoc d))
    ∗ (fdataLoc d ↦{tokq L} fD) ∗ (fartrLoc d ↦{tokq L} fA) ∗ (outLoc d ↦[blkSet L]{fullShare} fo))

end Tile3

section Vals

variable (d : Dev nD) (L : grid0.Coords)
variable (fD : Buf (Elt F) (fdataLoc d)) (fA : Buf (Elt F) (fartrLoc d))

/-! ## What each scratch buffer holds, as a function of the launch memory -/

/-- The subcore's block of each per-position argument, as its copy lands it. -/
def DATE : S512.Idx → Elt F .i32 := (dateBlk L).view.read (Elt F) (m (dateLoc d))
def TIME : S512.Idx → Elt F .i32 := (timeBlk L).view.read (Elt F) (m (timeLoc d))
def POS : S512.Idx → Elt F .f32 := (posBlk L).view.read (Elt F) (m (posLoc d))
def ACT : S512.Idx → Elt F .f32 := (actBlk L).view.read (Elt F) (m (actLoc d))
def PREV : S512.Idx → Elt F .f32 := (prevBlk L).view.read (Elt F) (m (prevLoc d))

/-- The flat index into the table of ratios, and into the transposed price table, sixteen lanes at a time. -/
def IDX1 : S512.Idx → Elt F .i32 := fun j =>
  k0_pay4 (F := F) (grp16 (DATE m d L) (grp j)) (grp16 (TIME m d L) (grp j)) (lan j)
def IDX2 : S512.Idx → Elt F .i32 := fun j =>
  k0_pay7 (k0_pay5 (F := F) (grp16 (DATE m d L) (grp j)) (grp16 (TIME m d L) (grp j)) (grp16 (POS m d L) (grp j)) (grp16 (ACT m d L) (grp j))) (lan j)

/-- The gathered ratios and prices: the tables at the flat indices. -/
def ATR : S512.Idx → Elt F .f32 := fun x =>
  fA (ix1 (⟨(IDX1 m d L x).toNat % 5000000, Nat.mod_lt _ (by decide)⟩ : Fin 5000000))
def REFP : S512.Idx → Elt F .f32 := fun x =>
  fD (ix1 (⟨(IDX2 m d L x).toNat % 20000000, Nat.mod_lt _ (by decide)⟩ : Fin 20000000))

/-- The new stop, sixteen lanes at a time. -/
def OUTB : S512.Idx → Elt F .f32 := fun x =>
  k0_pay1 (k0_pay6 (F := F) (grp16 (POS m d L) (grp x)) (grp16 (ACT m d L) (grp x)) (grp16 (PREV m d L) (grp x))
    (grp16 (ATR m d L fA) (grp x)) (grp16 (REFP m d L fD) (grp x))) (lan x)

end Vals

/-! ## Sixteen lanes read and written through a unit-stride rectangle of a 512-buffer -/

section Lanes

variable {κ : Kind} {sp : Space} {e : EltTy} {Val : EltTy → Type}

/-- A load of sixteen lanes at offset `16 k` reads group `k`. -/
theorem readAt_grp16 (v : View sig κ sp S512 e) (f : v.ty.Contents Val) (k : Fin 32) (off : Fin 1 → ℕ)
    (inb : ∀ a, off a + S16.size a ≤ S512.size a) (hoff : off = ![16 * k.val]) :
    v.readAt Val (Rect.unit (s := S512) off S16.size inb).toLoadRect f = grp16 (v.read Val f) k := by
  funext l
  rw [View.readAt_apply]
  unfold grp16
  congr 1
  funext a; match a with
  | ⟨0, _⟩ =>
    apply Fin.ext
    show off 0 + 1 * (l 0).val = 16 * k.val + (l 0).val
    subst hoff; simp

/-- One more group of sixteen written: the buffer agrees with `G` on the first `16 (k + 1)` elements if it agreed on
    the first `16 k` and the sixteen lanes written are `G`'s. -/
theorem read_prefix_step (v : View sig κ sp S512 e) (f : v.ty.Contents Val) (G : S512.Idx → Val e) (k : Fin 32) (off : Fin 1 → ℕ)
    (inb : ∀ a, off a + S16.size a ≤ S512.size a) (hoff : off = ![16 * k.val])
    (w : (Rect.unit (s := S512) off S16.size inb).shape.Idx → Val e)
    (hf : ∀ j : S512.Idx, (j 0).val < 16 * k.val → v.read Val f j = G j)
    (hw : ∀ l : S16.Idx, w l = G (lane k l)) :
    ∀ j : S512.Idx, (j 0).val < 16 * (k.val + 1) →
      v.read Val (v.writes Val f [(⟨Rect.unit (s := S512) off S16.size inb, w⟩ : View.Piece Val S512 e)]) j = G j := by
  intro j hj
  rw [View.read_writes_cons_unit v f inb w [] j hoff]
  by_cases h : ∀ a : Fin 1, (![16 * k.val] : Fin 1 → ℕ) a ≤ (j a).val ∧ (j a).val < (![16 * k.val] : Fin 1 → ℕ) a + S16.size a
  · rw [dif_pos h]
    have h0 := h 0
    have h1 : 16 * k.val ≤ (j 0).val := by simpa using h0.1
    rw [hw]
    congr 1
    funext a; match a with
    | ⟨0, _⟩ =>
      apply Fin.ext
      show 16 * k.val + ((j 0).val - 16 * k.val) = (j 0).val
      omega
  · rw [dif_neg h, View.writes_nil]
    apply hf
    by_contra hlt
    apply h
    intro a; match a with
    | ⟨0, _⟩ =>
      refine ⟨by simpa using Nat.le_of_not_lt hlt, ?_⟩
      show (j 0).val < 16 * k.val + 16
      omega

end Lanes

/-! ## The flat indices name rows of their tables -/

section Bounds

variable (d : Dev nD) (L : grid0.Coords)

/-- What the proof asks of the launch memory: every date index below 5000 and every time index below 1000. -/
def PreOK : Prop := ∀ j : S16384.Idx, (m (dateLoc d) j).toNat ≤ 4999 ∧ (m (timeLoc d) j).toNat ≤ 999

omit [FloatOps F] in
theorem DATE_apply (x : S512.Idx) : DATE m d L x = m (dateLoc d) (blkIdx L x) := by
  unfold DATE
  exact ((View.read_apply _ _).trans (cast_eq _ _)).trans (congrArg _ (blkR_emb L x))
omit [FloatOps F] in
theorem TIME_apply (x : S512.Idx) : TIME m d L x = m (timeLoc d) (blkIdx L x) := by
  unfold TIME
  exact ((View.read_apply _ _).trans (cast_eq _ _)).trans (congrArg _ (blkR_emb L x))
omit [FloatOps F] in
theorem POS_apply (x : S512.Idx) : POS m d L x = m (posLoc d) (blkIdx L x) := by
  unfold POS
  exact ((View.read_apply _ _).trans (cast_eq _ _)).trans (congrArg _ (blkR_emb L x))
omit [FloatOps F] in
theorem ACT_apply (x : S512.Idx) : ACT m d L x = m (actLoc d) (blkIdx L x) := by
  unfold ACT
  exact ((View.read_apply _ _).trans (cast_eq _ _)).trans (congrArg _ (blkR_emb L x))
omit [FloatOps F] in
theorem PREV_apply (x : S512.Idx) : PREV m d L x = m (prevLoc d) (blkIdx L x) := by
  unfold PREV
  exact ((View.read_apply _ _).trans (cast_eq _ _)).trans (congrArg _ (blkR_emb L x))

/-- The index into the table of ratios, lane by lane: `d * 1000 + t`. -/
theorem pay4_apply (v11 v14 : IVec S16 32) (l : S16.Idx) : k0_pay4 (F := F) v11 v14 l = v11 l * 1000#32 + v14 l := by
  simp only [k0_pay4, k0_pay2, k0_pay3, shapeCast_self]; rfl

theorem pay4_lt (v11 v14 : IVec S16 32) (l : S16.Idx) (h1 : (v11 l).toNat ≤ 4999) (h2 : (v14 l).toNat ≤ 999) :
    (k0_pay4 (F := F) v11 v14 l).toNat < 5000000 := by
  rw [pay4_apply, BitVec.toNat_add, BitVec.toNat_mul, show (1000#32).toNat = 1000 from rfl,
    Nat.mod_eq_of_lt (a := (v11 l).toNat * 1000) (by omega), Nat.mod_eq_of_lt (by omega)]
  omega

/-- The index into the transposed price table, lane by lane: `(d * 4 + ch) * 1000 + t` with `ch` one of 1, 2, 3. -/
theorem pay75_lt (v11 v14 : IVec S16 32) (v17 v20 : FVec F S16 .f32) (l : S16.Idx) (h1 : (v11 l).toNat ≤ 4999) (h2 : (v14 l).toNat ≤ 999) :
    (k0_pay7 (k0_pay5 (F := F) v11 v14 v17 v20) l).toNat < 20000000 := by
  have key : ∀ (c1 c2 : BitVec 1) (a t : BitVec 32), a.toNat ≤ 4999 → t.toNat ≤ 999 →
      ((a * 4#32 + Scalar.select c1 3#32 (Scalar.select c2 1#32 2#32)) * 1000#32 + t).toNat < 20000000 := by
    intro c1 c2 a t ha ht
    have hc : (Scalar.select c1 3#32 (Scalar.select c2 1#32 2#32)).toNat ≤ 3 := by
      unfold Scalar.select; split_ifs <;> decide
    generalize Scalar.select c1 3#32 (Scalar.select c2 1#32 2#32) = c at hc
    rw [BitVec.toNat_add, BitVec.toNat_mul, BitVec.toNat_add, BitVec.toNat_mul, show (1000#32).toNat = 1000 from rfl,
      show (4#32).toNat = 4 from rfl, Nat.mod_eq_of_lt (a := a.toNat * 4) (by omega), Nat.mod_eq_of_lt (a := a.toNat * 4 + c.toNat) (by omega),
      Nat.mod_eq_of_lt (a := (a.toNat * 4 + c.toNat) * 1000) (by omega), Nat.mod_eq_of_lt (by omega)]
    omega
  simp only [k0_pay7, k0_pay5, k0_pay2, k0_pay3, shapeCast_self]
  exact key _ _ _ _ h1 h2

theorem IDX1_lt (hpre : PreOK m d) (j : S512.Idx) : (IDX1 m d L j).toNat < 5000000 := by
  unfold IDX1
  refine pay4_lt _ _ _ ?_ ?_
  · show (DATE m d L _).toNat ≤ 4999
    rw [DATE_apply]; exact (hpre _).1
  · show (TIME m d L _).toNat ≤ 999
    rw [TIME_apply]; exact (hpre _).2

theorem IDX2_lt (hpre : PreOK m d) (j : S512.Idx) : (IDX2 m d L j).toNat < 20000000 := by
  unfold IDX2
  refine pay75_lt _ _ _ _ _ ?_ ?_
  · show (DATE m d L _).toNat ≤ 4999
    rw [DATE_apply]; exact (hpre _).1
  · show (TIME m d L _).toNat ≤ 999
    rw [TIME_apply]; exact (hpre _).2

end Bounds

/-! ## What a gather delivers: the table at the flat indices -/

section Gathered

variable (d : Dev nD) (L : grid0.Coords)
variable (fD : Buf (Elt F) (fdataLoc d)) (fA : Buf (Elt F) (fartrLoc d))

/-- The two tables as the gathers name their source: the whole row. -/
abbrev fartrSrc : Memref sig .scVector .hbm S5000000 .f32 :=
  (fartrW).slice (Rect.unit (s := S5000000) ![0] S5000000.size inb_S5000000_S5000000_0) (fun _ => rfl)
abbrev fdataSrc : Memref sig .scVector .hbm S20000000 .f32 :=
  (fdataW).slice (Rect.unit (s := S20000000) ![0] S20000000.size inb_S20000000_S20000000_0) (fun _ => rfl)

theorem gathered_fartr (hpre : PreOK m d) (g5 : (s5W).view.ty.Contents (Elt F))
    (hn : S512.numel = S512.size gathers_S5000000_S512.axis')
    (hin : ∀ x, ((s5W).view.read (Elt F) g5 x).toNat < S5000000.size gathers_S5000000_S512.axis)
    (h5 : ∀ j : S512.Idx, (s5W).view.read (Elt F) g5 j = IDX1 m d L j) :
    SparseCore.gatherPayload (F := F) gathers_S5000000_S512 ((fartrSrc).view.read (Elt F) fA)
      (SparseCore.rows ((s5W).view.read (Elt F) g5) hn hin) = ATR m d L fA := by
  funext x
  unfold SparseCore.gatherPayload ATR
  refine ((View.read_apply _ _).trans (cast_eq _ _)).trans (congrArg fA ?_)
  funext b; match b with
  | ⟨0, _⟩ =>
    apply Fin.ext
    show 0 + 1 * ((gathers_S5000000_S512).idx (SparseCore.rows ((s5W).view.read (Elt F) g5) hn hin) x (gathers_S5000000_S512).axis).val
      = (IDX1 m d L x).toNat % 5000000
    rw [Shape.Gathers.idx_axis, Nat.mod_eq_of_lt (IDX1_lt m d L hpre x), ← h5 x]
    show 0 + 1 * ((s5W).view.read (Elt F) g5 (S512.rowMajor.symm _)).toNat = _
    rw [Nat.zero_add, Nat.one_mul]
    congr 2
    rw [Equiv.symm_apply_eq]; apply Fin.ext; rw [Shape.rowMajor_val_one]; rfl

theorem gathered_fdata (hpre : PreOK m d) (g6 : (s6W).view.ty.Contents (Elt F))
    (hn : S512.numel = S512.size gathers_S20000000_S512.axis')
    (hin : ∀ x, ((s6W).view.read (Elt F) g6 x).toNat < S20000000.size gathers_S20000000_S512.axis)
    (h6 : ∀ j : S512.Idx, (s6W).view.read (Elt F) g6 j = IDX2 m d L j) :
    SparseCore.gatherPayload (F := F) gathers_S20000000_S512 ((fdataSrc).view.read (Elt F) fD)
      (SparseCore.rows ((s6W).view.read (Elt F) g6) hn hin) = REFP m d L fD := by
  funext x
  unfold SparseCore.gatherPayload REFP
  refine ((View.read_apply _ _).trans (cast_eq _ _)).trans (congrArg fD ?_)
  funext b; match b with
  | ⟨0, _⟩ =>
    apply Fin.ext
    show 0 + 1 * ((gathers_S20000000_S512).idx (SparseCore.rows ((s6W).view.read (Elt F) g6) hn hin) x (gathers_S20000000_S512).axis).val
      = (IDX2 m d L x).toNat % 20000000
    rw [Shape.Gathers.idx_axis, Nat.mod_eq_of_lt (IDX2_lt m d L hpre x), ← h6 x]
    show 0 + 1 * ((s6W).view.read (Elt F) g6 (S512.rowMajor.symm _)).toNat = _
    rw [Nat.zero_add, Nat.one_mul]
    congr 2
    rw [Equiv.symm_apply_eq]; apply Fin.ext; rw [Shape.rowMajor_val_one]; rfl

end Gathered

section Pts
variable (d : Dev nD) (L : grid0.Coords)
omit [FloatOps F] in
theorem pts_posBlk (f : Buf (Elt F) (posLoc d)) :
    ((posBlk L).view.loc (thr d L) ↦[(posBlk L).view.set]{fullShare} f : sProp 𝕄) = posLoc d ↦[blkSet L]{fullShare} f := by rw [set_posBlk]
omit [FloatOps F] in
theorem pts_prevBlk (f : Buf (Elt F) (prevLoc d)) :
    ((prevBlk L).view.loc (thr d L) ↦[(prevBlk L).view.set]{fullShare} f : sProp 𝕄) = prevLoc d ↦[blkSet L]{fullShare} f := by rw [set_prevBlk]
omit [FloatOps F] in
theorem pts_actBlk (f : Buf (Elt F) (actLoc d)) :
    ((actBlk L).view.loc (thr d L) ↦[(actBlk L).view.set]{fullShare} f : sProp 𝕄) = actLoc d ↦[blkSet L]{fullShare} f := by rw [set_actBlk]
omit [FloatOps F] in
theorem pts_dateBlk (f : Buf (Elt F) (dateLoc d)) :
    ((dateBlk L).view.loc (thr d L) ↦[(dateBlk L).view.set]{fullShare} f : sProp 𝕄) = dateLoc d ↦[blkSet L]{fullShare} f := by rw [set_dateBlk]
omit [FloatOps F] in
theorem pts_timeBlk (f : Buf (Elt F) (timeLoc d)) :
    ((timeBlk L).view.loc (thr d L) ↦[(timeBlk L).view.set]{fullShare} f : sProp 𝕄) = timeLoc d ↦[blkSet L]{fullShare} f := by rw [set_timeBlk]
omit [FloatOps F] in
theorem pts_outBlk (f : Buf (Elt F) (outLoc d)) :
    ((outBlk L).view.loc (thr d L) ↦[(outBlk L).view.set]{fullShare} f : sProp 𝕄) = outLoc d ↦[blkSet L]{fullShare} f := by rw [set_outBlk]

omit [FloatOps F] in
/-- One more wait at the kernel's own index recorded. -/
theorem ins_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp
end Pts

section Body

variable (d : Dev nD) (L : grid0.Coords)
variable (fD : Buf (Elt F) (fdataLoc d)) (fA : Buf (Elt F) (fartrLoc d))

omit [FloatOps F] in
theorem trips1 : Scf.trips k0_t1_loop.lb k0_t1_loop.ub k0_t1_loop.st = 32 := by decide
omit [FloatOps F] in
theorem trips2 : Scf.trips k0_t2_loop.lb k0_t2_loop.ub k0_t2_loop.st = 32 := by decide
def tk1 (k : Fin (Scf.trips k0_t1_loop.lb k0_t1_loop.ub k0_t1_loop.st)) : Fin 32 := ⟨k.val, lt_of_lt_of_eq k.isLt trips1⟩
def tk2 (k : Fin (Scf.trips k0_t2_loop.lb k0_t2_loop.ub k0_t2_loop.st)) : Fin 32 := ⟨k.val, lt_of_lt_of_eq k.isLt trips2⟩

theorem IDX1_lane (k : Fin 32) (l : S16.Idx) :
    IDX1 m d L (lane k l) = k0_pay4 (F := F) (grp16 (DATE m d L) k) (grp16 (TIME m d L) k) l := by
  unfold IDX1; rw [grp_lane, lan_lane]
theorem IDX2_lane (k : Fin 32) (l : S16.Idx) :
    IDX2 m d L (lane k l) = k0_pay7 (k0_pay5 (F := F) (grp16 (DATE m d L) k) (grp16 (TIME m d L) k) (grp16 (POS m d L) k) (grp16 (ACT m d L) k)) l := by
  unfold IDX2; rw [grp_lane, lan_lane]
theorem OUTB_lane (k : Fin 32) (l : S16.Idx) :
    OUTB m d L fD fA (lane k l) = k0_pay1 (k0_pay6 (F := F) (grp16 (POS m d L) k) (grp16 (ACT m d L) k) (grp16 (PREV m d L) k)
      (grp16 (ATR m d L fA) k) (grp16 (REFP m d L fD) k)) l := by
  unfold OUTB; rw [grp_lane, lan_lane]

/-- Before trip `k` of the first loop: the four copied blocks as they landed, the two index buffers filled on their
    first `16 k` elements. -/
def inv1 (k : Nat) (_ : PUnit) : sProp 𝕄 :=
  iprop(((s3W).view.loc (thr d L) ↦{fullShare} DATE m d L) ∗ ((s4W).view.loc (thr d L) ↦{fullShare} TIME m d L)
    ∗ ((s0W).view.loc (thr d L) ↦{fullShare} POS m d L) ∗ ((s2W).view.loc (thr d L) ↦{fullShare} ACT m d L)
    ∗ (∃ f, ⌜∀ j : S512.Idx, (j 0).val < 16 * k → (s5W).view.read (Elt F) f j = IDX1 m d L j⌝ ∗ (s5W).view.loc (thr d L) ↦{fullShare} f)
    ∗ (∃ f, ⌜∀ j : S512.Idx, (j 0).val < 16 * k → (s6W).view.read (Elt F) f j = IDX2 m d L j⌝ ∗ (s6W).view.loc (thr d L) ↦{fullShare} f))

/-- Before trip `k` of the second loop: the three copied blocks and the two gathered buffers, the result buffer
    filled on its first `16 k` elements. -/
def inv2 (k : Nat) (_ : PUnit) : sProp 𝕄 :=
  iprop(((s0W).view.loc (thr d L) ↦{fullShare} POS m d L) ∗ ((s2W).view.loc (thr d L) ↦{fullShare} ACT m d L)
    ∗ ((s1W).view.loc (thr d L) ↦{fullShare} PREV m d L)
    ∗ ((s7W).view.loc (thr d L) ↦{fullShare} ATR m d L fA) ∗ ((s8W).view.loc (thr d L) ↦{fullShare} REFP m d L fD)
    ∗ (∃ f, ⌜∀ j : S512.Idx, (j 0).val < 16 * k → (s9W).view.read (Elt F) f j = OUTB m d L fD fA j⌝ ∗ (s9W).view.loc (thr d L) ↦{fullShare} f))

/-- The result array with the subcore's block overwritten by the new stops. -/
def OUTF : Buf (Elt F) (outLoc d) := (outBlk L).view.writes (Elt F) (m (outLoc d)) [⟨Rect.whole S512, OUTB m d L fD fA⟩]

set_option maxHeartbeats 8000000 in
theorem tile_body (hF : (K (F := F)).Facts) (hpre : PreOK m d) (O : CellTallies nD τ sig (HIx 1)) (W : Waits sig (HIx 1)) (hO : ∀ g, O g none = 0) :
    iprop(levAts (K (F := F)).L (K (F := F)).lev ∗ emp ∗ GO m d L fD fA (m (outLoc d))
        ∗ scopedBufs (thr d L) ∗ scopedSems0 (thr d L) ∗ owes (thr d L) O W)
      ⊢ wp frame (wpE (defs₀ (F := F)) 𝒱₀ (thr d L) none) Set.univ
          (cc0__body L posW (Memref.isWhole_whole _) prevW (Memref.isWhole_whole _) actW (Memref.isWhole_whole _) fdataW (Memref.isWhole_whole _)
            fartrW (Memref.isWhole_whole _) dateW (Memref.isWhole_whole _) timeW (Memref.isWhole_whole _) outW (Memref.isWhole_whole _)
            s0W (Memref.isWhole_whole _) s1W (Memref.isWhole_whole _) s2W (Memref.isWhole_whole _) s3W (Memref.isWhole_whole _) s4W (Memref.isWhole_whole _)
            s5W (Memref.isWhole_whole _) s6W (Memref.isWhole_whole _) s7W (Memref.isWhole_whole _) s8W (Memref.isWhole_whole _) s9W (Memref.isWhole_whole _)
            cc0_scratch10 cc0_scratch11 cc0_scoped0 cc0_scoped1 cc0_scoped2 cc0_scoped3 cc0_scoped4 cc0_scoped5)
          fun _ => iprop(GO m d L fD fA (OUTF m d L fD fA) ∗ scopedBufs (thr d L) ∗ scopedSems0 (thr d L)
            ∗ ∃ W', ⌜∀ p ∈ W', p ∈ W ∨ p.2 = none⌝ ∗ owes (thr d L) O W') := by
  simp only [cc0__body_eq_skeleton]; unfold cc0__body_skel
  simp only [k0_part3_eq_skeleton]; unfold k0_part3_skel
  unfold k0_t1_body k0_t2_body
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V', ownBufs_V']
  unfold GO OUTF
  iintro ⟨#Hlv, -, ⟨Hpos, Hprev, Hact, Hdate, Htime, HfD, HfA, Hout⟩,
    ⟨⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩⟩, Hbufs⟩,
    ⟨⟨Hm10, Hm11, Hc0, Hc1, Hc2, Hc3, Hc4, Hc5⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hpos' := (Entails.of_eq (show (posLoc d ↦[blkSet L]{fullShare} m (posLoc d) : sProp 𝕄)
      = (posBlk L).view.loc (thr d L) ↦[(posBlk L).view.set]{fullShare} m (posLoc d) by rw [set_posBlk])) $$ Hpos
  ihave Hprev' := (Entails.of_eq (show (prevLoc d ↦[blkSet L]{fullShare} m (prevLoc d) : sProp 𝕄)
      = (prevBlk L).view.loc (thr d L) ↦[(prevBlk L).view.set]{fullShare} m (prevLoc d) by rw [set_prevBlk])) $$ Hprev
  ihave Hact' := (Entails.of_eq (show (actLoc d ↦[blkSet L]{fullShare} m (actLoc d) : sProp 𝕄)
      = (actBlk L).view.loc (thr d L) ↦[(actBlk L).view.set]{fullShare} m (actLoc d) by rw [set_actBlk])) $$ Hact
  ihave Hdate' := (Entails.of_eq (show (dateLoc d ↦[blkSet L]{fullShare} m (dateLoc d) : sProp 𝕄)
      = (dateBlk L).view.loc (thr d L) ↦[(dateBlk L).view.set]{fullShare} m (dateLoc d) by rw [set_dateBlk])) $$ Hdate
  ihave Htime' := (Entails.of_eq (show (timeLoc d ↦[blkSet L]{fullShare} m (timeLoc d) : sProp 𝕄)
      = (timeBlk L).view.loc (thr d L) ↦[(timeBlk L).view.set]{fullShare} m (timeLoc d) by rw [set_timeBlk])) $$ Htime
  ihave Hout' := (Entails.of_eq (show (outLoc d ↦[blkSet L]{fullShare} m (outLoc d) : sProp 𝕄)
      = (outBlk L).view.loc (thr d L) ↦[(outBlk L).view.set]{fullShare} m (outLoc d) by rw [set_outBlk])) $$ Hout
  ihave HfD' := (Entails.of_eq (show (fdataLoc d ↦{tokq L} fD : sProp 𝕄) = (fdataW).view.loc (thr d L) ↦{tokq L} fD from rfl)) $$ HfD
  ihave HfA' := (Entails.of_eq (show (fartrLoc d ↦{tokq L} fA : sProp 𝕄) = (fartrW).view.loc (thr d L) ↦{tokq L} fA from rfl)) $$ HfA
  -- the five blocks copied in
  sl_exec
  ihave H3 := (Entails.of_eq (show ((s3W).view.loc (thr d L) ↦{fullShare} View.write (Elt F) (s3W).view f3 (tile_body.sl.dma0 m d L) Finset.univ : sProp 𝕄)
      = (s3W).view.loc (thr d L) ↦{fullShare} DATE m d L from
      congrArg (fun g => ((s3W).view.loc (thr d L) ↦{fullShare} g : sProp 𝕄)) (View.write_whole_univ cc0_scratch3 f3 (DATE m d L)))) $$ Hs3
  ihave H4 := (Entails.of_eq (show ((s4W).view.loc (thr d L) ↦{fullShare} View.write (Elt F) (s4W).view f4 (tile_body.sl.dma0_1 m d L) Finset.univ : sProp 𝕄)
      = (s4W).view.loc (thr d L) ↦{fullShare} TIME m d L from
      congrArg (fun g => ((s4W).view.loc (thr d L) ↦{fullShare} g : sProp 𝕄)) (View.write_whole_univ cc0_scratch4 f4 (TIME m d L)))) $$ Hs4
  ihave H0 := (Entails.of_eq (show ((s0W).view.loc (thr d L) ↦{fullShare} View.write (Elt F) (s0W).view f0 (tile_body.sl.dma0_2 m d L) Finset.univ : sProp 𝕄)
      = (s0W).view.loc (thr d L) ↦{fullShare} POS m d L from
      congrArg (fun g => ((s0W).view.loc (thr d L) ↦{fullShare} g : sProp 𝕄)) (View.write_whole_univ cc0_scratch0 f0 (POS m d L)))) $$ Hs0
  ihave H2 := (Entails.of_eq (show ((s2W).view.loc (thr d L) ↦{fullShare} View.write (Elt F) (s2W).view f2 (tile_body.sl.dma0_3 m d L) Finset.univ : sProp 𝕄)
      = (s2W).view.loc (thr d L) ↦{fullShare} ACT m d L from
      congrArg (fun g => ((s2W).view.loc (thr d L) ↦{fullShare} g : sProp 𝕄)) (View.write_whole_univ cc0_scratch2 f2 (ACT m d L)))) $$ Hs2
  ihave H1 := (Entails.of_eq (show ((s1W).view.loc (thr d L) ↦{fullShare} View.write (Elt F) (s1W).view f1 (tile_body.sl.dma0_4 m d L) Finset.univ : sProp 𝕄)
      = (s1W).view.loc (thr d L) ↦{fullShare} PREV m d L from
      congrArg (fun g => ((s1W).view.loc (thr d L) ↦{fullShare} g : sProp 𝕄)) (View.write_whole_univ cc0_scratch1 f1 (PREV m d L)))) $$ Hs1
  -- the first loop: the two flat indices, sixteen lanes a trip
  rw [Prog.bind_assoc]
  sl_for (inv1 m d L) $$ [H3 H4 H0 H2 Hs5 Hs6]
  case region =>
    intro k _
    unfold inv1
    iintro ⟨H3, H4, H0, H2, ⟨%g5, %h5, H5⟩, ⟨%g6, %h6, H6⟩⟩
    sl_exec
    sl_step
    isplitl [H3]; · iexact H3
    isplitl [H4]; · iexact H4
    isplitl [H0]; · iexact H0
    isplitl [H2]; · iexact H2
    isplitl [H5]
    · iexists _; isplitr
      swap; · iexact H5
      ipureintro
      refine read_prefix_step (s5W).view g5 (IDX1 m d L) (tk1 k) _ _ (k0_off2_eq k) _ h5 (fun l => ?_)
      rw [IDX1_lane, readAt_grp16 (s3W).view (DATE m d L) (tk1 k) _ _ (k0_off2_eq k),
        readAt_grp16 (s4W).view (TIME m d L) (tk1 k) _ _ (k0_off2_eq k)]
      rfl
    · iexists _; isplitr
      swap; · iexact H6
      ipureintro
      refine read_prefix_step (s6W).view g6 (IDX2 m d L) (tk1 k) _ _ (k0_off2_eq k) _ h6 (fun l => ?_)
      rw [IDX2_lane, readAt_grp16 (s3W).view (DATE m d L) (tk1 k) _ _ (k0_off2_eq k),
        readAt_grp16 (s4W).view (TIME m d L) (tk1 k) _ _ (k0_off2_eq k),
        readAt_grp16 (s0W).view (POS m d L) (tk1 k) _ _ (k0_off2_eq k),
        readAt_grp16 (s2W).view (ACT m d L) (tk1 k) _ _ (k0_off2_eq k)]
      rfl
  · unfold inv1
    isplitl [H3]; · iexact H3
    isplitl [H4]; · iexact H4
    isplitl [H0]; · iexact H0
    isplitl [H2]; · iexact H2
    isplitl [Hs5]
    · iexists f5; isplitr
      · ipureintro; intro j hj; exact absurd hj (by omega)
      · iexact Hs5
    · iexists f6; isplitr
      · ipureintro; intro j hj; exact absurd hj (by omega)
      · iexact Hs6
  iintro %_ HI
  unfold inv1
  icases HI with ⟨H3, H4, H0, H2, ⟨%g5, %h5, H5⟩, ⟨%g6, %h6, H6⟩⟩
  have h5' : ∀ j : S512.Idx, (s5W).view.read (Elt F) g5 j = IDX1 m d L j := fun j => h5 j (by
    rw [trips1]; have : (j 0).val < 512 := (j 0).isLt; omega)
  have h6' : ∀ j : S512.Idx, (s6W).view.read (Elt F) g6 j = IDX2 m d L j := fun j => h6 j (by
    rw [trips1]; have : (j 0).val < 512 := (j 0).isLt; omega)
  have hin1 : ∀ x, ((s5W).view.read (Elt F) g5 x).toNat < 5000000 := fun x => by rw [h5' x]; exact IDX1_lt m d L hpre x
  have hin2 : ∀ x, ((s6W).view.read (Elt F) g6 x).toNat < 20000000 := fun x => by rw [h6' x]; exact IDX2_lt m d L hpre x
  -- the two gathers and their waits
  sl_exec
  have e7 : (s7W).view.writes (Elt F) (s7W).view.junk [⟨Rect.whole cc0_scratch7.ty.shape, tile_body.sl.gather0 d fA g5 hin1⟩] = ATR m d L fA :=
    (View.read_writes_whole (s7W).view _ _).trans (gathered_fartr m d L fA hpre g5 _ hin1 h5')
  have e8 : (s8W).view.writes (Elt F) (s8W).view.junk [⟨Rect.whole cc0_scratch8.ty.shape, tile_body.sl.gather1 d fD g6 hin2⟩] = REFP m d L fD :=
    (View.read_writes_whole (s8W).view _ _).trans (gathered_fdata m d L fD hpre g6 _ hin2 h6')
  rw [e7, e8]
  -- the second loop: the new stop, sixteen lanes a trip
  sl_for (inv2 m d L fD fA) $$ [H0 H2 H1 Hs7 Hs8 Hs9]
  case region =>
    intro k _
    unfold inv2
    iintro ⟨H0, H2, H1, H7, H8, ⟨%g9, %h9, H9⟩⟩
    sl_exec
    sl_step
    isplitl [H0]; · iexact H0
    isplitl [H2]; · iexact H2
    isplitl [H1]; · iexact H1
    isplitl [H7]; · iexact H7
    isplitl [H8]; · iexact H8
    iexists _; isplitr
    swap; · iexact H9
    ipureintro
    refine read_prefix_step (s9W).view g9 (OUTB m d L fD fA) (tk2 k) _ _ (k0_off3_eq k) _ h9 (fun l => ?_)
    rw [OUTB_lane, readAt_grp16 (s0W).view (POS m d L) (tk2 k) _ _ (k0_off3_eq k), readAt_grp16 (s2W).view (ACT m d L) (tk2 k) _ _ (k0_off3_eq k),
      readAt_grp16 (s1W).view (PREV m d L) (tk2 k) _ _ (k0_off3_eq k), readAt_grp16 (s7W).view (ATR m d L fA) (tk2 k) _ _ (k0_off3_eq k), readAt_grp16 (s8W).view (REFP m d L fD) (tk2 k) _ _ (k0_off3_eq k)]
    rfl
  · unfold inv2
    isplitl [H0]; · iexact H0
    isplitl [H2]; · iexact H2
    isplitl [H1]; · iexact H1
    isplitl [Hs7]; · iexact Hs7
    isplitl [Hs8]; · iexact Hs8
    iexists f9; isplitr
    · ipureintro; intro j hj; exact absurd hj (by omega)
    · iexact Hs9
  iintro %_ HI
  unfold inv2
  icases HI with ⟨H0, H2, H1, H7, H8, ⟨%g9, %h9, H9⟩⟩
  have h9' : (s9W).view.read (Elt F) g9 = OUTB m d L fD fA := funext fun j => h9 j (by
    rw [trips2]; have : (j 0).val < 512 := (j 0).isLt; omega)
  -- the result block copied out
  sl_exec
  have e9 : tile_body.sl.dma0_5 g9 = OUTB m d L fD fA := h9'
  rw [e9]
  sl_step
  isplitl [Hpos' Hprev' Hact' Hdate' Htime' HfD' HfA' Hout']
  · isplitl [Hpos']; · iapply (Entails.of_eq (pts_posBlk (F := F) d L _)); iexact Hpos'
    isplitl [Hprev']; · iapply (Entails.of_eq (pts_prevBlk (F := F) d L _)); iexact Hprev'
    isplitl [Hact']; · iapply (Entails.of_eq (pts_actBlk (F := F) d L _)); iexact Hact'
    isplitl [Hdate']; · iapply (Entails.of_eq (pts_dateBlk (F := F) d L _)); iexact Hdate'
    isplitl [Htime']; · iapply (Entails.of_eq (pts_timeBlk (F := F) d L _)); iexact Htime'
    isplitl [HfD']; · iexact HfD'
    isplitl [HfA']; · iexact HfA'
    iapply (Entails.of_eq (pts_outBlk (F := F) d L _)); iexact Hout'
  isplitl [H0 H1 H2 H3 H4 H5 H6 H7 H8 H9 Hbufs]
  · isplitl [H0 H1 H2 H3 H4 H5 H6 H7 H8 H9]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      iexists _; iexact H9
    · iexact Hbufs
  isplitl [Hm10 Hm11 Hc0 Hc1 Hc2 Hc3 Hc4 Hc5 Hsems]
  · isplitl [Hm10 Hm11 Hc0 Hc1 Hc2 Hc3 Hc4 Hc5]
    · isplitl [Hm10]; · iexact Hm10
      isplitl [Hm11]; · iexact Hm11
      isplitl [Hc0]; · iexact Hc0
      isplitl [Hc1]; · iexact Hc1
      isplitl [Hc2]; · iexact Hc2
      isplitl [Hc3]; · iexact Hc3
      isplitl [Hc4]; · iexact Hc4
      iexact Hc5
    · iexact Hsems
  iexists _; isplitr
  swap; · iexact HO
  ipureintro
  exact ins_ok _ (ins_ok _ (ins_ok _ (ins_ok _ (ins_ok _ (ins_ok _ (ins_ok _ (ins_ok _ (fun p hp => .inl hp))))))))

end Body

end Cert.Proof.TileIdeal

end
-- ==== Proof.TilePre.lean ====
/-
  From the precondition to what the proof asks of the launch memory: the precondition's last conjuncts say, element by
  element, that every date index is at least 0 and at most 4999 and every time index at least 0 and at most 999 as signed
  words, all of it folded by `and` into one bit; a signed word between 0 and a small bound is its own unsigned value.
-/
import proofs.«202963_g88613765251846_cont_sun_m_1299_31_alg».proof.Proof.TileBody
import proofs.«202963_g88613765251846_cont_sun_m_1299_31_alg».proof.Proof.Gen.Pre_input_domain
import Idealize.ShloMosaic.Lib.ReduceAll

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type}

local notation "𝕄" => MT nD τ sig (HIx 1) (Elt F) ℕ UU ℕ

variable (m : (ℓ : Loc nD τ sig) → Buf (Elt F) ℓ)

instance subsingleton_S_ : Subsingleton Cert.Pre_input_domain.S_.Idx := ⟨fun a b => funext fun d => d.elim0⟩

theorem word_le_of_signed (v : BitVec 32) (n : ℕ) (hn : n < 2 ^ 31)
    (e : IntOp.andi (IntOp.cmpi .sge v 0#32) (IntOp.cmpi .sle v (BitVec.ofNat 32 n)) = 1#1) : v.toNat ≤ n := by
  obtain ⟨a, b⟩ := IntOp.andi_eq_one.mp e
  rw [IntOp.cmpi_sge] at a
  rw [IntOp.cmpi_sle] at b
  have h0 : (0#32 : BitVec 32).toInt = 0 := by decide
  have hN : (BitVec.ofNat 32 n).toInt = n := by
    rw [BitVec.toInt_eq_toNat_cond, BitVec.toNat_ofNat, Nat.mod_eq_of_lt (by omega)]
    split <;> omega
  rw [h0] at a; rw [hN] at b
  rw [BitVec.toInt_eq_toNat_cond] at a b
  split at a <;> omega

variable [FloatOps F] [Cert.Pre_input_domain.Facts]

theorem ok_of_pre (d : Dev nD)
    (h : Cert.Pre_input_domain.fn (F := F) (m (posLoc d)) (m (prevLoc d)) (m (actLoc d)) (m (dataLoc d)) (m (artrLoc d)) (m (dateLoc d)) (m (timeLoc d))
      = fun _ => 1#1) : PreOK m d := by
  have e := congrFun h ValueIdx.ix0
  simp only [Cert.Pre_input_domain.fn, Cert.Pre_input_domain.fn_part1, Cert.Pre_input_domain.fn_part2] at e
  obtain ⟨e30, e36⟩ := IntOp.andi_eq_one.mp e
  obtain ⟨-, e29⟩ := IntOp.andi_eq_one.mp e30
  intro j
  exact ⟨word_le_of_signed _ 4999 (by decide) (Host.reduce_andi_all _ _ _ _ _ e29 j),
    word_le_of_signed _ 999 (by decide) (Host.reduce_andi_all _ _ _ _ _ e36 j)⟩

end Cert.Proof.TileIdeal

end
-- ==== Proof.TileLaunch.lean ====
/-
  The launch: the thirty-two blocks tile the 16384 positions, so each per-position array splits into the subcores'
  blocks and the result's blocks join into the whole result; the two flattened tables go out as thirty-two read shares;
  the TensorCore transposes and flattens the price table and flattens the table of ratios, starts the two SparseCores,
  waits for them, and ends holding its seven arguments as they were and the result, which on every subcore's block is
  what that subcore wrote.
-/
import proofs.«202963_g88613765251846_cont_sun_m_1299_31_alg».proof.Proof.TileBody

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type}

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)

local notation "posW" => (Memref.whole Cert.KernelIdeal.main_arg0_scv : Memref Cert.KernelIdeal.sig Kind.scVector Space.hbm Cert.KernelIdeal.S16384 EltTy.f32)
local notation "prevW" => (Memref.whole Cert.KernelIdeal.main_arg1_scv : Memref Cert.KernelIdeal.sig Kind.scVector Space.hbm Cert.KernelIdeal.S16384 EltTy.f32)
local notation "actW" => (Memref.whole Cert.KernelIdeal.main_arg2_scv : Memref Cert.KernelIdeal.sig Kind.scVector Space.hbm Cert.KernelIdeal.S16384 EltTy.f32)
local notation "fdataW" => (Memref.whole Cert.KernelIdeal.main_v1_scv : Memref Cert.KernelIdeal.sig Kind.scVector Space.hbm Cert.KernelIdeal.S20000000 EltTy.f32)
local notation "fartrW" => (Memref.whole Cert.KernelIdeal.main_v2_scv : Memref Cert.KernelIdeal.sig Kind.scVector Space.hbm Cert.KernelIdeal.S5000000 EltTy.f32)
local notation "dateW" => (Memref.whole Cert.KernelIdeal.main_arg5_scv : Memref Cert.KernelIdeal.sig Kind.scVector Space.hbm Cert.KernelIdeal.S16384 EltTy.i32)
local notation "timeW" => (Memref.whole Cert.KernelIdeal.main_arg6_scv : Memref Cert.KernelIdeal.sig Kind.scVector Space.hbm Cert.KernelIdeal.S16384 EltTy.i32)
local notation "outW" => (Memref.whole Cert.KernelIdeal.main_v3_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S512 EltTy.f32)
local notation "s1W" => (Memref.whole Cert.KernelIdeal.cc0_scratch1 : Memref Cert.KernelIdeal.sig Kind.scVector Space.vmem Cert.KernelIdeal.S512 EltTy.f32)
local notation "s2W" => (Memref.whole Cert.KernelIdeal.cc0_scratch2 : Memref Cert.KernelIdeal.sig Kind.scVector Space.vmem Cert.KernelIdeal.S512 EltTy.f32)
local notation "s3W" => (Memref.whole Cert.KernelIdeal.cc0_scratch3 : Memref Cert.KernelIdeal.sig Kind.scVector Space.vmem Cert.KernelIdeal.S512 EltTy.i32)
local notation "s4W" => (Memref.whole Cert.KernelIdeal.cc0_scratch4 : Memref Cert.KernelIdeal.sig Kind.scVector Space.vmem Cert.KernelIdeal.S512 EltTy.i32)
local notation "s5W" => (Memref.whole Cert.KernelIdeal.cc0_scratch5 : Memref Cert.KernelIdeal.sig Kind.scVector Space.vmem Cert.KernelIdeal.S512 EltTy.i32)
local notation "s6W" => (Memref.whole Cert.KernelIdeal.cc0_scratch6 : Memref Cert.KernelIdeal.sig Kind.scVector Space.vmem Cert.KernelIdeal.S512 EltTy.i32)
local notation "s7W" => (Memref.whole Cert.KernelIdeal.cc0_scratch7 : Memref Cert.KernelIdeal.sig Kind.scVector Space.vmem Cert.KernelIdeal.S512 EltTy.f32)
local notation "s8W" => (Memref.whole Cert.KernelIdeal.cc0_scratch8 : Memref Cert.KernelIdeal.sig Kind.scVector Space.vmem Cert.KernelIdeal.S512 EltTy.f32)
local notation "s9W" => (Memref.whole Cert.KernelIdeal.cc0_scratch9 : Memref Cert.KernelIdeal.sig Kind.scVector Space.vmem Cert.KernelIdeal.S512 EltTy.f32)

/-! ## The thirty-two blocks tile the positions -/

omit m in
theorem coordsV_zero (c : Fin (grid0.bound 0)) (s : Fin (grid0.bound 1)) : coordsV c s 0 = c := rfl
omit m in
theorem coordsV_one (c : Fin (grid0.bound 0)) (s : Fin (grid0.bound 1)) : coordsV c s 1 = s := rfl

/-- The block of subcore `p.2` of core `p.1`. -/
def KB (p : Fin 2 × Fin 16) : Finset S16384.Idx := blkSet (coordsV p.1 p.2)

omit m in
theorem mem_KB (p : Fin 2 × Fin 16) (j : S16384.Idx) :
    j ∈ KB p ↔ 1024 * p.2.val + 512 * p.1.val ≤ (j 0).val ∧ (j 0).val < 1024 * p.2.val + 512 * p.1.val + 512 := by
  unfold KB; rw [mem_blkSet]; rfl

omit m in
theorem KB_disjoint : ∀ p ∈ (Finset.univ : Finset (Fin 2 × Fin 16)), ∀ p' ∈ (Finset.univ : Finset (Fin 2 × Fin 16)), p ≠ p' → Disjoint (KB p) (KB p') := by
  intro p _ p' _ hne
  rw [Finset.disjoint_left]; intro j hj hj'
  rw [mem_KB] at hj hj'
  apply hne
  have h1 : p.1.val < 2 := p.1.isLt
  have h1' : p'.1.val < 2 := p'.1.isLt
  exact Prod.ext (Fin.ext (by omega)) (Fin.ext (by omega))

omit m in
theorem KB_cover : (Finset.univ : Finset (Fin 2 × Fin 16)).biUnion KB = Finset.univ := by
  ext j
  simp only [Finset.mem_biUnion, Finset.mem_univ, true_and, iff_true]
  have hj : (j 0).val < 16384 := (j 0).isLt
  refine ⟨(⟨(j 0).val / 512 % 2, Nat.mod_lt _ (by decide)⟩, ⟨(j 0).val / 1024, by omega⟩), ?_⟩
  rw [mem_KB]
  show 1024 * ((j 0).val / 1024) + 512 * ((j 0).val / 512 % 2) ≤ (j 0).val ∧ (j 0).val < 1024 * ((j 0).val / 1024) + 512 * ((j 0).val / 512 % 2) + 512
  omega

omit m in
/-- An array over the positions is its thirty-two blocks; -/
theorem pts_blocks (ℓ : Loc nD τ sig) (KBℓ : Fin 2 × Fin 16 → Finset (Idx ℓ))
    (hd : ∀ p ∈ (Finset.univ : Finset (Fin 2 × Fin 16)), ∀ p' ∈ (Finset.univ : Finset (Fin 2 × Fin 16)), p ≠ p' → Disjoint (KBℓ p) (KBℓ p'))
    (hc : (Finset.univ : Finset (Fin 2 × Fin 16)).biUnion KBℓ = Finset.univ) (q : PosShare TreeShare) (f : Buf (Elt F) ℓ) :
    (ℓ ↦{q} f : sProp 𝕄) = bigSep Finset.univ fun c : Fin 2 => bigSep Finset.univ fun i : Fin 16 => ℓ ↦[KBℓ (c, i)]{q} f := by
  rw [← bigSep_univ_prod (fun p : Fin 2 × Fin 16 => (ℓ ↦[KBℓ p]{q} f : sProp 𝕄)), ← pointsTo_biUnion Finset.univ KBℓ hd, hc]

omit m in
/-- and blocks held at different contents join into one array that agrees with each on its block. -/
theorem join_blocks (ℓ : Loc nD τ sig) (KBℓ : Fin 2 × Fin 16 → Finset (Idx ℓ))
    (hd : ∀ p ∈ (Finset.univ : Finset (Fin 2 × Fin 16)), ∀ p' ∈ (Finset.univ : Finset (Fin 2 × Fin 16)), p ≠ p' → Disjoint (KBℓ p) (KBℓ p'))
    (hc : (Finset.univ : Finset (Fin 2 × Fin 16)).biUnion KBℓ = Finset.univ) (q : PosShare TreeShare) (fs : Fin 2 × Fin 16 → Buf (Elt F) ℓ) (f₀ : Buf (Elt F) ℓ) :
    (bigSep Finset.univ fun c : Fin 2 => bigSep Finset.univ fun i : Fin 16 => (ℓ ↦[KBℓ (c, i)]{q} fs (c, i) : sProp 𝕄))
      ⊢ iprop(∃ g, ⌜∀ p, ∀ i ∈ KBℓ p, g i = fs p i⌝ ∗ ℓ ↦{q} g) := by
  rw [← bigSep_univ_prod (fun p : Fin 2 × Fin 16 => (ℓ ↦[KBℓ p]{q} fs p : sProp 𝕄))]
  refine (pointsTo_biUnion_join Finset.univ KBℓ fs f₀ hd).trans ?_
  rw [hc]
  iintro ⟨%g, %hg, H⟩
  iexists g; isplitr
  · ipureintro; exact fun p i hi => hg p (Finset.mem_univ _) i hi
  · iexact H

omit m in
theorem range32 : Finset.range 32 = (Finset.univ : Finset (Fin 2 × Fin 16)).image (fun p => 2 * p.2.val + p.1.val) := by decide

omit m in
/-- A table read by all thirty-two subcores: a share kept and one read share per subcore. -/
theorem toks_split (ℓ : Loc nD τ sig) (q : PosShare TreeShare) (f : Buf (Elt F) ℓ) :
    (ℓ ↦{q} f : sProp 𝕄) ⊣⊢ iprop((ℓ ↦{Transfers.shareDrop q 32} f)
      ∗ bigSep Finset.univ fun c : Fin 2 => bigSep Finset.univ fun i : Fin 16 => ℓ ↦{Transfers.shareTokN q (2 * i.val + c.val)} f) := by
  have e : (bigSep (Finset.range 32) fun w => (ℓ ↦{Transfers.shareTokN q w} f : sProp 𝕄))
      = bigSep Finset.univ fun c : Fin 2 => bigSep Finset.univ fun i : Fin 16 => ℓ ↦{Transfers.shareTokN q (2 * i.val + c.val)} f := by
    rw [range32, SparseCore.bigSep_image_of_injOn (fun a _ b _ e => by
      have h1 : a.1.val < 2 := a.1.isLt
      have h1' : b.1.val < 2 := b.1.isLt
      exact Prod.ext (Fin.ext (by omega)) (Fin.ext (by omega))), bigSep_univ_prod]
  rw [← e]
  exact Transfers.pointsTo_toks_range q 32

/-! ## The host operations before the call, and the tables they leave -/

abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_arg3 : DevRef τ sig := Proc.devRef .tc (main_arg3 : Ref sig .tc)
abbrev r_arg4 : DevRef τ sig := Proc.devRef .tc (main_arg4 : Ref sig .tc)
abbrev r_arg5 : DevRef τ sig := Proc.devRef .tc (main_arg5 : Ref sig .tc)
abbrev r_arg6 : DevRef τ sig := Proc.devRef .tc (main_arg6 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)

/-- The TensorCore's eleven arrays, all unscoped. -/
abbrev S11 : Finset (DevRef τ sig) := {r_arg0, r_arg1, r_arg2, r_arg3, r_arg4, r_arg5, r_arg6, r_v0, r_v1, r_v2, r_v3}

variable [FloatOps F]

abbrev op1 : HloOp τ sig (Elt F) :=
  StableHlo.unary main_arg3 main_v0 ((transpose S5000x4x1000 [0, 2, 1] · transposes_S5000x1000x4_S5000x4x1000_0_2_1) : (⟨S5000x1000x4, .f32⟩ : BufTy).Contents (Elt F) → (⟨S5000x4x1000, .f32⟩ : BufTy).Contents (Elt F))
abbrev op2 : HloOp τ sig (Elt F) := StableHlo.reshape main_v0 main_v1 rfl shapeCasts_S5000x4x1000_S20000000
abbrev op3 : HloOp τ sig (Elt F) := StableHlo.reshape main_arg4 main_v2 rfl shapeCasts_S5000x1000_S5000000

/-- The launch valuation, and the one the three operations leave. -/
def V0 (d : Dev nD) : Valuation τ sig (Elt F) := fun b => m (d, b)
abbrev V3 (d : Dev nD) : Valuation τ sig (Elt F) := (op3 (F := F)).result ((op2 (F := F)).result ((op1 (F := F)).result (V0 m d)))

/-- The price table transposed and flattened, the table of ratios flattened: what the subcores gather from. -/
def FD (d : Dev nD) : Buf (Elt F) (fdataLoc d) := V3 m d r_v1
def FA (d : Dev nD) : Buf (Elt F) (fartrLoc d) := V3 m d r_v2

omit [FloatOps F] in
theorem held_S11 (d : Dev nD) (W : Valuation τ sig (Elt F)) :
    (held (T d) S11 W : sProp 𝕄) = iprop((posLoc d ↦{fullShare} W r_arg0) ∗ (prevLoc d ↦{fullShare} W r_arg1) ∗ (actLoc d ↦{fullShare} W r_arg2)
      ∗ (dataLoc d ↦{fullShare} W r_arg3) ∗ (artrLoc d ↦{fullShare} W r_arg4) ∗ (dateLoc d ↦{fullShare} W r_arg5) ∗ (timeLoc d ↦{fullShare} W r_arg6)
      ∗ (tdataLoc d ↦{fullShare} W r_v0) ∗ (fdataLoc d ↦{fullShare} W r_v1) ∗ (fartrLoc d ↦{fullShare} W r_v2) ∗ (outLoc d ↦{fullShare} W r_v3)) := by
  unfold held S11
  repeat rw [SparseCore.bigSep_insert' (by decide)]
  rw [bigSep_singleton]

omit [FloatOps F] in
theorem unscoped_held (d : Dev nD) : (unscopedBufs d (fun b => m ((SparseCore.T d).loc b)) : sProp 𝕄) = held (T d) S11 (V0 m d) := by
  unfold unscopedBufs held S11
  rw [show (Finset.univ.filter fun b : Ref sig .tc => ¬ b.isScoped) = {main_arg0, main_arg1, main_arg2, main_arg3, main_arg4, main_arg5, main_arg6, main_v0, main_v1, main_v2, main_v3} by decide]
  repeat rw [SparseCore.bigSep_insert' (by decide)]
  rw [bigSep_singleton, bigSep_singleton]
  rfl

theorem hop1 : (op1 (F := F)).bufs ⊆ S11 := show ({r_arg3, r_v0} : Finset (DevRef τ sig)) ⊆ S11 by decide
theorem hop2 : (op2 (F := F)).bufs ⊆ S11 := show ({r_v0, r_v1} : Finset (DevRef τ sig)) ⊆ S11 by decide
theorem hop3 : (op3 (F := F)).bufs ⊆ S11 := show ({r_arg4, r_v2} : Finset (DevRef τ sig)) ⊆ S11 by decide

/-- The three operations write only `main_v0`, `main_v1`, `main_v2`: every other array is as launched. -/
theorem V3_kept (d : Dev nD) (b : DevRef τ sig) (h0 : b ≠ r_v0) (h1 : b ≠ r_v1) (h2 : b ≠ r_v2) : V3 m d b = V0 m d b := by
  show (op3 (F := F)).result ((op2 (F := F)).result ((op1 (F := F)).result (V0 m d))) b = V0 m d b
  rw [HloOp.result_of_not_mem _ _ (show b ∉ (op3 (F := F)).writes from fun h => h2 (Finset.mem_singleton.mp h)),
    HloOp.result_of_not_mem _ _ (show b ∉ (op2 (F := F)).writes from fun h => h1 (Finset.mem_singleton.mp h)),
    HloOp.result_of_not_mem _ _ (show b ∉ (op1 (F := F)).writes from fun h => h0 (Finset.mem_singleton.mp h))]

/-! ## What the handshakes carry -/

omit m in
theorem nCore_b : (K (F := F)).nCore 0 = grid0.bound 0 := rfl
omit m in
theorem nSub_b : (K (F := F)).nSub 0 = grid0.bound 1 := rfl

/-- Per SparseCore, its sixteen subcores' shares; per subcore, `GO` — on the way back with the result's block written. -/
def P : (K (F := F)).Pay (nD := nD) (Val := Elt F) (Name := ℕ) (U := UU) where
  st := fun q d c => match q with
    | 0 => bigSep Finset.univ fun i : Fin (grid0.bound 1) => GO m d (coordsV (Fin.cast nCore_b c) i) (FD m d) (FA m d) (m (outLoc d))
  dn := fun q d c => match q with
    | 0 => bigSep Finset.univ fun i : Fin (grid0.bound 1) =>
        GO m d (coordsV (Fin.cast nCore_b c) i) (FD m d) (FA m d) (OUTF m d (coordsV (Fin.cast nCore_b c) i) (FD m d) (FA m d))
  go := fun q d c i => match q with
    | 0 => GO m d (coordsV (Fin.cast nCore_b c) (Fin.cast nSub_b i)) (FD m d) (FA m d) (m (outLoc d))
  td := fun q d c i => match q with
    | 0 => GO m d (coordsV (Fin.cast nCore_b c) (Fin.cast nSub_b i)) (FD m d) (FA m d)
        (OUTF m d (coordsV (Fin.cast nCore_b c) (Fin.cast nSub_b i)) (FD m d) (FA m d))
  x := fun _ _ => iprop(emp)

instance GO_storable (d : Dev nD) (L : grid0.Coords) (fD : Buf (Elt F) (fdataLoc d)) (fA : Buf (Elt F) (fartrLoc d)) (fo : Buf (Elt F) (outLoc d)) :
    BI.Storable (upEmb : UEmb _ 𝕄) (GO m d L fD fA fo) := by
  unfold GO; infer_instance

instance P_storable : (P (F := F) m).IsStorable where
  st q d c := match q with
    | 0 => (inferInstance : BI.Storable (upEmb : UEmb _ 𝕄)
        (bigSep Finset.univ fun i : Fin (grid0.bound 1) => GO m d (coordsV (Fin.cast nCore_b c) i) (FD m d) (FA m d) (m (outLoc d))))
  dn q d c := match q with
    | 0 => (inferInstance : BI.Storable (upEmb : UEmb _ 𝕄)
        (bigSep Finset.univ fun i : Fin (grid0.bound 1) =>
          GO m d (coordsV (Fin.cast nCore_b c) i) (FD m d) (FA m d) (OUTF m d (coordsV (Fin.cast nCore_b c) i) (FD m d) (FA m d))))
  go q d c i := match q with
    | 0 => (inferInstance : BI.Storable (upEmb : UEmb _ 𝕄)
        (GO m d (coordsV (Fin.cast nCore_b c) (Fin.cast nSub_b i)) (FD m d) (FA m d) (m (outLoc d))))
  td q d c i := match q with
    | 0 => (inferInstance : BI.Storable (upEmb : UEmb _ 𝕄)
        (GO m d (coordsV (Fin.cast nCore_b c) (Fin.cast nSub_b i)) (FD m d) (FA m d)
          (OUTF m d (coordsV (Fin.cast nCore_b c) (Fin.cast nSub_b i)) (FD m d) (FA m d))))

/-! ## The launch theorem's obligations -/

theorem defs₀_vector (c : Fin τ.nSC) (s : Fin τ.nSub) :
    defs₀ (F := F) (.scVector c s) 0 ()
      = SparseCore.onTile hcore0 hsub0 (fun c s => cc0__body (coordsV c s)
          posW (Memref.isWhole_whole _) prevW (Memref.isWhole_whole _) actW (Memref.isWhole_whole _) fdataW (Memref.isWhole_whole _)
          fartrW (Memref.isWhole_whole _) dateW (Memref.isWhole_whole _) timeW (Memref.isWhole_whole _) outW (Memref.isWhole_whole _)
          s0W (Memref.isWhole_whole _) s1W (Memref.isWhole_whole _) s2W (Memref.isWhole_whole _) s3W (Memref.isWhole_whole _) s4W (Memref.isWhole_whole _)
          s5W (Memref.isWhole_whole _) s6W (Memref.isWhole_whole _) s7W (Memref.isWhole_whole _) s8W (Memref.isWhole_whole _) s9W (Memref.isWhole_whole _)
          cc0_scratch10 cc0_scratch11 cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ d, PreOK m d) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) (FD m d) (FA m d) hF (hpre d) O W hO).trans (wp_mono frame _ _ fun _ => obl_post)

theorem bigSep_tasks (Φ : Fin 16 → sProp 𝕄) :
    (bigSep Finset.univ fun i : Fin ((K (F := F)).nSub 0) => Φ (Fin.cast nSub_b i)) = bigSep Finset.univ Φ :=
  bigSep_congr fun _ _ => congrArg Φ (Fin.ext rfl)

theorem vecSplit : (K (F := F)).VecSplit' (P m) 0 := by
  intro d c
  show (bigSep Finset.univ fun i : Fin (grid0.bound 1) => GO m d (coordsV (Fin.cast nCore_b c) i) (FD m d) (FA m d) (m (outLoc d))) ⊢ |={Set.univ}=> iprop(
      (bigSep Finset.univ fun i : Fin ((K (F := F)).nSub 0) =>
        GO m d (coordsV (Fin.cast nCore_b c) (Fin.cast nSub_b i)) (FD m d) (FA m d) (m (outLoc d)))
      ∗ ((bigSep Finset.univ fun i : Fin ((K (F := F)).nSub 0) =>
          GO m d (coordsV (Fin.cast nCore_b c) (Fin.cast nSub_b i)) (FD m d) (FA m d)
            (OUTF m d (coordsV (Fin.cast nCore_b c) (Fin.cast nSub_b i)) (FD m d) (FA m d)))
          -∗ bigSep Finset.univ fun i : Fin (grid0.bound 1) =>
            GO m d (coordsV (Fin.cast nCore_b c) i) (FD m d) (FA m d) (OUTF m d (coordsV (Fin.cast nCore_b c) i) (FD m d) (FA m d))))
  iintro H; imodintro
  isplitl [H]
  · iapply (Entails.of_eq (bigSep_tasks (F := F) (fun i => GO m d (coordsV (Fin.cast nCore_b c) i) (FD m d) (FA m d) (m (outLoc d)))).symm)
    iexact H
  iintro H
  iapply (Entails.of_eq (bigSep_tasks (F := F) (fun i => GO m d (coordsV (Fin.cast nCore_b c) i) (FD m d) (FA m d)
      (OUTF m d (coordsV (Fin.cast nCore_b c) i) (FD m d) (FA m d)))))
  iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem bigSep_cores (Φ : Fin (grid0.bound 0) → sProp 𝕄) :
    (bigSep Finset.univ fun c : Fin ((K (F := F)).nCore 0) => Φ (Fin.cast nCore_b c)) = bigSep Finset.univ Φ :=
  bigSep_congr fun _ _ => congrArg Φ (Fin.ext rfl)

/-- The thirty-two subcores' shares, array by array. -/
theorem GO_split (d : Dev nD) (fD : Buf (Elt F) (fdataLoc d)) (fA : Buf (Elt F) (fartrLoc d)) (fo : Fin 2 × Fin 16 → Buf (Elt F) (outLoc d)) :
    (bigSep Finset.univ fun p : Fin 2 × Fin 16 => GO m d (coordsV p.1 p.2) fD fA (fo p))
      = iprop((bigSep Finset.univ fun p : Fin 2 × Fin 16 => posLoc d ↦[KB p]{fullShare} m (posLoc d))
        ∗ (bigSep Finset.univ fun p : Fin 2 × Fin 16 => prevLoc d ↦[KB p]{fullShare} m (prevLoc d))
        ∗ (bigSep Finset.univ fun p : Fin 2 × Fin 16 => actLoc d ↦[KB p]{fullShare} m (actLoc d))
        ∗ (bigSep Finset.univ fun p : Fin 2 × Fin 16 => dateLoc d ↦[KB p]{fullShare} m (dateLoc d))
        ∗ (bigSep Finset.univ fun p : Fin 2 × Fin 16 => timeLoc d ↦[KB p]{fullShare} m (timeLoc d))
        ∗ (bigSep Finset.univ fun p : Fin 2 × Fin 16 => fdataLoc d ↦{Transfers.shareTokN fullShare (2 * p.2.val + p.1.val)} fD)
        ∗ (bigSep Finset.univ fun p : Fin 2 × Fin 16 => fartrLoc d ↦{Transfers.shareTokN fullShare (2 * p.2.val + p.1.val)} fA)
        ∗ (bigSep Finset.univ fun p : Fin 2 × Fin 16 => outLoc d ↦[KB p]{fullShare} fo p)) := by
  unfold GO
  rw [bigSep_sep', bigSep_sep', bigSep_sep', bigSep_sep', bigSep_sep', bigSep_sep', bigSep_sep']
  rfl

theorem st_eq (d : Dev nD) :
    (bigSep Finset.univ fun c : Fin ((K (F := F)).nCore 0) => (P m).st 0 d c)
      = bigSep Finset.univ fun p : Fin 2 × Fin 16 => GO m d (coordsV p.1 p.2) (FD m d) (FA m d) (m (outLoc d)) := by
  rw [bigSep_univ_prod (fun p : Fin 2 × Fin 16 => GO m d (coordsV p.1 p.2) (FD m d) (FA m d) (m (outLoc d)))]
  exact bigSep_cores (F := F) (fun c => bigSep Finset.univ fun i : Fin (grid0.bound 1) => GO m d (coordsV c i) (FD m d) (FA m d) (m (outLoc d)))
theorem dn_eq (d : Dev nD) :
    (bigSep Finset.univ fun c : Fin ((K (F := F)).nCore 0) => (P m).dn 0 d c)
      = bigSep Finset.univ fun p : Fin 2 × Fin 16 => GO m d (coordsV p.1 p.2) (FD m d) (FA m d) (OUTF m d (coordsV p.1 p.2) (FD m d) (FA m d)) := by
  rw [bigSep_univ_prod (fun p : Fin 2 × Fin 16 => GO m d (coordsV p.1 p.2) (FD m d) (FA m d) (OUTF m d (coordsV p.1 p.2) (FD m d) (FA m d)))]
  exact bigSep_cores (F := F) (fun c => bigSep Finset.univ fun i : Fin (grid0.bound 1) =>
    GO m d (coordsV c i) (FD m d) (FA m d) (OUTF m d (coordsV c i) (FD m d) (FA m d)))

omit m [FloatOps F] in
theorem pts_blocksP (ℓ : Loc nD τ sig) (KBℓ : Fin 2 × Fin 16 → Finset (Idx ℓ))
    (hd : ∀ p ∈ (Finset.univ : Finset (Fin 2 × Fin 16)), ∀ p' ∈ (Finset.univ : Finset (Fin 2 × Fin 16)), p ≠ p' → Disjoint (KBℓ p) (KBℓ p'))
    (hc : (Finset.univ : Finset (Fin 2 × Fin 16)).biUnion KBℓ = Finset.univ) (q : PosShare TreeShare) (f : Buf (Elt F) ℓ) :
    (ℓ ↦{q} f : sProp 𝕄) = bigSep Finset.univ fun p : Fin 2 × Fin 16 => ℓ ↦[KBℓ p]{q} f := by
  rw [← pointsTo_biUnion Finset.univ KBℓ hd, hc]

omit m [FloatOps F] in
theorem toks_splitP (ℓ : Loc nD τ sig) (q : PosShare TreeShare) (f : Buf (Elt F) ℓ) :
    (ℓ ↦{q} f : sProp 𝕄) ⊣⊢ iprop((ℓ ↦{Transfers.shareDrop q 32} f)
      ∗ bigSep Finset.univ fun p : Fin 2 × Fin 16 => ℓ ↦{Transfers.shareTokN q (2 * p.2.val + p.1.val)} f) := by
  have e : (bigSep (Finset.range 32) fun w => (ℓ ↦{Transfers.shareTokN q w} f : sProp 𝕄))
      = bigSep Finset.univ fun p : Fin 2 × Fin 16 => ℓ ↦{Transfers.shareTokN q (2 * p.2.val + p.1.val)} f := by
    rw [range32, SparseCore.bigSep_image_of_injOn (fun a _ b _ e => by
      have h1 : a.1.val < 2 := a.1.isLt
      have h1' : b.1.val < 2 := b.1.isLt
      exact Prod.ext (Fin.ext (by omega)) (Fin.ext (by omega)))]
  rw [← e]
  exact Transfers.pointsTo_toks_range q 32

/-- What the result holds on each subcore's block. -/
def OutSpec (d : Dev nD) (g : Buf (Elt F) (outLoc d)) : Prop :=
  ∀ p : Fin 2 × Fin 16, ∀ i ∈ KB p, g i = OUTF m d (coordsV p.1 p.2) (FD m d) (FA m d) i

/-- What @main leaves the claim: the seven arguments as launched, the result as the subcores wrote it. -/
abbrev FIN (d : Dev nD) : sProp 𝕄 :=
  iprop((posLoc d ↦{fullShare} m (posLoc d)) ∗ (prevLoc d ↦{fullShare} m (prevLoc d)) ∗ (actLoc d ↦{fullShare} m (actLoc d))
    ∗ (dataLoc d ↦{fullShare} m (dataLoc d)) ∗ (artrLoc d ↦{fullShare} m (artrLoc d)) ∗ (dateLoc d ↦{fullShare} m (dateLoc d))
    ∗ (timeLoc d ↦{fullShare} m (timeLoc d)) ∗ ∃ g, ⌜OutSpec m d g⌝ ∗ outLoc d ↦{fullShare} g)

theorem V3_arg (d : Dev nD) (b : DevRef τ sig) (h0 : b ≠ r_v0) (h1 : b ≠ r_v1) (h2 : b ≠ r_v2) : V3 m d b = m (d, b) :=
  V3_kept m d b h0 h1 h2

set_option maxHeartbeats 4000000 in
/-- @main on device `d`'s TensorCore: the three host operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op1) (S := S11) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S11) hop2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S11) hop3 (V := (op2 (F := F)).result ((op1 (F := F)).result (V0 m d)))) $$ [Hb Hheld]
  · isplitl [Hb]; · iexact Hb
    iexact Hheld
  iintro ⟨Hb, Hheld⟩
  rw [wp_ret]; imodintro
  ihave Hh := (Entails.of_eq (held_S11 (F := F) d (V3 m d))) $$ Hheld
  icases Hh with ⟨Hpos, Hprev, Hact, Hdata, Hartr, Hdate, Htime, -, Hfd, Hfa, Hout⟩
  rw [V3_arg m d r_arg0 (by decide) (by decide) (by decide), V3_arg m d r_arg1 (by decide) (by decide) (by decide),
    V3_arg m d r_arg2 (by decide) (by decide) (by decide), V3_arg m d r_arg3 (by decide) (by decide) (by decide),
    V3_arg m d r_arg4 (by decide) (by decide) (by decide), V3_arg m d r_arg5 (by decide) (by decide) (by decide),
    V3_arg m d r_arg6 (by decide) (by decide) (by decide), V3_arg m d r_v3 (by decide) (by decide) (by decide)]
  ihave Hfd := (Entails.of_eq (show (fdataLoc d ↦{fullShare} V3 m d r_v1 : sProp 𝕄) = fdataLoc d ↦{fullShare} FD m d from rfl)) $$ Hfd
  ihave Hfa := (Entails.of_eq (show (fartrLoc d ↦{fullShare} V3 m d r_v2 : sProp 𝕄) = fartrLoc d ↦{fullShare} FA m d from rfl)) $$ Hfa
  ihave Hfd' := (toks_splitP (F := F) (fdataLoc d) fullShare (FD m d)).1 $$ Hfd
  icases Hfd' with ⟨-, Hfd⟩
  ihave Hfa' := (toks_splitP (F := F) (fartrLoc d) fullShare (FA m d)).1 $$ Hfa
  icases Hfa' with ⟨-, Hfa⟩
  iapply ((K (F := F)).wp_run (D (F := F)) 𝒱 (EH := EH) (P := P m) κ d 0) $$ [Hst Hpos Hprev Hact Hdate Htime Hfd Hfa Hout Hdata Hartr]
  isplitr; · iexact Hctx
  isplitl [Hst]; · iexact Hst
  isplitl [Hpos Hprev Hact Hdate Htime Hfd Hfa Hout]
  · rw [st_eq, GO_split]
    isplitl [Hpos]; · iapply (Entails.of_eq (pts_blocksP (F := F) (posLoc d) KB KB_disjoint KB_cover fullShare _)); iexact Hpos
    isplitl [Hprev]; · iapply (Entails.of_eq (pts_blocksP (F := F) (prevLoc d) KB KB_disjoint KB_cover fullShare _)); iexact Hprev
    isplitl [Hact]; · iapply (Entails.of_eq (pts_blocksP (F := F) (actLoc d) KB KB_disjoint KB_cover fullShare _)); iexact Hact
    isplitl [Hdate]; · iapply (Entails.of_eq (pts_blocksP (F := F) (dateLoc d) KB KB_disjoint KB_cover fullShare _)); iexact Hdate
    isplitl [Htime]; · iapply (Entails.of_eq (pts_blocksP (F := F) (timeLoc d) KB KB_disjoint KB_cover fullShare _)); iexact Htime
    isplitl [Hfd]; · iexact Hfd
    isplitl [Hfa]; · iexact Hfa
    iapply (Entails.of_eq (pts_blocksP (F := F) (outLoc d) KB KB_disjoint KB_cover fullShare _)); iexact Hout
  iintro ⟨Hst, Hdn⟩
  ihave Hdn' := (Entails.of_eq ((dn_eq m d).trans (GO_split m d (FD m d) (FA m d) (fun p => OUTF m d (coordsV p.1 p.2) (FD m d) (FA m d))))) $$ Hdn
  icases Hdn' with ⟨Hpos, Hprev, Hact, Hdate, Htime, -, -, Hout⟩
  ihave Hpos := (Entails.of_eq (pts_blocksP (F := F) (posLoc d) KB KB_disjoint KB_cover fullShare (m (posLoc d))).symm) $$ Hpos
  ihave Hprev := (Entails.of_eq (pts_blocksP (F := F) (prevLoc d) KB KB_disjoint KB_cover fullShare (m (prevLoc d))).symm) $$ Hprev
  ihave Hact := (Entails.of_eq (pts_blocksP (F := F) (actLoc d) KB KB_disjoint KB_cover fullShare (m (actLoc d))).symm) $$ Hact
  ihave Hdate := (Entails.of_eq (pts_blocksP (F := F) (dateLoc d) KB KB_disjoint KB_cover fullShare (m (dateLoc d))).symm) $$ Hdate
  ihave Htime := (Entails.of_eq (pts_blocksP (F := F) (timeLoc d) KB KB_disjoint KB_cover fullShare (m (timeLoc d))).symm) $$ Htime
  ihave Ho := (pointsTo_biUnion_join (Finset.univ : Finset (Fin 2 × Fin 16)) (ℓ := outLoc d) (q := fullShare) KB
    (fun p => OUTF m d (coordsV p.1 p.2) (FD m d) (FA m d)) (m (outLoc d)) KB_disjoint) $$ Hout
  icases Ho with ⟨%g, %hg, Hout⟩
  rw [KB_cover]
  imodintro
  isplitl [Hst]; · iexact Hst
  isplitl [Hpos]; · iexact Hpos
  isplitl [Hprev]; · iexact Hprev
  isplitl [Hact]; · iexact Hact
  isplitl [Hdata]; · iexact Hdata
  isplitl [Hartr]; · iexact Hartr
  isplitl [Hdate]; · iexact Hdate
  isplitl [Htime]; · iexact Htime
  iexists g; isplitr
  · ipureintro; exact fun p i hi => hg p (Finset.mem_univ _) i hi
  · iexact Hout

/-! ## The final memory -/

def fq (d : Dev nD) (s' : Phys nD τ sig (Elt F)) : Prop :=
  s'.mem.mem (posLoc d) = m (posLoc d) ∧ s'.mem.mem (prevLoc d) = m (prevLoc d) ∧ s'.mem.mem (actLoc d) = m (actLoc d)
  ∧ s'.mem.mem (dataLoc d) = m (dataLoc d) ∧ s'.mem.mem (artrLoc d) = m (artrLoc d) ∧ s'.mem.mem (dateLoc d) = m (dateLoc d)
  ∧ s'.mem.mem (timeLoc d) = m (timeLoc d) ∧ OutSpec m d (s'.mem.mem (outLoc d))

omit m [FloatOps F] in
/-- A whole array held agrees with the memory, which stays. -/
theorem agree_keep (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H4, H5, H6, %g, %hg, Ho⟩, HSI⟩
  ihave A := (agree_keep (F := F) (posLoc d) _ s') $$ [HSI H0]; · isplitl [HSI] <;> iassumption
  icases A with ⟨%e0, HSI⟩
  ihave A := (agree_keep (F := F) (prevLoc d) _ s') $$ [HSI H1]; · isplitl [HSI] <;> iassumption
  icases A with ⟨%e1, HSI⟩
  ihave A := (agree_keep (F := F) (actLoc d) _ s') $$ [HSI H2]; · isplitl [HSI] <;> iassumption
  icases A with ⟨%e2, HSI⟩
  ihave A := (agree_keep (F := F) (dataLoc d) _ s') $$ [HSI H3]; · isplitl [HSI] <;> iassumption
  icases A with ⟨%e3, HSI⟩
  ihave A := (agree_keep (F := F) (artrLoc d) _ s') $$ [HSI H4]; · isplitl [HSI] <;> iassumption
  icases A with ⟨%e4, HSI⟩
  ihave A := (agree_keep (F := F) (dateLoc d) _ s') $$ [HSI H5]; · isplitl [HSI] <;> iassumption
  icases A with ⟨%e5, HSI⟩
  ihave A := (agree_keep (F := F) (timeLoc d) _ s') $$ [HSI H6]; · isplitl [HSI] <;> iassumption
  icases A with ⟨%e6, HSI⟩
  ihave A := (agree_keep (F := F) (outLoc d) _ s') $$ [HSI Ho]; · isplitl [HSI] <;> iassumption
  icases A with ⟨%e7, -⟩
  ipureintro
  exact ⟨e0, e1, e2, e3, e4, e5, e6, e7 ▸ hg⟩

/-! ## The program's run -/

/-- Every execution ends with the seven arguments as launched and the result, on each subcore's block, what that subcore
    computed from the launch memory. -/
def QC : PUnit × MemSt nD τ sig (Elt F) → Prop := fun r => ∀ c : Dev nD,
  r.2.mem (posLoc c) = m (posLoc c) ∧ r.2.mem (prevLoc c) = m (prevLoc c) ∧ r.2.mem (actLoc c) = m (actLoc c)
  ∧ r.2.mem (dataLoc c) = m (dataLoc c) ∧ r.2.mem (artrLoc c) = m (artrLoc c) ∧ r.2.mem (dateLoc c) = m (dateLoc c)
  ∧ r.2.mem (timeLoc c) = m (timeLoc c) ∧ OutSpec m c (r.2.mem (outLoc c))

theorem run_main [∀ e, Nonempty (Elt F e)] (hpre : ∀ d, PreOK m d) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.TileIdeal

end
-- ==== Proof.KernelTables.lean ====
/-
  The two tables the subcores gather from, read at a flat index: the table of ratios [5000, 1000] laid out as one row
  holds the ratio of (date d, time t) at d * 1000 + t; the price table [5000, 1000, 4], transposed to
  [date, channel, time] and laid out as one row, holds the price of (date d, time t, channel c) at (d * 4 + c) * 1000 + t.
-/
import proofs.«202963_g88613765251846_cont_sun_m_1299_31_alg».proof.Proof.TileLaunch
import Idealize.ShloMosaic.Lib.Pipeline.Value
import Idealize.ShloMosaic.Lib.StableHlo.Run

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type}

local notation "𝕄" => MT nD τ sig (HIx 1) (Elt F) ℕ UU ℕ

open Idealize.ShloMosaic.ValueIdx (ix2 ix3)

variable (m : (ℓ : Loc nD τ sig) → Buf (Elt F) ℓ) [FloatOps F]

theorem FA_eq (d : Dev nD) :
    FA m d = shapeCast S5000000 (m (artrLoc d)) shapeCasts_S5000x1000_S5000000 := by
  show (op3 (F := F)).result ((op2 (F := F)).result ((op1 (F := F)).result (V0 m d))) r_v2 = _
  rw [StableHlo.reshape_result', StableHlo.reshape_result_ne' _ _ _ _ _ (by decide), StableHlo.unary_result_ne' _ _ _ _ (by decide)]
  rfl

theorem FD_eq (d : Dev nD) :
    FD m d = shapeCast S20000000 (transpose S5000x4x1000 [0, 2, 1] (m (dataLoc d)) transposes_S5000x1000x4_S5000x4x1000_0_2_1)
      shapeCasts_S5000x4x1000_S20000000 := by
  show (op3 (F := F)).result ((op2 (F := F)).result ((op1 (F := F)).result (V0 m d))) r_v1 = _
  rw [StableHlo.reshape_result_ne' _ _ _ _ _ (by decide), StableHlo.reshape_result', StableHlo.unary_result']
  rfl

/-- The flattened table of ratios at `d * 1000 + t`. -/
theorem FA_apply (d : Dev nD) (a : Fin 5000) (b : Fin 1000) (n : Fin 5000000) (hn : n.val = a.val * 1000 + b.val) :
    FA m d (ix1 n) = m (artrLoc d) (ix2 a b) := by
  rw [FA_eq]
  refine shapeCast_apply _ _ _ (ix2 a b) ?_
  rw [Shape.rowMajor_val_two, Shape.rowMajor_val_one]
  exact hn.symm

/-- The transposed, flattened price table at `(d * 4 + c) * 1000 + t`. -/
theorem FD_apply (d : Dev nD) (a : Fin 5000) (b : Fin 1000) (c : Fin 4) (n : Fin 20000000) (hn : n.val = (a.val * 4 + c.val) * 1000 + b.val) :
    FD m d (ix1 n) = m (dataLoc d) (ix3 a b c) := by
  rw [FD_eq]
  refine (shapeCast_apply _ _ _ (ix3 a c b) ?_).trans ?_
  · rw [Shape.rowMajor_val_three, Shape.rowMajor_val_one]
    exact hn.symm
  · refine transpose_apply _ _ _ _ (ix3 a b c) (fun k => ?_)
    match k with
    | ⟨0, _⟩ => rfl
    | ⟨1, _⟩ => rfl
    | ⟨2, _⟩ => rfl

end Cert.Proof.TileIdeal

end
-- ==== Proof.StopAlgebra.lean ====
/-
  The arithmetic of one position, on the extended reals, as the kernel computes it and as the reference does.
  Both form the direction s = sign (p + a) — the kernel as "1 with the sign of p + a where |p + a| > 0, else p + a
  itself", the reference by the sign function: one function on every extended real — and the ratio factor
  av = atr * 2 + 1; both replace a previous stop that is not a number by minus infinity times the direction, a branch
  no extended real takes (no extended real differs from itself), so the previous stop stands; both then take
  max (prev, price / av) where s > 0 and min (prev, price * av) otherwise, and keep the previous stop where s = 0.
  The channel of the price is 3 where p = 0, else 1 where s > 0, else 2, on both sides.
-/
import proofs.«202963_g88613765251846_cont_sun_m_1299_31_alg».proof.Proof.TileBody
import proofs.«202963_g88613765251846_cont_sun_m_1299_31_alg».proof.Proof.RefReadP
import Idealize.ShloMosaic.PureOps.Ideal

noncomputable section

namespace Cert.Proof.Stop

open Idealize.ShloMosaic
open Cert.KernelIdeal Cert.KernelIdeal.Gen

/-! ## The three float patterns the direction is built from -/

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_neg_one : Ideal.ofBits .f32 0xBF800000#32 = -1 := by
  simp [Ideal.ofBits, Ideal.ieee, -EReal.coe_mul]; norm_num

/-! ## The direction -/

/-- The kernel's direction: 1 with the sign of `v` where `|v| > 0`, else `v`. -/
def dirK (v : EReal) : EReal :=
  Scalar.select (Ideal.cmp .ogt (max v (-v)) (Ideal.ofBits .f32 0x00000000#32))
    (Scalar.select (Ideal.cmp .olt v (Ideal.ofBits .f32 0x00000000#32)) (Ideal.ofBits .f32 0xBF800000#32) (Ideal.ofBits .f32 0x3F800000#32)) v

theorem sign_bot : Ideal.sign ⊥ = -1 := rfl
theorem sign_top : Ideal.sign ⊤ = 1 := rfl
theorem sign_coe (r : ℝ) : Ideal.sign (r : EReal) = ((SignType.sign r : ℝ) : EReal) := rfl

theorem dirK_eq_sign (v : EReal) : dirK v = Ideal.sign v := by
  unfold dirK
  rw [ofBits_zero, ofBits_one, ofBits_neg_one]
  induction v using EReal.rec with
  | bot => rw [sign_bot]; simp [Ideal.cmp, Scalar.select]
  | top => rw [sign_top]; simp [Ideal.cmp, Scalar.select]
  | coe r =>
    rw [sign_coe]
    rcases lt_trichotomy r 0 with h | h | h
    · have h1 : ((r : ℝ) : EReal) < 0 := by exact_mod_cast h
      have h2 : (0 : EReal) < max (r : EReal) (-(r : EReal)) := lt_max_of_lt_right (by simpa using h1)
      simp [Ideal.cmp, Scalar.select, h1, h2, sign_neg h]
    · subst h; simp [Ideal.cmp, Scalar.select]
    · have h1 : (0 : EReal) < ((r : ℝ) : EReal) := by exact_mod_cast h
      have h2 : (0 : EReal) < max (r : EReal) (-(r : EReal)) := lt_max_of_lt_left h1
      have h3 : ¬ ((r : ℝ) : EReal) < 0 := not_lt.mpr h1.le
      simp [Ideal.cmp, Scalar.select, h1, h2, h3, sign_pos h]

/-! ## One position's new stop, as the kernel and as the reference compute it -/

/-- The kernel's: `p` the position, `a` the action, `prev` the previous stop, `atr` the ratio, `price` the price. -/
def stopK (p a prev atr price : EReal) : EReal :=
  Scalar.select
    (IntOp.ori
      (Ideal.cmp .one
        (Scalar.select (Ideal.cmp .ogt (dirK (p + a)) (Ideal.ofBits .f32 0x00000000#32))
          (max (Scalar.select (IntOp.andi (Ideal.cmp .one prev prev) (Ideal.cmp .one (dirK (p + a)) (Ideal.ofBits .f32 0x00000000#32)))
              (Ideal.ofBits .f32 0xFF800000#32 * dirK (p + a)) prev)
            (Ideal.div price (atr * Ideal.ofBits .f32 0x40000000#32 + Ideal.ofBits .f32 0x3F800000#32)))
          (min (Scalar.select (IntOp.andi (Ideal.cmp .one prev prev) (Ideal.cmp .one (dirK (p + a)) (Ideal.ofBits .f32 0x00000000#32)))
              (Ideal.ofBits .f32 0xFF800000#32 * dirK (p + a)) prev)
            (price * (atr * Ideal.ofBits .f32 0x40000000#32 + Ideal.ofBits .f32 0x3F800000#32))))
        (Scalar.select (Ideal.cmp .ogt (dirK (p + a)) (Ideal.ofBits .f32 0x00000000#32))
          (max (Scalar.select (IntOp.andi (Ideal.cmp .one prev prev) (Ideal.cmp .one (dirK (p + a)) (Ideal.ofBits .f32 0x00000000#32)))
              (Ideal.ofBits .f32 0xFF800000#32 * dirK (p + a)) prev)
            (Ideal.div price (atr * Ideal.ofBits .f32 0x40000000#32 + Ideal.ofBits .f32 0x3F800000#32)))
          (min (Scalar.select (IntOp.andi (Ideal.cmp .one prev prev) (Ideal.cmp .one (dirK (p + a)) (Ideal.ofBits .f32 0x00000000#32)))
              (Ideal.ofBits .f32 0xFF800000#32 * dirK (p + a)) prev)
            (price * (atr * Ideal.ofBits .f32 0x40000000#32 + Ideal.ofBits .f32 0x3F800000#32)))))
      (Ideal.cmp .oeq (dirK (p + a)) (Ideal.ofBits .f32 0x00000000#32)))
    (Scalar.select (IntOp.andi (Ideal.cmp .one prev prev) (Ideal.cmp .one (dirK (p + a)) (Ideal.ofBits .f32 0x00000000#32)))
      (Ideal.ofBits .f32 0xFF800000#32 * dirK (p + a)) prev)
    (Scalar.select (Ideal.cmp .ogt (dirK (p + a)) (Ideal.ofBits .f32 0x00000000#32))
      (max (Scalar.select (IntOp.andi (Ideal.cmp .one prev prev) (Ideal.cmp .one (dirK (p + a)) (Ideal.ofBits .f32 0x00000000#32)))
          (Ideal.ofBits .f32 0xFF800000#32 * dirK (p + a)) prev)
        (Ideal.div price (atr * Ideal.ofBits .f32 0x40000000#32 + Ideal.ofBits .f32 0x3F800000#32)))
      (min (Scalar.select (IntOp.andi (Ideal.cmp .one prev prev) (Ideal.cmp .one (dirK (p + a)) (Ideal.ofBits .f32 0x00000000#32)))
          (Ideal.ofBits .f32 0xFF800000#32 * dirK (p + a)) prev)
        (price * (atr * Ideal.ofBits .f32 0x40000000#32 + Ideal.ofBits .f32 0x3F800000#32))))

/-- Lane by lane the kernel's sixteen-lane payload is `stopK`. -/
theorem pay_stop (v11 v14 v17 v20 v27 : FVec Ideal S16 .f32) (l : S16.Idx) :
    k0_pay1 (k0_pay6 (F := Ideal) v11 v14 v17 v20 v27) l = stopK (v11 l) (v14 l) (v17 l) (v20 l) (v27 l) := by
  simp only [k0_pay1, k0_pay6, shapeCast_self]
  rfl

/-- The reference's. -/
def stopR (p prev a atr price : EReal) : EReal :=
  Scalar.select
    (IntOp.ori
      (Ideal.cmp .une
        (Scalar.select (Ideal.cmp .ogt (Ideal.sign (p + a)) (Ideal.ofBits .f32 0x00000000#32))
          (max (Scalar.select (IntOp.andi (Ideal.cmp .une prev prev) (Ideal.cmp .une (Ideal.sign (p + a)) (Ideal.ofBits .f32 0x00000000#32)))
              (Ideal.ofBits .f32 0x7F800000#32 * Ideal.sign (p + a) * Ideal.ofBits .f32 0xBF800000#32) prev)
            (Ideal.div price (atr * Ideal.ofBits .f32 0x40000000#32 + Ideal.ofBits .f32 0x3F800000#32)))
          (min (Scalar.select (IntOp.andi (Ideal.cmp .une prev prev) (Ideal.cmp .une (Ideal.sign (p + a)) (Ideal.ofBits .f32 0x00000000#32)))
              (Ideal.ofBits .f32 0x7F800000#32 * Ideal.sign (p + a) * Ideal.ofBits .f32 0xBF800000#32) prev)
            (price * (atr * Ideal.ofBits .f32 0x40000000#32 + Ideal.ofBits .f32 0x3F800000#32))))
        (Scalar.select (Ideal.cmp .ogt (Ideal.sign (p + a)) (Ideal.ofBits .f32 0x00000000#32))
          (max (Scalar.select (IntOp.andi (Ideal.cmp .une prev prev) (Ideal.cmp .une (Ideal.sign (p + a)) (Ideal.ofBits .f32 0x00000000#32)))
              (Ideal.ofBits .f32 0x7F800000#32 * Ideal.sign (p + a) * Ideal.ofBits .f32 0xBF800000#32) prev)
            (Ideal.div price (atr * Ideal.ofBits .f32 0x40000000#32 + Ideal.ofBits .f32 0x3F800000#32)))
          (min (Scalar.select (IntOp.andi (Ideal.cmp .une prev prev) (Ideal.cmp .une (Ideal.sign (p + a)) (Ideal.ofBits .f32 0x00000000#32)))
              (Ideal.ofBits .f32 0x7F800000#32 * Ideal.sign (p + a) * Ideal.ofBits .f32 0xBF800000#32) prev)
            (price * (atr * Ideal.ofBits .f32 0x40000000#32 + Ideal.ofBits .f32 0x3F800000#32)))))
      (Ideal.cmp .oeq (Ideal.sign (p + a)) (Ideal.ofBits .f32 0x00000000#32)))
    (Scalar.select (IntOp.andi (Ideal.cmp .une prev prev) (Ideal.cmp .une (Ideal.sign (p + a)) (Ideal.ofBits .f32 0x00000000#32)))
      (Ideal.ofBits .f32 0x7F800000#32 * Ideal.sign (p + a) * Ideal.ofBits .f32 0xBF800000#32) prev)
    (Scalar.select (Ideal.cmp .ogt (Ideal.sign (p + a)) (Ideal.ofBits .f32 0x00000000#32))
      (max (Scalar.select (IntOp.andi (Ideal.cmp .une prev prev) (Ideal.cmp .une (Ideal.sign (p + a)) (Ideal.ofBits .f32 0x00000000#32)))
          (Ideal.ofBits .f32 0x7F800000#32 * Ideal.sign (p + a) * Ideal.ofBits .f32 0xBF800000#32) prev)
        (Ideal.div price (atr * Ideal.ofBits .f32 0x40000000#32 + Ideal.ofBits .f32 0x3F800000#32)))
      (min (Scalar.select (IntOp.andi (Ideal.cmp .une prev prev) (Ideal.cmp .une (Ideal.sign (p + a)) (Ideal.ofBits .f32 0x00000000#32)))
          (Ideal.ofBits .f32 0x7F800000#32 * Ideal.sign (p + a) * Ideal.ofBits .f32 0xBF800000#32) prev)
        (price * (atr * Ideal.ofBits .f32 0x40000000#32 + Ideal.ofBits .f32 0x3F800000#32))))

/-- The reference's result at a position, from its two gathered values there. -/
theorem ref_stop (x0 x1 x2 : (⟨Cert.ReferenceIdeal.S16384, .f32⟩ : BufTy).Contents (Elt Ideal))
    (x3 : (⟨Cert.ReferenceIdeal.S5000x1000x4, .f32⟩ : BufTy).Contents (Elt Ideal)) (x4 : (⟨Cert.ReferenceIdeal.S5000x1000, .f32⟩ : BufTy).Contents (Elt Ideal))
    (x5 x6 : (⟨Cert.ReferenceIdeal.S16384, .i32⟩ : BufTy).Contents (Elt Ideal)) (i : Cert.ReferenceIdeal.S16384.Idx) :
    Cert.ReferenceIdeal.ReadP.val_main_v67 (F := Ideal) x0 x1 x2 x3 x4 x5 x6 i
      = stopR (x0 i) (x1 i) (x2 i) (Cert.ReferenceIdeal.ReadP.val_main_v24 (F := Ideal) x4 x5 x6 i) (Cert.ReferenceIdeal.ReadP.val_main_v55 (F := Ideal) x0 x2 x3 x5 x6 i) := by
  simp only [Cert.ReferenceIdeal.ReadP.val_main_v67_apply, Cert.ReferenceIdeal.ReadP.val_main_v66_apply, Cert.ReferenceIdeal.ReadP.val_main_v65_apply, Cert.ReferenceIdeal.ReadP.val_main_v64_apply, Cert.ReferenceIdeal.ReadP.val_main_cst_19_apply, Cert.ReferenceIdeal.ReadP.val_main_v63_apply, Cert.ReferenceIdeal.ReadP.val_main_v62_apply, Cert.ReferenceIdeal.ReadP.val_main_v61_apply, Cert.ReferenceIdeal.ReadP.val_main_v60_apply, Cert.ReferenceIdeal.ReadP.val_main_v59_apply, Cert.ReferenceIdeal.ReadP.val_main_v58_apply, Cert.ReferenceIdeal.ReadP.val_main_v57_apply, Cert.ReferenceIdeal.ReadP.val_main_v56_apply, Cert.ReferenceIdeal.ReadP.val_main_cst_18_apply, Cert.ReferenceIdeal.ReadP.val_main_v28_apply, Cert.ReferenceIdeal.ReadP.val_main_v27_apply, Cert.ReferenceIdeal.ReadP.val_main_cst_6_apply, Cert.ReferenceIdeal.ReadP.val_main_v26_apply, Cert.ReferenceIdeal.ReadP.val_main_v25_apply, Cert.ReferenceIdeal.ReadP.val_main_cst_5_apply, Cert.ReferenceIdeal.ReadP.val_main_v10_apply, Cert.ReferenceIdeal.ReadP.val_main_v9_apply, Cert.ReferenceIdeal.ReadP.val_main_v8_apply, Cert.ReferenceIdeal.ReadP.val_main_cst_1_apply, Cert.ReferenceIdeal.ReadP.val_main_v7_apply, Cert.ReferenceIdeal.ReadP.val_main_v6_apply, Cert.ReferenceIdeal.ReadP.val_main_cst_0_apply, Cert.ReferenceIdeal.ReadP.val_main_v5_apply, Cert.ReferenceIdeal.ReadP.val_main_v4_apply, Cert.ReferenceIdeal.ReadP.val_main_v3_apply, Cert.ReferenceIdeal.ReadP.val_main_cst_apply, Cert.ReferenceIdeal.ReadP.val_main_v2_apply, Cert.ReferenceIdeal.ReadP.val_main_v1_apply, Cert.ReferenceIdeal.ReadP.val_main_v0_apply]
  rfl

/-- No extended real differs from itself. -/
theorem cmp_one_self (x : EReal) : Ideal.cmp .one x x = 0#1 := by simp [Ideal.cmp]
theorem cmp_une_self (x : EReal) : Ideal.cmp .une x x = 0#1 := by simp [Ideal.cmp]
theorem andi_zero_left (c : BitVec 1) : IntOp.andi 0#1 c = 0#1 := by revert c; decide
theorem ori_zero_left (c : BitVec 1) : IntOp.ori 0#1 c = c := by revert c; decide
theorem select_zero {α : Type} (a b : α) : Scalar.select 0#1 a b = b := by simp [Scalar.select]

/-- The two are one function of the five values. -/
theorem stopK_eq_stopR (p a prev atr price : EReal) : stopK p a prev atr price = stopR p prev a atr price := by
  unfold stopK stopR
  simp only [dirK_eq_sign, cmp_one_self, cmp_une_self, andi_zero_left, ori_zero_left, select_zero]

/-! ## The channel -/

/-- The kernel's channel word: 3 where the position is zero, else 1 where the direction is positive, else 2. -/
def chanK (p a : EReal) : BitVec 32 :=
  Scalar.select (Ideal.cmp .oeq p (Ideal.ofBits .f32 0x00000000#32)) 3#32
    (Scalar.select (Ideal.cmp .ogt (dirK (p + a)) (Ideal.ofBits .f32 0x00000000#32)) 1#32 2#32)

theorem pay_chan (v11 v14 : IVec S16 32) (v17 v20 : FVec Ideal S16 .f32) (l : S16.Idx) :
    k0_pay7 (k0_pay5 (F := Ideal) v11 v14 v17 v20) l = (v11 l * 4#32 + chanK (v17 l) (v20 l)) * 1000#32 + v14 l := by
  simp only [k0_pay7, k0_pay5, k0_pay2, k0_pay3, shapeCast_self]
  rfl

theorem chanK_cases (p a : EReal) : chanK p a = 1#32 ∨ chanK p a = 2#32 ∨ chanK p a = 3#32 := by
  unfold chanK Scalar.select
  split_ifs <;> simp

/-- The reference's channel word is the kernel's. -/
theorem ref_chan (x0 x2 : (⟨Cert.ReferenceIdeal.S16384, .f32⟩ : BufTy).Contents (Elt Ideal)) (i : Cert.ReferenceIdeal.S16384.Idx) :
    Cert.ReferenceIdeal.ReadP.val_main_v35 (F := Ideal) x0 x2 i = chanK (x0 i) (x2 i) := by
  simp only [Cert.ReferenceIdeal.ReadP.val_main_v35_apply, Cert.ReferenceIdeal.ReadP.val_main_v34_apply, Cert.ReferenceIdeal.ReadP.val_main_v33_apply, Cert.ReferenceIdeal.ReadP.val_main_call1_v0_apply, Cert.ReferenceIdeal.ReadP.val_main_call1_v1_apply, Cert.ReferenceIdeal.ReadP.val_main_c_9_apply, Cert.ReferenceIdeal.ReadP.val_main_c_10_apply, Cert.ReferenceIdeal.ReadP.val_main_call2_v0_apply, Cert.ReferenceIdeal.ReadP.val_main_c_11_apply, Cert.ReferenceIdeal.ReadP.val_main_v32_apply, Cert.ReferenceIdeal.ReadP.val_main_v31_apply, Cert.ReferenceIdeal.ReadP.val_main_cst_8_apply, Cert.ReferenceIdeal.ReadP.val_main_v30_apply, Cert.ReferenceIdeal.ReadP.val_main_v29_apply, Cert.ReferenceIdeal.ReadP.val_main_cst_7_apply, Cert.ReferenceIdeal.ReadP.val_main_v1_apply, Cert.ReferenceIdeal.ReadP.val_main_v0_apply]
  unfold chanK
  rw [dirK_eq_sign]
  rfl

end Cert.Proof.Stop

end
-- ==== Proof.RefGather.lean ====
/-
  The reference's two gathers read at a position. Its index arrays are the date and time indices (and the channel)
  each first wrapped — a negative index has the extent added — then laid side by side as the columns of an [n, 2]
  (an [n, 3]) array; the gather reads each start index signed and clamps it into its axis. For a date index between 0
  and 4999, a time index between 0 and 999 and a channel between 1 and 3 the wrap and the clamp change nothing: the
  ratio gathered at position i is the table's at (date i, time i), the price the table's at (date i, time i, channel i).
-/
import proofs.«202963_g88613765251846_cont_sun_m_1299_31_alg».proof.Proof.RefReadP
import Idealize.ShloMosaic.Lib.ValueIdx
import Idealize.ShloMosaic.Lib.Pipeline.Value
import Idealize.ShloMosaic.Lib.Affine

noncomputable section

namespace Cert.Proof.RefGather

open Idealize.ShloMosaic Idealize.ShloMosaic.ValueIdx
open Cert.ReferenceIdeal Cert.ReferenceIdeal.Gen

variable {α : Type}

/-! ## The two gathers, at any index array -/

theorem gather2_apply (x : S5000x1000.Idx → α) (idx : IVec S16384x2 32) (i : S16384.Idx) :
    Host.gather gather_S5000x1000_S16384x2_S16384_n_01_n_n_01_1_11 x idx i
      = x (ix2 (⟨min (idx (ix2 (i 0) (0 : Fin 2))).toInt.toNat 4999, by omega⟩ : Fin 5000)
          (⟨min (idx (ix2 (i 0) (1 : Fin 2))).toInt.toNat 999, by omega⟩ : Fin 1000)) := by
  unfold Host.gather
  congr 1
  funext a
  refine Fin.ext ?_
  match a with
  | ⟨0, _⟩ =>
    show gather_S5000x1000_S16384x2_S16384_n_01_n_n_01_1_11.start i idx 0 + gather_S5000x1000_S16384x2_S16384_n_01_n_n_01_1_11.batchCoord i 0
      + gather_S5000x1000_S16384x2_S16384_n_01_n_n_01_1_11.offCoord i 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : gather_S5000x1000_S16384x2_S16384_n_01_n_n_01_1_11.siIdx i ⟨List.idxOf (0 : Fin 2) gather_S5000x1000_S16384x2_S16384_n_01_n_n_01_1_11.startIndexMap,
        List.idxOf_lt_length_iff.2 (by decide)⟩ = ix2 (i 0) (0 : Fin 2) := by
      funext b; refine Fin.ext ?_
      match b with
      | ⟨0, _⟩ => rfl
      | ⟨1, _⟩ => rfl
    rw [hsi]
    rfl
  | ⟨1, _⟩ =>
    show gather_S5000x1000_S16384x2_S16384_n_01_n_n_01_1_11.start i idx 1 + gather_S5000x1000_S16384x2_S16384_n_01_n_n_01_1_11.batchCoord i 1
      + gather_S5000x1000_S16384x2_S16384_n_01_n_n_01_1_11.offCoord i 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : gather_S5000x1000_S16384x2_S16384_n_01_n_n_01_1_11.siIdx i ⟨List.idxOf (1 : Fin 2) gather_S5000x1000_S16384x2_S16384_n_01_n_n_01_1_11.startIndexMap,
        List.idxOf_lt_length_iff.2 (by decide)⟩ = ix2 (i 0) (1 : Fin 2) := by
      funext b; refine Fin.ext ?_
      match b with
      | ⟨0, _⟩ => rfl
      | ⟨1, _⟩ => rfl
    rw [hsi]
    rfl

theorem gather3_apply (x : S5000x1000x4.Idx → α) (idx : IVec S16384x3 32) (i : S16384.Idx) :
    Host.gather gather_S5000x1000x4_S16384x3_S16384_n_012_n_n_012_1_111 x idx i
      = x (ix3 (⟨min (idx (ix2 (i 0) (0 : Fin 3))).toInt.toNat 4999, by omega⟩ : Fin 5000)
          (⟨min (idx (ix2 (i 0) (1 : Fin 3))).toInt.toNat 999, by omega⟩ : Fin 1000)
          (⟨min (idx (ix2 (i 0) (2 : Fin 3))).toInt.toNat 3, by omega⟩ : Fin 4)) := by
  unfold Host.gather
  congr 1
  funext a
  refine Fin.ext ?_
  match a with
  | ⟨0, _⟩ =>
    show gather_S5000x1000x4_S16384x3_S16384_n_012_n_n_012_1_111.start i idx 0 + gather_S5000x1000x4_S16384x3_S16384_n_012_n_n_012_1_111.batchCoord i 0 + gather_S5000x1000x4_S16384x3_S16384_n_012_n_n_012_1_111.offCoord i 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : gather_S5000x1000x4_S16384x3_S16384_n_012_n_n_012_1_111.siIdx i ⟨List.idxOf (0 : Fin 3) gather_S5000x1000x4_S16384x3_S16384_n_012_n_n_012_1_111.startIndexMap,
        List.idxOf_lt_length_iff.2 (by decide)⟩ = ix2 (i 0) (0 : Fin 3) := by
      funext b; refine Fin.ext ?_
      match b with
      | ⟨0, _⟩ => rfl
      | ⟨1, _⟩ => rfl
    rw [hsi]
    rfl
  | ⟨1, _⟩ =>
    show gather_S5000x1000x4_S16384x3_S16384_n_012_n_n_012_1_111.start i idx 1 + gather_S5000x1000x4_S16384x3_S16384_n_012_n_n_012_1_111.batchCoord i 1 + gather_S5000x1000x4_S16384x3_S16384_n_012_n_n_012_1_111.offCoord i 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : gather_S5000x1000x4_S16384x3_S16384_n_012_n_n_012_1_111.siIdx i ⟨List.idxOf (1 : Fin 3) gather_S5000x1000x4_S16384x3_S16384_n_012_n_n_012_1_111.startIndexMap,
        List.idxOf_lt_length_iff.2 (by decide)⟩ = ix2 (i 0) (1 : Fin 3) := by
      funext b; refine Fin.ext ?_
      match b with
      | ⟨0, _⟩ => rfl
      | ⟨1, _⟩ => rfl
    rw [hsi]
    rfl
  | ⟨2, _⟩ =>
    show gather_S5000x1000x4_S16384x3_S16384_n_012_n_n_012_1_111.start i idx 2 + gather_S5000x1000x4_S16384x3_S16384_n_012_n_n_012_1_111.batchCoord i 2 + gather_S5000x1000x4_S16384x3_S16384_n_012_n_n_012_1_111.offCoord i 2 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : gather_S5000x1000x4_S16384x3_S16384_n_012_n_n_012_1_111.siIdx i ⟨List.idxOf (2 : Fin 3) gather_S5000x1000x4_S16384x3_S16384_n_012_n_n_012_1_111.startIndexMap,
        List.idxOf_lt_length_iff.2 (by decide)⟩ = ix2 (i 0) (2 : Fin 3) := by
      funext b; refine Fin.ext ?_
      match b with
      | ⟨0, _⟩ => rfl
      | ⟨1, _⟩ => rfl
    rw [hsi]
    rfl

/-! ## Words in range: the wrap and the clamp change nothing -/

/-- A word below 2^31 is not negative as a signed word. -/
theorem not_neg_of_small (v : BitVec 32) (h : v.toNat < 2 ^ 31) : IntOp.cmpi .slt v 0#32 = 0#1 := by
  rcases BitVec.eq_zero_or_eq_one (IntOp.cmpi .slt v 0#32) with h0 | h1
  · exact h0
  · exfalso
    rw [IntOp.cmpi_slt, BitVec.toInt_eq_toNat_cond] at h1
    have : (0#32 : BitVec 32).toInt = 0 := by decide
    rw [this] at h1
    split at h1 <;> omega

/-- The wrapped index is the index. -/
theorem wrap_id (v n : BitVec 32) (h : v.toNat < 2 ^ 31) : Scalar.select (IntOp.cmpi .slt v 0#32) (IntOp.addi v n) v = v := by
  rw [not_neg_of_small v h]; exact select_zero _ _

/-- The clamped start is the index's own value. -/
theorem clamp_id (v : BitVec 32) (N : ℕ) (h : v.toNat ≤ N) (hN : N < 2 ^ 31) : min v.toInt.toNat N = v.toNat := by
  rw [BitVec.toInt_eq_toNat_cond]
  split
  · rw [Int.toNat_natCast]; omega
  · omega

/-! ## The reference's index columns, and its two gathers at in-range indices -/

theorem v15_id (x5 : IVec S16384 32) (i : S16384.Idx) (h : (x5 i).toNat ≤ 4999) :
    Cert.ReferenceIdeal.ReadP.val_main_v15 (F := Ideal) x5 i = x5 i := by
  rw [Cert.ReferenceIdeal.ReadP.val_main_v15_apply, Cert.ReferenceIdeal.ReadP.val_main_v12_apply, Cert.ReferenceIdeal.ReadP.val_main_v11_apply, Cert.ReferenceIdeal.ReadP.val_main_c_apply, Cert.ReferenceIdeal.ReadP.val_main_v14_apply]
  exact wrap_id _ _ (by omega)

theorem v20_id (x6 : IVec S16384 32) (i : S16384.Idx) (h : (x6 i).toNat ≤ 999) :
    Cert.ReferenceIdeal.ReadP.val_main_v20 (F := Ideal) x6 i = x6 i := by
  rw [Cert.ReferenceIdeal.ReadP.val_main_v20_apply, Cert.ReferenceIdeal.ReadP.val_main_v17_apply, Cert.ReferenceIdeal.ReadP.val_main_v16_apply, Cert.ReferenceIdeal.ReadP.val_main_c_3_apply, Cert.ReferenceIdeal.ReadP.val_main_v19_apply]
  exact wrap_id _ _ (by omega)

theorem v40_id (x5 : IVec S16384 32) (i : S16384.Idx) (h : (x5 i).toNat ≤ 4999) :
    Cert.ReferenceIdeal.ReadP.val_main_v40 (F := Ideal) x5 i = x5 i := by
  rw [Cert.ReferenceIdeal.ReadP.val_main_v40_apply, Cert.ReferenceIdeal.ReadP.val_main_v37_apply, Cert.ReferenceIdeal.ReadP.val_main_v36_apply, Cert.ReferenceIdeal.ReadP.val_main_c_12_apply, Cert.ReferenceIdeal.ReadP.val_main_v39_apply]
  exact wrap_id _ _ (by omega)

theorem v45_id (x6 : IVec S16384 32) (i : S16384.Idx) (h : (x6 i).toNat ≤ 999) :
    Cert.ReferenceIdeal.ReadP.val_main_v45 (F := Ideal) x6 i = x6 i := by
  rw [Cert.ReferenceIdeal.ReadP.val_main_v45_apply, Cert.ReferenceIdeal.ReadP.val_main_v42_apply, Cert.ReferenceIdeal.ReadP.val_main_v41_apply, Cert.ReferenceIdeal.ReadP.val_main_c_14_apply, Cert.ReferenceIdeal.ReadP.val_main_v44_apply]
  exact wrap_id _ _ (by omega)

/-- The channel column: the channel word wrapped, which for 1, 2 or 3 is the word. -/
theorem v50_id (x0 x2 : FVec Ideal S16384 .f32) (i : S16384.Idx) (h : (Cert.ReferenceIdeal.ReadP.val_main_v35 (F := Ideal) x0 x2 i).toNat ≤ 3) :
    Cert.ReferenceIdeal.ReadP.val_main_v50 (F := Ideal) x0 x2 i = Cert.ReferenceIdeal.ReadP.val_main_v35 (F := Ideal) x0 x2 i := by
  rw [Cert.ReferenceIdeal.ReadP.val_main_v50_apply, Cert.ReferenceIdeal.ReadP.val_main_v47_apply, Cert.ReferenceIdeal.ReadP.val_main_v46_apply, Cert.ReferenceIdeal.ReadP.val_main_c_16_apply, Cert.ReferenceIdeal.ReadP.val_main_v49_apply]
  exact wrap_id _ _ (by omega)

theorem idx_col (i : S16384.Idx) : (fun a : Fin 1 => match a with | ⟨0, _⟩ => (⟨((ix2 (i 0) (0 : Fin 1) : S16384x1.Idx) 0).val, (i 0).isLt⟩ : Fin 16384)) = i := by
  funext a; match a with
  | ⟨0, _⟩ => exact Fin.ext rfl

/-- The ratio gathered at position `i`: the table's at (date i, time i). -/
theorem v24_apply (x4 : FVec Ideal S5000x1000 .f32) (x5 x6 : IVec S16384 32) (i : S16384.Idx) (h5 : (x5 i).toNat ≤ 4999) (h6 : (x6 i).toNat ≤ 999) :
    Cert.ReferenceIdeal.ReadP.val_main_v24 (F := Ideal) x4 x5 x6 i = x4 (ix2 (⟨(x5 i).toNat, by omega⟩ : Fin 5000) (⟨(x6 i).toNat, by omega⟩ : Fin 1000)) := by
  have e0 : Cert.ReferenceIdeal.ReadP.val_main_v23 (F := Ideal) x5 x6 (ix2 (i 0) (0 : Fin 2)) = x5 i := by
    unfold Cert.ReferenceIdeal.ReadP.val_main_v23
    rw [concatenate_pair_apply_left (t := S16384x2) (s₁ := S16384x1) (s₂ := S16384x1) (1 : Fin 2) (Cert.ReferenceIdeal.ReadP.val_main_v21 (F := Ideal) x5) (Cert.ReferenceIdeal.ReadP.val_main_v22 (F := Ideal) x6) _
      (ix2 (i 0) (0 : Fin 2)) rfl (ix2 (i 0) (0 : Fin 1) : S16384x1.Idx)
      (fun b => by match b with | ⟨0, _⟩ => rfl | ⟨1, _⟩ => rfl), Cert.ReferenceIdeal.ReadP.val_main_v21_apply]
    exact (congrArg _ (idx_col i)).trans (v15_id x5 i h5)
  have e1 : Cert.ReferenceIdeal.ReadP.val_main_v23 (F := Ideal) x5 x6 (ix2 (i 0) (1 : Fin 2)) = x6 i := by
    unfold Cert.ReferenceIdeal.ReadP.val_main_v23
    rw [concatenate_pair_apply_right (t := S16384x2) (s₁ := S16384x1) (s₂ := S16384x1) (1 : Fin 2) (Cert.ReferenceIdeal.ReadP.val_main_v21 (F := Ideal) x5) (Cert.ReferenceIdeal.ReadP.val_main_v22 (F := Ideal) x6) _
      (ix2 (i 0) (1 : Fin 2)) rfl rfl (ix2 (i 0) (0 : Fin 1) : S16384x1.Idx)
      (fun b hb => by match b with | ⟨0, _⟩ => rfl | ⟨1, _⟩ => exact absurd rfl hb) rfl, Cert.ReferenceIdeal.ReadP.val_main_v22_apply]
    exact (congrArg _ (idx_col i)).trans (v20_id x6 i h6)
  unfold Cert.ReferenceIdeal.ReadP.val_main_v24
  rw [gather2_apply]
  congr 1
  funext a; match a with
  | ⟨0, _⟩ => exact Fin.ext (by show min _ 4999 = _; rw [e0]; exact clamp_id _ _ h5 (by decide))
  | ⟨1, _⟩ => exact Fin.ext (by show min _ 999 = _; rw [e1]; exact clamp_id _ _ h6 (by decide))

/-- The price gathered at position `i`: the table's at (date i, time i, channel i). -/
theorem v55_apply (x0 x2 : FVec Ideal S16384 .f32) (x3 : FVec Ideal S5000x1000x4 .f32) (x5 x6 : IVec S16384 32) (i : S16384.Idx)
    (h5 : (x5 i).toNat ≤ 4999) (h6 : (x6 i).toNat ≤ 999) (hc : (Cert.ReferenceIdeal.ReadP.val_main_v35 (F := Ideal) x0 x2 i).toNat ≤ 3) :
    Cert.ReferenceIdeal.ReadP.val_main_v55 (F := Ideal) x0 x2 x3 x5 x6 i
      = x3 (ix3 (⟨(x5 i).toNat, by omega⟩ : Fin 5000) (⟨(x6 i).toNat, by omega⟩ : Fin 1000)
          (⟨(Cert.ReferenceIdeal.ReadP.val_main_v35 (F := Ideal) x0 x2 i).toNat, by omega⟩ : Fin 4)) := by
  have e0 : Cert.ReferenceIdeal.ReadP.val_main_v54 (F := Ideal) x0 x2 x5 x6 (ix2 (i 0) (0 : Fin 3)) = x5 i := by
    unfold Cert.ReferenceIdeal.ReadP.val_main_v54
    rw [concatenate_apply_piece (t := S16384x3) (1 : Fin 2) _ _ (ix2 (i 0) (0 : Fin 3)) 0 (by show _ < 3; omega) S16384x1 (Cert.ReferenceIdeal.ReadP.val_main_v51 (F := Ideal) x5) rfl rfl 0 (by rfl)
      (ix2 (i 0) (0 : Fin 1) : S16384x1.Idx) (fun b hb => by match b with | ⟨0, _⟩ => rfl | ⟨1, _⟩ => exact absurd rfl hb) rfl, Cert.ReferenceIdeal.ReadP.val_main_v51_apply]
    exact (congrArg _ (idx_col i)).trans (v40_id x5 i h5)
  have e1 : Cert.ReferenceIdeal.ReadP.val_main_v54 (F := Ideal) x0 x2 x5 x6 (ix2 (i 0) (1 : Fin 3)) = x6 i := by
    unfold Cert.ReferenceIdeal.ReadP.val_main_v54
    rw [concatenate_apply_piece (t := S16384x3) (1 : Fin 2) _ _ (ix2 (i 0) (1 : Fin 3)) 1 (by show _ < 3; omega) S16384x1 (Cert.ReferenceIdeal.ReadP.val_main_v52 (F := Ideal) x6) rfl rfl 1 (by rfl)
      (ix2 (i 0) (0 : Fin 1) : S16384x1.Idx) (fun b hb => by match b with | ⟨0, _⟩ => rfl | ⟨1, _⟩ => exact absurd rfl hb) rfl, Cert.ReferenceIdeal.ReadP.val_main_v52_apply]
    exact (congrArg _ (idx_col i)).trans (v45_id x6 i h6)
  have e2 : Cert.ReferenceIdeal.ReadP.val_main_v54 (F := Ideal) x0 x2 x5 x6 (ix2 (i 0) (2 : Fin 3)) = Cert.ReferenceIdeal.ReadP.val_main_v35 (F := Ideal) x0 x2 i := by
    unfold Cert.ReferenceIdeal.ReadP.val_main_v54
    rw [concatenate_apply_piece (t := S16384x3) (1 : Fin 2) _ _ (ix2 (i 0) (2 : Fin 3)) 2 (by show _ < 3; omega) S16384x1 (Cert.ReferenceIdeal.ReadP.val_main_v53 (F := Ideal) x0 x2) rfl rfl 2 (by rfl)
      (ix2 (i 0) (0 : Fin 1) : S16384x1.Idx) (fun b hb => by match b with | ⟨0, _⟩ => rfl | ⟨1, _⟩ => exact absurd rfl hb) rfl, Cert.ReferenceIdeal.ReadP.val_main_v53_apply]
    exact (congrArg _ (idx_col i)).trans (v50_id x0 x2 i hc)
  unfold Cert.ReferenceIdeal.ReadP.val_main_v55
  rw [gather3_apply]
  congr 1
  funext a; match a with
  | ⟨0, _⟩ => exact Fin.ext (by show min _ 4999 = _; rw [e0]; exact clamp_id _ _ h5 (by decide))
  | ⟨1, _⟩ => exact Fin.ext (by show min _ 999 = _; rw [e1]; exact clamp_id _ _ h6 (by decide))
  | ⟨2, _⟩ => exact Fin.ext (by show min _ 3 = _; rw [e2]; exact clamp_id _ _ hc (by decide))

end Cert.Proof.RefGather

end
-- ==== Proof.Bridge.lean ====
/-
  The kernel's result is the reference's, position by position, on the extended reals. Position i lies in the block of
  subcore (i / 512 mod 2, i / 1024), at place i mod 512 there; what that subcore writes at the place is its sixteen-lane
  arithmetic at the lane, which is one function of the position, the action and the previous stop at i, of the ratio at
  flat index date i * 1000 + time i and of the price at flat index ((date i * 4 + channel) * 1000 + time i) — the tables'
  entries at (date i, time i) and (date i, time i, channel) — and the reference applies the same function to the same
  five values.
-/
import proofs.«202963_g88613765251846_cont_sun_m_1299_31_alg».proof.Proof.KernelTables
import proofs.«202963_g88613765251846_cont_sun_m_1299_31_alg».proof.Proof.StopAlgebra
import proofs.«202963_g88613765251846_cont_sun_m_1299_31_alg».proof.Proof.RefGather

noncomputable section

namespace Cert.Proof.TileIdeal

open Cert.KernelIdeal Cert.KernelIdeal.Gen
open Idealize.ShloMosaic
open Idealize.ShloMosaic.ValueIdx (ix1 ix2 ix3 eq_ix1)
open Cert.Proof.Stop Cert.Proof.RefGather

variable (m : (ℓ : Loc nD τ sig) → Buf (Elt Ideal) ℓ)

/-! ## A position's subcore and its place in the block -/

def pairOf (i : S16384.Idx) : Fin 2 × Fin 16 :=
  (⟨(i 0).val / 512 % 2, Nat.mod_lt _ (by decide)⟩, ⟨(i 0).val / 1024, by have : (i 0).val < 16384 := (i 0).isLt; omega⟩)
def placeOf (i : S16384.Idx) : S512.Idx := ix1 (⟨(i 0).val % 512, Nat.mod_lt _ (by decide)⟩ : Fin 512)

theorem mem_pairOf (i : S16384.Idx) : i ∈ KB (pairOf i) := by
  rw [mem_KB]
  show 1024 * ((i 0).val / 1024) + 512 * ((i 0).val / 512 % 2) ≤ (i 0).val ∧ (i 0).val < 1024 * ((i 0).val / 1024) + 512 * ((i 0).val / 512 % 2) + 512
  omega

theorem blkIdx_placeOf (i : S16384.Idx) : blkIdx (coordsV (pairOf i).1 (pairOf i).2) (placeOf i) = i := by
  funext a; match a with
  | ⟨0, _⟩ =>
    apply Fin.ext
    show 1024 * ((i 0).val / 1024) + 512 * ((i 0).val / 512 % 2) + (i 0).val % 512 = (i 0).val
    omega

/-! ## The whole result -/

/-- The result array: at each position what the position's subcore wrote there. -/
def OUTG (d : Dev nD) : Buf (Elt Ideal) (outLoc d) :=
  fun i => OUTF m d (coordsV (pairOf i).1 (pairOf i).2) (FD m d) (FA m d) i

theorem out_of_spec (d : Dev nD) (g : Buf (Elt Ideal) (outLoc d)) (h : OutSpec m d g) : g = OUTG m d :=
  funext fun i => h (pairOf i) i (mem_pairOf i)

/-- A subcore's block of the result, at a place of the block: the sixteen-lane arithmetic at the place. -/
theorem OUTF_at (d : Dev nD) (L : grid0.Coords) (fD : Buf (Elt Ideal) (fdataLoc d)) (fA : Buf (Elt Ideal) (fartrLoc d)) (x : S512.Idx) :
    OUTF m d L fD fA (blkIdx L x) = OUTB m d L fD fA x := by
  have h1 : (outBlk L).view.read (Elt Ideal) (OUTF m d L fD fA) x = OUTF m d L fD fA (blkIdx L x) :=
    ((View.read_apply _ _).trans (cast_eq _ _)).trans (congrArg _ (blkR_emb L x))
  rw [← h1]
  unfold OUTF
  exact congrFun (View.read_writes_whole (outBlk L).view (m (outLoc d)) (OUTB m d L fD fA)) x

/-- Lane by lane: group `grp x`, lane `lan x` of a buffer is its element `x`. -/
theorem grp16_at {α : Type} (f : S512.Idx → α) (x : S512.Idx) : grp16 f (grp x) (lan x) = f x := by
  unfold grp16; rw [lane_grp_lan]

/-! ## The bridge -/

theorem out_eq_ref (d : Dev nD) (hpre : PreOK m d) (i : S16384.Idx) :
    OUTG m d i = Cert.ReferenceIdeal.ReadP.val_main_v67 (F := Ideal) (m (posLoc d)) (m (prevLoc d)) (m (actLoc d)) (m (dataLoc d)) (m (artrLoc d))
      (m (dateLoc d)) (m (timeLoc d)) i := by
  have hi := blkIdx_placeOf i
  generalize hL : coordsV (pairOf i).1 (pairOf i).2 = L at hi
  generalize placeOf i = x at hi
  have hd : (m (dateLoc d) i).toNat ≤ 4999 := (hpre i).1
  have ht : (m (timeLoc d) i).toNat ≤ 999 := (hpre i).2
  -- the date and time index at the position, as words
  obtain ⟨dd, hdd⟩ : ∃ dd : BitVec 32, m (dateLoc d) i = dd := ⟨_, rfl⟩
  obtain ⟨tt, htt⟩ : ∃ tt : BitVec 32, m (timeLoc d) i = tt := ⟨_, rfl⟩
  have hd' : dd.toNat ≤ 4999 := hdd ▸ hd
  have ht' : tt.toNat ≤ 999 := htt ▸ ht
  -- the block's five values at the place are the arrays' at the position
  have ePOS : POS m d L x = m (posLoc d) i := by rw [POS_apply, hi]
  have eACT : ACT m d L x = m (actLoc d) i := by rw [ACT_apply, hi]
  have ePREV : PREV m d L x = m (prevLoc d) i := by rw [PREV_apply, hi]
  have eDATE : DATE m d L x = dd := by rw [DATE_apply, hi, hdd]
  have eTIME : TIME m d L x = tt := by rw [TIME_apply, hi, htt]
  -- the channel word
  obtain ⟨ch, hch⟩ : ∃ ch : BitVec 32, chanK (m (posLoc d) i) (m (actLoc d) i) = ch := ⟨_, rfl⟩
  have hch3 : ch.toNat ≤ 3 := by
    rcases chanK_cases (m (posLoc d) i) (m (actLoc d) i) with h | h | h <;> rw [← hch, h] <;> decide
  -- the two flat indices
  have eI1 : IDX1 m d L x = dd * 1000#32 + tt := by
    unfold IDX1; rw [pay4_apply, grp16_at, grp16_at, eDATE, eTIME]
  have eI2 : IDX2 m d L x = (dd * 4#32 + ch) * 1000#32 + tt := by
    unfold IDX2; rw [pay_chan, grp16_at, grp16_at, grp16_at, grp16_at, eDATE, eTIME, ePOS, eACT, hch]
  have n1 : (IDX1 m d L x).toNat = dd.toNat * 1000 + tt.toNat := by
    rw [eI1, BitVec.toNat_add, BitVec.toNat_mul, show (1000#32).toNat = 1000 from rfl,
      Nat.mod_eq_of_lt (a := dd.toNat * 1000) (by omega), Nat.mod_eq_of_lt (by omega)]
  have n2 : (IDX2 m d L x).toNat = (dd.toNat * 4 + ch.toNat) * 1000 + tt.toNat := by
    rw [eI2, BitVec.toNat_add, BitVec.toNat_mul, BitVec.toNat_add, BitVec.toNat_mul, show (1000#32).toNat = 1000 from rfl, show (4#32).toNat = 4 from rfl,
      Nat.mod_eq_of_lt (a := dd.toNat * 4) (by omega), Nat.mod_eq_of_lt (a := dd.toNat * 4 + ch.toNat) (by omega),
      Nat.mod_eq_of_lt (a := (dd.toNat * 4 + ch.toNat) * 1000) (by omega), Nat.mod_eq_of_lt (by omega)]
  -- the gathered ratio and price are the tables' entries the reference gathers
  have hc35 : Cert.ReferenceIdeal.ReadP.val_main_v35 (F := Ideal) (m (posLoc d)) (m (actLoc d)) i = ch :=
    (ref_chan (m (posLoc d)) (m (actLoc d)) i).trans hch
  have eATR : ATR m d L (FA m d) x = Cert.ReferenceIdeal.ReadP.val_main_v24 (F := Ideal) (m (artrLoc d)) (m (dateLoc d)) (m (timeLoc d)) i := by
    rw [v24_apply (m (artrLoc d)) (m (dateLoc d)) (m (timeLoc d)) i hd ht]
    unfold ATR
    refine (FA_apply m d ⟨dd.toNat, by omega⟩ ⟨tt.toNat, by omega⟩ _ (by
      show (IDX1 m d L x).toNat % 5000000 = _
      rw [n1, Nat.mod_eq_of_lt (by omega)])).trans ?_
    congr 1
    funext a; match a with
    | ⟨0, _⟩ => exact Fin.ext (congrArg BitVec.toNat hdd.symm)
    | ⟨1, _⟩ => exact Fin.ext (congrArg BitVec.toNat htt.symm)
  have eREFP : REFP m d L (FD m d) x = Cert.ReferenceIdeal.ReadP.val_main_v55 (F := Ideal) (m (posLoc d)) (m (actLoc d)) (m (dataLoc d)) (m (dateLoc d)) (m (timeLoc d)) i := by
    rw [v55_apply (m (posLoc d)) (m (actLoc d)) (m (dataLoc d)) (m (dateLoc d)) (m (timeLoc d)) i hd ht (by rw [hc35]; exact hch3)]
    unfold REFP
    refine (FD_apply m d ⟨dd.toNat, by omega⟩ ⟨tt.toNat, by omega⟩ ⟨ch.toNat, by omega⟩ _ (by
        show (IDX2 m d L x).toNat % 20000000 = _
        rw [n2, Nat.mod_eq_of_lt (by omega)])).trans ?_
    congr 1
    funext a; match a with
    | ⟨0, _⟩ => exact Fin.ext (congrArg BitVec.toNat hdd.symm)
    | ⟨1, _⟩ => exact Fin.ext (congrArg BitVec.toNat htt.symm)
    | ⟨2, _⟩ => exact Fin.ext (congrArg BitVec.toNat hc35.symm)
  -- both sides are one function of the five values
  show OUTF m d (coordsV (pairOf i).1 (pairOf i).2) (FD m d) (FA m d) i = _
  rw [hL]
  conv_lhs => rw [← hi]
  rw [OUTF_at, ref_stop]
  unfold OUTB
  rw [pay_stop, grp16_at, grp16_at, grp16_at, grp16_at, grp16_at, ePOS, eACT, ePREV, eATR, eREFP, stopK_eq_stopR]

end Cert.Proof.TileIdeal

end
-- ==== Proof.lean ====
/-
  A stop-loss update over 16384 positions, computed on the two SparseCores by thirty-two vector subcores of 512
  positions each, against the array expression that computes it in one piece.

  The three programs run to their end, nothing faulting, their seven arguments unchanged: the reference, a host program
  with no kernel, by its run read back; the kernel and its idealization by the SparseCore launch theorem from one proof
  of a subcore's task at a symbolic place, under the precondition that every date index is below 5000 and every time
  index below 1000 (so that both flat indices a subcore forms name rows of the tables it gathers from).
  The idealization differs from the kernel at two places, both the same step: "1.0 with the sign bit of v" read as
  "-1 where v < 0, else 1".
  On the extended reals the two results are equal position by position: the kernel's is, at position i, a function of
  the position, the action and the previous stop at i, of the ratio at (date i, time i) and of the price at
  (date i, time i, channel i); the reference applies the same function to the same five values.
-/
import proofs.«202963_g88613765251846_cont_sun_m_1299_31_alg».proof.Defs
import proofs.«202963_g88613765251846_cont_sun_m_1299_31_alg».proof.Proof.Gen.Kernel
import proofs.«202963_g88613765251846_cont_sun_m_1299_31_alg».proof.Proof.Gen.Kernel.Skeleton
import proofs.«202963_g88613765251846_cont_sun_m_1299_31_alg».proof.Proof.Gen.KernelIdeal
import proofs.«202963_g88613765251846_cont_sun_m_1299_31_alg».proof.Proof.Gen.KernelIdeal.Skeleton
import proofs.«202963_g88613765251846_cont_sun_m_1299_31_alg».proof.Proof.Gen.ReferenceIdeal
import proofs.«202963_g88613765251846_cont_sun_m_1299_31_alg».proof.Proof.Gen.Pre_input_domain
import proofs.«202963_g88613765251846_cont_sun_m_1299_31_alg».proof.Proof.RefFrame
import proofs.«202963_g88613765251846_cont_sun_m_1299_31_alg».proof.Proof.TileLaunchB
import proofs.«202963_g88613765251846_cont_sun_m_1299_31_alg».proof.Proof.TilePreB
import proofs.«202963_g88613765251846_cont_sun_m_1299_31_alg».proof.Proof.TilePre
import proofs.«202963_g88613765251846_cont_sun_m_1299_31_alg».proof.Proof.Bridge
import Idealize.ShloMosaic.Adequacy
import Idealize.ShloMosaic.Init

noncomputable section

namespace Cert.Proof

open Idealize.ShloMosaic Idealize.SL.Sem

/-- The kernel, word for word: its run with the result's value dropped. -/
theorem frame_k : Cert.frame_Kernel (hKernel := Cert.Kernel.Gen.facts) (hPre_input_domain := Cert.Pre_input_domain.Gen.facts) := fun m ρ hpre =>
  (θ_run Cert.Kernel.defs _ _).mono (fun _ h c => ⟨(h c).1, (h c).2.1, (h c).2.2.1, (h c).2.2.2.1, (h c).2.2.2.2.1, (h c).2.2.2.2.2.1, (h c).2.2.2.2.2.2.1⟩)
    (Cert.Proof.TileBits.run_main (F := Bits) m ρ (fun d => Cert.Proof.TileBits.ok_of_pre m d (hpre d)))

/-- The idealized kernel: the same. -/
theorem frame_ki : Cert.frame_KernelIdeal (hKernelIdeal := Cert.KernelIdeal.Gen.facts) (hPre_input_domain := Cert.Pre_input_domain.Gen.facts) := fun m ρ hpre =>
  (θ_run Cert.KernelIdeal.defs _ _).mono (fun _ h c => ⟨(h c).1, (h c).2.1, (h c).2.2.1, (h c).2.2.2.1, (h c).2.2.2.2.1, (h c).2.2.2.2.2.1, (h c).2.2.2.2.2.2.1⟩)
    (Cert.Proof.TileIdeal.run_main (F := Ideal) m ρ (fun d => Cert.Proof.TileIdeal.ok_of_pre m d (hpre d)))

/-- The ideal pass's two rewrites, each the sign-bit rule's statement at sixteen lanes of f32. -/
theorem preserves : Cert.preserves_Kernel_KernelIdeal :=
  ⟨IdealRules.sign_bit.statement Cert.KernelIdeal.S16 .f32, IdealRules.sign_bit.statement Cert.KernelIdeal.S16 .f32⟩

/-- On the extended reals the idealized kernel's result array is the reference's. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m ρ m' ρ' hpre hagree
  have hok : ∀ d, Cert.Proof.TileIdeal.PreOK m d := fun d => Cert.Proof.TileIdeal.ok_of_pre m d (hpre d)
  refine ⟨fun c => Cert.Proof.TileIdeal.OUTG m c, ?_, ?_⟩
  · exact (θ_run Cert.KernelIdeal.defs _ _).mono
      (fun _ h c => ⟨Cert.Proof.TileIdeal.out_of_spec m c _ (h c).2.2.2.2.2.2.2, (h c).1, (h c).2.1, (h c).2.2.1, (h c).2.2.2.1, (h c).2.2.2.2.1, (h c).2.2.2.2.2.1, (h c).2.2.2.2.2.2.1⟩)
      (Cert.Proof.TileIdeal.run_main (F := Ideal) m ρ hok)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v67_eq, (hagree c).1, (hagree c).2.1, (hagree c).2.2.1, (hagree c).2.2.2.1, (hagree c).2.2.2.2.1,
      (hagree c).2.2.2.2.2.1, (hagree c).2.2.2.2.2.2]
    exact (funext fun i => Cert.Proof.TileIdeal.out_eq_ref m c (hok c) i).symm

theorem claim : Cert.Claim :=
  ⟨Cert.Kernel.Gen.facts, Cert.KernelIdeal.Gen.facts, Cert.ReferenceIdeal.Gen.facts, Cert.Pre_input_domain.Gen.facts,
    frame_k, frame_ki, Cert.Proof.RefFrame.frame_ri, preserves, algebraic⟩

end Cert.Proof

end
